-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x16 : Shape := ⟨2, ![200000, 16]⟩
abbrev S2x6400000 : Shape := ⟨2, ![2, 6400000]⟩
abbrev S16x8 : Shape := ⟨2, ![16, 8]⟩
abbrev S8 : Shape := ⟨1, ![8]⟩
abbrev S8x16 : Shape := ⟨2, ![8, 16]⟩
abbrev S16 : Shape := ⟨1, ![16]⟩
abbrev S8x2 : Shape := ⟨2, ![8, 2]⟩
abbrev S2 : Shape := ⟨1, ![2]⟩
abbrev S_ : Shape := ⟨0, ![]⟩

class Facts : Prop where
  bcast_S_S200000x16 : S_.BroadcastsInDim S200000x16 (![] : Fin 0 → Fin S200000x16.rank)
  reducesTo_S200000x16_S_d0_1 : S200000x16.ReducesTo [0, 1] S_
  h_S_ : 0 < S_.numel
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S8x2 : S_.BroadcastsInDim S8x2 (![] : Fin 0 → Fin S8x2.rank)
  reducesTo_S8x2_S_d0_1 : S8x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S8x2 .f32) (main_arg9 : FVec F S2 .f32) (main_v33 : IVec S_ 1) : IVec S_ 1 :=
  let main_v34 : FVec F S8x2 .f32 := Host.absf main_arg8
  let main_cst_12 : FVec F S_ .f32 := constant S_ .f32 0x7F800000#32
  let main_v35 : FVec F S8x2 .f32 := broadcastInDim S8x2 ![] bcast_S_S8x2 main_cst_12
  let main_v36 : IVec S8x2 1 := cmpf .olt main_v34 main_v35
  let main_c_13 : IVec S_ 1 := constantI S_ 1 1#1
  let main_v37 : IVec S_ 1 := (fun x v => Host.reduce IntOp.andi x v reducesTo_S8x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S16 .f32) (main_arg6 : FVec F S16x8 .f32) (main_arg7 : FVec F S8 .f32) (main_arg8 : FVec F S8x2 .f32) (main_arg9 : FVec F S2 .f32) (main_v13 : IVec S_ 1) (main_v16 : IVec S8x16 1) : IVec S_ 1 :=
  let main_c_5 : IVec S_ 1 := constantI S_ 1 1#1
  let main_v17 : IVec S_ 1 := (fun x v => Host.reduce IntOp.andi x v reducesTo_S8x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x8 .f32 := Host.absf main_arg6
  let main_cst_8 : FVec F S_ .f32 := constant S_ .f32 0x7F800000#32
  let main_v25 : FVec F S16x8 .f32 := broadcastInDim S16x8 ![] bcast_S_S16x8 main_cst_8
  let main_v26 : IVec S16x8 1 := cmpf .olt main_v24 main_v25
  let main_c_9 : IVec S_ 1 := constantI S_ 1 1#1
  let main_v27 : IVec S_ 1 := (fun x v => Host.reduce IntOp.andi x v reducesTo_S16x8_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg8 main_arg9 main_v33

def fn {F : FTy → Type} [FloatOps F] (main_arg0 : FVec F S200000x16 .f32) (main_arg1 : IVec S2x6400000 32) (main_arg2 : FVec F S16x8 .f32) (main_arg3 : FVec F S8 .f32) (main_arg4 : FVec F S8x16 .f32) (main_arg5 : FVec F S16 .f32) (main_arg6 : FVec F S16x8 .f32) (main_arg7 : FVec F S8 .f32) (main_arg8 : FVec F S8x2 .f32) (main_arg9 : FVec F S2 .f32) : IVec S_ 1 :=
  let main_v0 : FVec F S200000x16 .f32 := Host.absf main_arg0
  let main_cst : FVec F S_ .f32 := constant S_ .f32 0x7F800000#32
  let main_v1 : FVec F S200000x16 .f32 := broadcastInDim S200000x16 ![] bcast_S_S200000x16 main_cst
  let main_v2 : IVec S200000x16 1 := cmpf .olt main_v0 main_v1
  let main_c : IVec S_ 1 := constantI S_ 1 1#1
  let main_v3 : IVec S_ 1 := (fun x v => Host.reduce IntOp.andi x v reducesTo_S200000x16_S_d0_1 h_S_) main_v2 main_c
  let main_v4 : FVec F S16x8 .f32 := Host.absf main_arg2
  let main_cst_0 : FVec F S_ .f32 := constant S_ .f32 0x7F800000#32
  let main_v5 : FVec F S16x8 .f32 := broadcastInDim S16x8 ![] bcast_S_S16x8 main_cst_0
  let main_v6 : IVec S16x8 1 := cmpf .olt main_v4 main_v5
  let main_c_1 : IVec S_ 1 := constantI S_ 1 1#1
  let main_v7 : IVec S_ 1 := (fun x v => Host.reduce IntOp.andi x v reducesTo_S16x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x16 .f32 := Host.absf main_arg4
  let main_cst_4 : FVec F S_ .f32 := constant S_ .f32 0x7F800000#32
  let main_v15 : FVec F S8x16 .f32 := broadcastInDim S8x16 ![] bcast_S_S8x16 main_cst_4
  let main_v16 : IVec S8x16 1 := cmpf .olt main_v14 main_v15
  fn_part1 (F := F) main_arg5 main_arg6 main_arg7 main_arg8 main_arg9 main_v13 main_v16
-- ==== Kernel.lean ====
abbrev S200000x16 : Shape := ⟨2, ![200000, 16]⟩
abbrev S2x6400000 : Shape := ⟨2, ![2, 6400000]⟩
abbrev S16x8 : Shape := ⟨2, ![16, 8]⟩
abbrev S8 : Shape := ⟨1, ![8]⟩
abbrev S8x16 : Shape := ⟨2, ![8, 16]⟩
abbrev S16 : Shape := ⟨1, ![16]⟩
abbrev S8x2 : Shape := ⟨2, ![8, 2]⟩
abbrev S2 : Shape := ⟨1, ![2]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x8 : Shape := ⟨2, ![200000, 8]⟩
abbrev S10000x16 : Shape := ⟨2, ![10000, 16]⟩
abbrev S10000x8 : Shape := ⟨2, ![10000, 8]⟩
abbrev S6600000x8 : Shape := ⟨2, ![6600000, 8]⟩
abbrev S1x8 : Shape := ⟨2, ![1, 8]⟩
abbrev S6600000x16 : Shape := ⟨2, ![6600000, 16]⟩
abbrev S1x16 : Shape := ⟨2, ![1, 16]⟩
abbrev S200000x2 : Shape := ⟨2, ![200000, 2]⟩
abbrev S10000x2 : Shape := ⟨2, ![10000, 2]⟩
abbrev S6600000x2 : Shape := ⟨2, ![6600000, 2]⟩
abbrev S1x2 : Shape := ⟨2, ![1, 2]⟩
abbrev S10000 : Shape := ⟨1, ![10000]⟩
abbrev S10000x1 : Shape := ⟨2, ![10000, 1]⟩

abbrev nBuf : Space → Nat
  | .hbm => 122
  | .vmem => 40
  | .smem => 0
  | _ => 0

abbrev bufTy : (tb : Table) → Fin (tcTables nBuf tb) → BufTy
  | .hbm, ⟨0, _⟩ => ⟨S200000x16, .f32⟩
  | .hbm, ⟨1, _⟩ => ⟨S2x6400000, .i32⟩
  | .hbm, ⟨2, _⟩ => ⟨S16x8, .f32⟩
  | .hbm, ⟨3, _⟩ => ⟨S8, .f32⟩
  | .hbm, ⟨4, _⟩ => ⟨S8x16, .f32⟩
  | .hbm, ⟨5, _⟩ => ⟨S16, .f32⟩
  | .hbm, ⟨6, _⟩ => ⟨S16x8, .f32⟩
  | .hbm, ⟨7, _⟩ => ⟨S8, .f32⟩
  | .hbm, ⟨8, _⟩ => ⟨S8x2, .f32⟩
  | .hbm, ⟨9, _⟩ => ⟨S2, .f32⟩
  | .hbm, ⟨10, _⟩ => ⟨S200000, .i32⟩
  | .hbm, ⟨11, _⟩ => ⟨S1x6400000, .i32⟩
  | .hbm, ⟨12, _⟩ => ⟨S6400000, .i32⟩
  | .hbm, ⟨13, _⟩ => ⟨S6600000, .i32⟩
  | .hbm, ⟨14, _⟩ => ⟨S1x6400000, .i32⟩
  | .hbm, ⟨15, _⟩ => ⟨S6400000, .i32⟩
  | .hbm, ⟨16, _⟩ => ⟨S6600000, .i32⟩
  | .hbm, ⟨17, _⟩ => ⟨S_, .f32⟩
  | .hbm, ⟨18, _⟩ => ⟨S6600000, .f32⟩
  | .hbm, ⟨19, _⟩ => ⟨S_, .f32⟩
  | .hbm, ⟨20, _⟩ => ⟨S200000, .f32⟩
  | .hbm, ⟨21, _⟩ => ⟨S6600000x1, .i32⟩
  | .hbm, ⟨22, _⟩ => ⟨S200000, .f32⟩
  | .hbm, ⟨23, _⟩ => ⟨S_, .f32⟩
  | .hbm, ⟨24, _⟩ => ⟨S200000, .f32⟩
  | .hbm, ⟨25, _⟩ => ⟨S200000, .f32⟩
  | .hbm, ⟨26, _⟩ => ⟨S200000, .f32⟩
  | .hbm, ⟨27, _⟩ => ⟨S_, .i32⟩
  | .hbm, ⟨28, _⟩ => ⟨S6600000, .i32⟩
  | .hbm, ⟨29, _⟩ => ⟨S6600000, .i1⟩
  | .hbm, ⟨30, _⟩ => ⟨S_, .i32⟩
  | .hbm, ⟨31, _⟩ => ⟨S6600000, .i32⟩
  | .hbm, ⟨32, _⟩ => ⟨S6600000, .i32⟩
  | .hbm, ⟨33, _⟩ => ⟨S6600000, .i32⟩
  | .hbm, ⟨34, _⟩ => ⟨S6600000x1, .i32⟩
  | .hbm, ⟨35, _⟩ => ⟨S6600000, .f32⟩
  | .hbm, ⟨36, _⟩ => ⟨S_, .i32⟩
  | .hbm, ⟨37, _⟩ => ⟨S6600000, .i32⟩
  | .hbm, ⟨38, _⟩ => ⟨S6600000, .i1⟩
  | .hbm, ⟨39, _⟩ => ⟨S_, .i32⟩
  | .hbm, ⟨40, _⟩ => ⟨S6600000, .i32⟩
  | .hbm, ⟨41, _⟩ => ⟨S6600000, .i32⟩
  | .hbm, ⟨42, _⟩ => ⟨S6600000, .i32⟩
  | .hbm, ⟨43, _⟩ => ⟨S6600000x1, .i32⟩
  | .hbm, ⟨44, _⟩ => ⟨S6600000, .f32⟩
  | .hbm, ⟨45, _⟩ => ⟨S6600000, .f32⟩
  | .hbm, ⟨46, _⟩ => ⟨S200000x8, .f32⟩
  | .hbm, ⟨47, _⟩ => ⟨S_, .i32⟩
  | .hbm, ⟨48, _⟩ => ⟨S6600000, .i32⟩
  | .hbm, ⟨49, _⟩ => ⟨S6600000, .i1⟩
  | .hbm, ⟨50, _⟩ => ⟨S_, .i32⟩
  | .hbm, ⟨51, _⟩ => ⟨S6600000, .i32⟩
  | .hbm, ⟨52, _⟩ => ⟨S6600000, .i32⟩
  | .hbm, ⟨53, _⟩ => ⟨S6600000, .i32⟩
  | .hbm, ⟨54, _⟩ => ⟨S6600000x1, .i32⟩
  | .hbm, ⟨55, _⟩ => ⟨S6600000x8, .f32⟩
  | .hbm, ⟨56, _⟩ => ⟨S6600000x1, .f32⟩
  | .hbm, ⟨57, _⟩ => ⟨S6600000x8, .f32⟩
  | .hbm, ⟨58, _⟩ => ⟨S6600000x8, .f32⟩
  | .hbm, ⟨59, _⟩ => ⟨S_, .f32⟩
  | .hbm, ⟨60, _⟩ => ⟨S200000x8, .f32⟩
  | .hbm, ⟨61, _⟩ => ⟨S6600000x1, .i32⟩
  | .hbm, ⟨62, _⟩ => ⟨S200000x8, .f32⟩
  | .hbm, ⟨63, _⟩ => ⟨S1x8, .f32⟩
  | .hbm, ⟨64, _⟩ => ⟨S200000x8, .f32⟩
  | .hbm, ⟨65, _⟩ => ⟨S200000x16, .f32⟩
  | .hbm, ⟨66, _⟩ => ⟨S_, .i32⟩
  | .hbm, ⟨67, _⟩ => ⟨S6600000, .i32⟩
  | .hbm, ⟨68, _⟩ => ⟨S6600000, .i1⟩
  | .hbm, ⟨69, _⟩ => ⟨S_, .i32⟩
  | .hbm, ⟨70, _⟩ => ⟨S6600000, .i32⟩
  | .hbm, ⟨71, _⟩ => ⟨S6600000, .i32⟩
  | .hbm, ⟨72, _⟩ => ⟨S6600000, .i32⟩
  | .hbm, ⟨73, _⟩ => ⟨S6600000x1, .i32⟩
  | .hbm, ⟨74, _⟩ => ⟨S6600000x16, .f32⟩
  | .hbm, ⟨75, _⟩ => ⟨S6600000x1, .f32⟩
  | .hbm, ⟨76, _⟩ => ⟨S6600000x16, .f32⟩
  | .hbm, ⟨77, _⟩ => ⟨S6600000x16, .f32⟩
  | .hbm, ⟨78, _⟩ => ⟨S_, .f32⟩
  | .hbm, ⟨79, _⟩ => ⟨S200000x16, .f32⟩
  | .hbm, ⟨80, _⟩ => ⟨S6600000x1, .i32⟩
  | .hbm, ⟨81, _⟩ => ⟨S200000x16, .f32⟩
  | .hbm, ⟨82, _⟩ => ⟨S1x16, .f32⟩
  | .hbm, ⟨83, _⟩ => ⟨S200000x16, .f32⟩
  | .hbm, ⟨84, _⟩ => ⟨S200000x8, .f32⟩
  | .hbm, ⟨85, _⟩ => ⟨S_, .i32⟩
  | .hbm, ⟨86, _⟩ => ⟨S6600000, .i32⟩
  | .hbm, ⟨87, _⟩ => ⟨S6600000, .i1⟩
  | .hbm, ⟨88, _⟩ => ⟨S_, .i32⟩
  | .hbm, ⟨89, _⟩ => ⟨S6600000, .i32⟩
  | .hbm, ⟨90, _⟩ => ⟨S6600000, .i32⟩
  | .hbm, ⟨91, _⟩ => ⟨S6600000, .i32⟩
  | .hbm, ⟨92, _⟩ => ⟨S6600000x1, .i32⟩
  | .hbm, ⟨93, _⟩ => ⟨S6600000x8, .f32⟩
  | .hbm, ⟨94, _⟩ => ⟨S6600000x1, .f32⟩
  | .hbm, ⟨95, _⟩ => ⟨S6600000x8, .f32⟩
  | .hbm, ⟨96, _⟩ => ⟨S6600000x8, .f32⟩
  | .hbm, ⟨97, _⟩ => ⟨S_, .f32⟩
  | .hbm, ⟨98, _⟩ => ⟨S200000x8, .f32⟩
  | .hbm, ⟨99, _⟩ => ⟨S6600000x1, .i32⟩
  | .hbm, ⟨100, _⟩ => ⟨S200000x8, .f32⟩
  | .hbm, ⟨101, _⟩ => ⟨S1x8, .f32⟩
  | .hbm, ⟨102, _⟩ => ⟨S200000x8, .f32⟩
  | .hbm, ⟨103, _⟩ => ⟨S200000x2, .f32⟩
  | .hbm, ⟨104, _⟩ => ⟨S_, .i32⟩
  | .hbm, ⟨105, _⟩ => ⟨S6600000, .i32⟩
  | .hbm, ⟨106, _⟩ => ⟨S6600000, .i1⟩
  | .hbm, ⟨107, _⟩ => ⟨S_, .i32⟩
  | .hbm, ⟨108, _⟩ => ⟨S6600000, .i32⟩
  | .hbm, ⟨109, _⟩ => ⟨S6600000, .i32⟩
  | .hbm, ⟨110, _⟩ => ⟨S6600000, .i32⟩
  | .hbm, ⟨111, _⟩ => ⟨S6600000x1, .i32⟩
  | .hbm, ⟨112, _⟩ => ⟨S6600000x2, .f32⟩
  | .hbm, ⟨113, _⟩ => ⟨S6600000x1, .f32⟩
  | .hbm, ⟨114, _⟩ => ⟨S6600000x2, .f32⟩
  | .hbm, ⟨115, _⟩ => ⟨S6600000x2, .f32⟩
  | .hbm, ⟨116, _⟩ => ⟨S_, .f32⟩
  | .hbm, ⟨117, _⟩ => ⟨S200000x2, .f32⟩
  | .hbm, ⟨118, _⟩ => ⟨S6600000x1, .i32⟩
  | .hbm, ⟨119, _⟩ => ⟨S200000x2, .f32⟩
  | .hbm, ⟨120, _⟩ => ⟨S1x2, .f32⟩
  | .hbm, ⟨121, _⟩ => ⟨S200000x2, .f32⟩
  | .local _ .vmem, ⟨0, _⟩ => ⟨S10000x16, .f32⟩
  | .local _ .vmem, ⟨1, _⟩ => ⟨S10000x16, .f32⟩
  | .local _ .vmem, ⟨2, _⟩ => ⟨S16x8, .f32⟩
  | .local _ .vmem, ⟨3, _⟩ => ⟨S10000x8, .f32⟩
  | .local _ .vmem, ⟨4, _⟩ => ⟨S10000x8, .f32⟩
  | .local _ .vmem, ⟨5, _⟩ => ⟨S10000x8, .f32⟩
  | .local _ .vmem, ⟨6, _⟩ => ⟨S10000x8, .f32⟩
  | .local _ .vmem, ⟨7, _⟩ => ⟨S1x8, .f32⟩
  | .local _ .vmem, ⟨8, _⟩ => ⟨S10000x8, .f32⟩
  | .local _ .vmem, ⟨9, _⟩ => ⟨S10000x8, .f32⟩
  | .local _ .vmem, ⟨10, _⟩ => ⟨S10000x8, .f32⟩
  | .local _ .vmem, ⟨11, _⟩ => ⟨S10000x8, .f32⟩
  | .local _ .vmem, ⟨12, _⟩ => ⟨S8x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S1x16, .f32⟩
  | .local _ .vmem, ⟨18, _⟩ => ⟨S10000x16, .f32⟩
  | .local _ .vmem, ⟨19, _⟩ => ⟨S10000x16, .f32⟩
  | .local _ .vmem, ⟨20, _⟩ => ⟨S10000x16, .f32⟩
  | .local _ .vmem, ⟨21, _⟩ => ⟨S10000x16, .f32⟩
  | .local _ .vmem, ⟨22, _⟩ => ⟨S16x8, .f32⟩
  | .local _ .vmem, ⟨23, _⟩ => ⟨S10000x8, .f32⟩
  | .local _ .vmem, ⟨24, _⟩ => ⟨S10000x8, .f32⟩
  | .local _ .vmem, ⟨25, _⟩ => ⟨S10000x8, .f32⟩
  | .local _ .vmem, ⟨26, _⟩ => ⟨S10000x8, .f32⟩
  | .local _ .vmem, ⟨27, _⟩ => ⟨S1x8, .f32⟩
  | .local _ .vmem, ⟨28, _⟩ => ⟨S10000x8, .f32⟩
  | .local _ .vmem, ⟨29, _⟩ => ⟨S10000x8, .f32⟩
  | .local _ .vmem, ⟨30, _⟩ => ⟨S10000x8, .f32⟩
  | .local _ .vmem, ⟨31, _⟩ => ⟨S10000x8, .f32⟩
  | .local _ .vmem, ⟨32, _⟩ => ⟨S8x2, .f32⟩
  | .local _ .vmem, ⟨33, _⟩ => ⟨S10000x2, .f32⟩
  | .local _ .vmem, ⟨34, _⟩ => ⟨S10000x2, .f32⟩
  | .local _ .vmem, ⟨35, _⟩ => ⟨S10000x2, .f32⟩
  | .local _ .vmem, ⟨36, _⟩ => ⟨S10000x2, .f32⟩
  | .local _ .vmem, ⟨37, _⟩ => ⟨S1x2, .f32⟩
  | .local _ .vmem, ⟨38, _⟩ => ⟨S10000x2, .f32⟩
  | .local _ .vmem, ⟨39, _⟩ => ⟨S10000x2, .f32⟩
  | _, _ => ⟨S200000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_8 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_11 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_13 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_14 : Ref sig .tc := ⟨.hbm, 104, rfl⟩
abbrev main_v78 : Ref sig .tc := ⟨.hbm, 105, rfl⟩
abbrev main_v79 : Ref sig .tc := ⟨.hbm, 106, rfl⟩
abbrev main_c_15 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_16 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x8 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x8 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x8 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x8 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x8 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x8 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x2 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x2 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x2 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x2 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x8_S16x8_0_0 : ∀ a, (![0, 0] : Fin 2 → Nat) a + S16x8.size a ≤ S16x8.size a
  h_S16x8 : 0 < S16x8.numel
  inb_S10000x8_S10000x8_0_0 : ∀ a, (![0, 0] : Fin 2 → Nat) a + S10000x8.size a ≤ S10000x8.size a
  h_S10000x8 : 0 < S10000x8.numel
  bcast_S6600000x1_S6600000x8_0_1 : S6600000x1.BroadcastsInDim S6600000x8 (![0, 1] : Fin 2 → Fin S6600000x8.rank)
  bcast_S_S200000x8 : S_.BroadcastsInDim S200000x8 (![] : Fin 0 → Fin S200000x8.rank)
  shapeCasts_S8_S1x8 : S8.ShapeCasts S1x8
  shapeCasts_S10000x8_S10000x8 : S10000x8.ShapeCasts S10000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  inb_S8x16_S8x16_0_0 : ∀ a, (![0, 0] : Fin 2 → Nat) a + S8x16.size a ≤ S8x16.size a
  h_S8x16 : 0 < S8x16.numel
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S8x2_S8x2_0_0 : ∀ a, (![0, 0] : Fin 2 → Nat) a + S8x2.size a ≤ S8x2.size a
  h_S8x2 : 0 < S8x2.numel
  inb_S10000x2_S10000x2_0_0 : ∀ a, (![0, 0] : Fin 2 → Nat) a + S10000x2.size a ≤ S10000x2.size a
  h_S10000x2 : 0 < S10000x2.numel
  bcast_S6600000x1_S6600000x2_0_1 : S6600000x1.BroadcastsInDim S6600000x2 (![0, 1] : Fin 2 → Fin S6600000x2.rank)
  bcast_S_S200000x2 : S_.BroadcastsInDim S200000x2 (![] : Fin 0 → Fin S200000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S10000x16_S16x8_S10000x8_1_0_0_1_n_n_wf : DotDims.WF S10000x16 S16x8 S10000x8 [1] [0] [0] [1] [] []
  gather_S200000x8_S6600000x1_S6600000x8_1_0_n_n_0_1_18_wf : GatherDims.WF S200000x8 S6600000x1 S6600000x8 [1] [0] [] [0] [] 1 ![1, 8]
  scatter_S200000x8_S6600000x1_S6600000x8_1_0_0_1_wf : ScatterDims.WF S200000x8 S6600000x1 S6600000x8 [1] [0] [0] 1
  dot_S10000x8_S8x16_S10000x16_1_0_0_1_n_n_wf : DotDims.WF S10000x8 S8x16 S10000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S10000x8_S8x2_S10000x2_1_0_0_1_n_n_wf : DotDims.WF S10000x8 S8x2 S10000x2 [1] [0] [0] [1] [] []
  gather_S200000x2_S6600000x1_S6600000x2_1_0_n_n_0_1_12_wf : GatherDims.WF S200000x2 S6600000x1 S6600000x2 [1] [0] [] [0] [] 1 ![1, 2]
  scatter_S200000x2_S6600000x1_S6600000x2_1_0_0_1_wf : ScatterDims.WF S200000x2 S6600000x1 S6600000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S200000x16.size a
  hwx0_0 : ∀ i : grid0.Coords, EltTy.bits .f32 = 32 ∨ (Rect.block (s := S200000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x8.size a ≤ S16x8.size a
  hwx0_1 : ∀ i : grid0.Coords, EltTy.bits .f32 = 32 ∨ (Rect.block (s := S16x8) S16x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x8.size a ≤ S200000x8.size a
  hwx0_2 : ∀ i : grid0.Coords, EltTy.bits .f32 = 32 ∨ (Rect.block (s := S200000x8) S10000x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x8.size a ≤ S200000x8.size a
  hwx1_0 : ∀ i : grid1.Coords, EltTy.bits .f32 = 32 ∨ (Rect.block (s := S200000x8) S10000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8.size a ≤ S1x8.size a
  hwx1_1 : ∀ i : grid1.Coords, EltTy.bits .f32 = 32 ∨ (Rect.block (s := S1x8) S1x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x8.size a ≤ S200000x8.size a
  hwx1_2 : ∀ i : grid1.Coords, EltTy.bits .f32 = 32 ∨ (Rect.block (s := S200000x8) S10000x8.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x8.size a ≤ S200000x8.size a
  hwx2_0 : ∀ i : grid2.Coords, EltTy.bits .f32 = 32 ∨ (Rect.block (s := S200000x8) S10000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x16.size a ≤ S8x16.size a
  hwx2_1 : ∀ i : grid2.Coords, EltTy.bits .f32 = 32 ∨ (Rect.block (s := S8x16) S8x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S200000x16.size a
  hwx2_2 : ∀ i : grid2.Coords, EltTy.bits .f32 = 32 ∨ (Rect.block (s := S200000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S200000x16.size a
  hwx3_0 : ∀ i : grid3.Coords, EltTy.bits .f32 = 32 ∨ (Rect.block (s := S200000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x16.size a ≤ S200000x16.size a
  hwx3_2 : ∀ i : grid3.Coords, EltTy.bits .f32 = 32 ∨ (Rect.block (s := S200000x16) S10000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x16.size a ≤ S200000x16.size a
  hwx4_0 : ∀ i : grid4.Coords, EltTy.bits .f32 = 32 ∨ (Rect.block (s := S200000x16) S10000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x8.size a ≤ S16x8.size a
  hwx4_1 : ∀ i : grid4.Coords, EltTy.bits .f32 = 32 ∨ (Rect.block (s := S16x8) S16x8.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x8.size a ≤ S200000x8.size a
  hwx4_2 : ∀ i : grid4.Coords, EltTy.bits .f32 = 32 ∨ (Rect.block (s := S200000x8) S10000x8.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x8.size a ≤ S200000x8.size a
  hwx5_0 : ∀ i : grid5.Coords, EltTy.bits .f32 = 32 ∨ (Rect.block (s := S200000x8) S10000x8.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x8.size a ≤ S1x8.size a
  hwx5_1 : ∀ i : grid5.Coords, EltTy.bits .f32 = 32 ∨ (Rect.block (s := S1x8) S1x8.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x8.size a ≤ S200000x8.size a
  hwx5_2 : ∀ i : grid5.Coords, EltTy.bits .f32 = 32 ∨ (Rect.block (s := S200000x8) S10000x8.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x8.size a ≤ S200000x8.size a
  hwx6_0 : ∀ i : grid6.Coords, EltTy.bits .f32 = 32 ∨ (Rect.block (s := S200000x8) S10000x8.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S8x2.size a ≤ S8x2.size a
  hwx6_1 : ∀ i : grid6.Coords, EltTy.bits .f32 = 32 ∨ (Rect.block (s := S8x2) S8x2.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x2.size a ≤ S200000x2.size a
  hwx6_2 : ∀ i : grid6.Coords, EltTy.bits .f32 = 32 ∨ (Rect.block (s := S200000x2) S10000x2.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x2.size a ≤ S200000x2.size a
  hwx7_0 : ∀ i : grid7.Coords, EltTy.bits .f32 = 32 ∨ (Rect.block (s := S200000x2) S10000x2.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x2.size a ≤ S1x2.size a
  hwx7_1 : ∀ i : grid7.Coords, EltTy.bits .f32 = 32 ∨ (Rect.block (s := S1x2) S1x2.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x2.size a ≤ S200000x2.size a
  hwx7_2 : ∀ i : grid7.Coords, EltTy.bits .f32 = 32 ∨ (Rect.block (s := S200000x2) S10000x2.size (cc7_transform_2 i) (hinb7_2 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def gather_S200000x8_S6600000x1_S6600000x8_1_0_n_n_0_1_18 : GatherDims S200000x8 S6600000x1 S6600000x8 where
  offsetDims := [1]
  collapsedSliceDims := [0]
  operandBatchingDims := []
  startIndicesBatchingDims := []
  startIndexMap := [0]
  indexVectorDim := 1
  sliceSizes := ![1, 8]
  wf := gather_S200000x8_S6600000x1_S6600000x8_1_0_n_n_0_1_18_wf
def scatter_S200000x8_S6600000x1_S6600000x8_1_0_0_1 : ScatterDims S200000x8 S6600000x1 S6600000x8 where
  updateWindowDims := [1]
  insertedWindowDims := [0]
  scatterDimsToOperandDims := [0]
  indexVectorDim := 1
  wf := scatter_S200000x8_S6600000x1_S6600000x8_1_0_0_1_wf
def dot_S10000x8_S8x16_S10000x16_1_0_0_1_n_n : DotDims S10000x8 S8x16 S10000x16 where
  lhsContracting := [1]
  rhsContracting := [0]
  lhsNonContracting := [0]
  rhsNonContracting := [1]
  lhsBatch := []
  rhsBatch := []
  wf := dot_S10000x8_S8x16_S10000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S10000x8_S8x2_S10000x2_1_0_0_1_n_n : DotDims S10000x8 S8x2 S10000x2 where
  lhsContracting := [1]
  rhsContracting := [0]
  lhsNonContracting := [0]
  rhsNonContracting := [1]
  lhsBatch := []
  rhsBatch := []
  wf := dot_S10000x8_S8x2_S10000x2_1_0_0_1_n_n_wf
def gather_S200000x2_S6600000x1_S6600000x2_1_0_n_n_0_1_12 : GatherDims S200000x2 S6600000x1 S6600000x2 where
  offsetDims := [1]
  collapsedSliceDims := [0]
  operandBatchingDims := []
  startIndicesBatchingDims := []
  startIndexMap := [0]
  indexVectorDim := 1
  sliceSizes := ![1, 2]
  wf := gather_S200000x2_S6600000x1_S6600000x2_1_0_n_n_0_1_12_wf
def scatter_S200000x2_S6600000x1_S6600000x2_1_0_0_1 : ScatterDims S200000x2 S6600000x1 S6600000x2 where
  updateWindowDims := [1]
  insertedWindowDims := [0]
  scatterDimsToOperandDims := [0]
  indexVectorDim := 1
  wf := scatter_S200000x2_S6600000x1_S6600000x2_1_0_0_1_wf

abbrev win0_0 : Pipeline.Window sig grid0 :=
  Pipeline.Window.ofSpec (Memref.whole main_arg0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S8x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S10000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S10000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S16x8.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S10000x8.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S10000x8.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x8.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S10000x8.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v76) S10000x8.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S8x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v77) S10000x2.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v90) S10000x2.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v91) S1x2.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v92) S10000x2.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S200000x16 : Shape := ⟨2, ![200000, 16]⟩
abbrev S2x6400000 : Shape := ⟨2, ![2, 6400000]⟩
abbrev S16x8 : Shape := ⟨2, ![16, 8]⟩
abbrev S8 : Shape := ⟨1, ![8]⟩
abbrev S8x16 : Shape := ⟨2, ![8, 16]⟩
abbrev S16 : Shape := ⟨1, ![16]⟩
abbrev S8x2 : Shape := ⟨2, ![8, 2]⟩
abbrev S2 : Shape := ⟨1, ![2]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x8 : Shape := ⟨2, ![200000, 8]⟩
abbrev S6600000x8 : Shape := ⟨2, ![6600000, 8]⟩
abbrev S1x8 : Shape := ⟨2, ![1, 8]⟩
abbrev S6600000x16 : Shape := ⟨2, ![6600000, 16]⟩
abbrev S1x16 : Shape := ⟨2, ![1, 16]⟩
abbrev S200000x2 : Shape := ⟨2, ![200000, 2]⟩
abbrev S6600000x2 : Shape := ⟨2, ![6600000, 2]⟩
abbrev S1x2 : Shape := ⟨2, ![1, 2]⟩
abbrev S200000x1 : Shape := ⟨2, ![200000, 1]⟩

abbrev nBuf : Space → Nat
  | .hbm => 189
  | .vmem => 0
  | .smem => 0
  | _ => 0

abbrev hbmTy0_0 (i : Nat) : BufTy := match i % 128 with
  | 0 => ⟨S200000x16, .f32⟩
  | 1 => ⟨S2x6400000, .i32⟩
  | 2 => ⟨S16x8, .f32⟩
  | 3 => ⟨S8, .f32⟩
  | 4 => ⟨S8x16, .f32⟩
  | 5 => ⟨S16, .f32⟩
  | 6 => ⟨S16x8, .f32⟩
  | 7 => ⟨S8, .f32⟩
  | 8 => ⟨S8x2, .f32⟩
  | 9 => ⟨S2, .f32⟩
  | 10 => ⟨S200000, .i32⟩
  | 11 => ⟨S1x6400000, .i32⟩
  | 12 => ⟨S6400000, .i32⟩
  | 13 => ⟨S6600000, .i32⟩
  | 14 => ⟨S1x6400000, .i32⟩
  | 15 => ⟨S6400000, .i32⟩
  | 16 => ⟨S6600000, .i32⟩
  | 17 => ⟨S_, .f32⟩
  | 18 => ⟨S6600000, .f32⟩
  | 19 => ⟨S_, .f32⟩
  | 20 => ⟨S200000, .f32⟩
  | 21 => ⟨S6600000x1, .i32⟩
  | 22 => ⟨S200000, .f32⟩
  | 23 => ⟨S_, .f32⟩
  | 24 => ⟨S200000, .f32⟩
  | 25 => ⟨S200000, .f32⟩
  | 26 => ⟨S200000, .f32⟩
  | 27 => ⟨S_, .i32⟩
  | 28 => ⟨S6600000, .i32⟩
  | 29 => ⟨S6600000, .i1⟩
  | 30 => ⟨S_, .i32⟩
  | 31 => ⟨S6600000, .i32⟩
  | 32 => ⟨S6600000, .i32⟩
  | 33 => ⟨S6600000, .i32⟩
  | 34 => ⟨S6600000x1, .i32⟩
  | 35 => ⟨S6600000, .f32⟩
  | 36 => ⟨S_, .i32⟩
  | 37 => ⟨S6600000, .i32⟩
  | 38 => ⟨S6600000, .i1⟩
  | 39 => ⟨S_, .i32⟩
  | 40 => ⟨S6600000, .i32⟩
  | 41 => ⟨S6600000, .i32⟩
  | 42 => ⟨S6600000, .i32⟩
  | 43 => ⟨S6600000x1, .i32⟩
  | 44 => ⟨S6600000, .f32⟩
  | 45 => ⟨S6600000, .f32⟩
  | 46 => ⟨S200000x8, .f32⟩
  | 47 => ⟨S_, .i32⟩
  | 48 => ⟨S6600000, .i32⟩
  | 49 => ⟨S6600000, .i1⟩
  | 50 => ⟨S_, .i32⟩
  | 51 => ⟨S6600000, .i32⟩
  | 52 => ⟨S6600000, .i32⟩
  | 53 => ⟨S6600000, .i32⟩
  | 54 => ⟨S6600000x1, .i32⟩
  | 55 => ⟨S6600000x8, .f32⟩
  | 56 => ⟨S6600000x1, .f32⟩
  | 57 => ⟨S6600000x8, .f32⟩
  | 58 => ⟨S6600000x8, .f32⟩
  | 59 => ⟨S_, .f32⟩
  | 60 => ⟨S200000x8, .f32⟩
  | 61 => ⟨S6600000x1, .i32⟩
  | 62 => ⟨S200000x8, .f32⟩
  | 63 => ⟨S1x8, .f32⟩
  | 64 => ⟨S200000x8, .f32⟩
  | 65 => ⟨S200000x8, .f32⟩
  | 66 => ⟨S_, .f32⟩
  | 67 => ⟨S200000x8, .f32⟩
  | 68 => ⟨S200000x8, .f32⟩
  | 69 => ⟨S200000x8, .f32⟩
  | 70 => ⟨S200000x8, .f32⟩
  | 71 => ⟨S200000x8, .i1⟩
  | 72 => ⟨S200000x8, .f32⟩
  | 73 => ⟨S200000x8, .f32⟩
  | 74 => ⟨S200000x8, .f32⟩
  | 75 => ⟨S200000x8, .f32⟩
  | 76 => ⟨S200000x8, .f32⟩
  | 77 => ⟨S200000x8, .f32⟩
  | 78 => ⟨S200000x8, .f32⟩
  | 79 => ⟨S200000x8, .f32⟩
  | 80 => ⟨S200000x8, .f32⟩
  | 81 => ⟨S200000x8, .f32⟩
  | 82 => ⟨S200000x16, .f32⟩
  | 83 => ⟨S_, .i32⟩
  | 84 => ⟨S6600000, .i32⟩
  | 85 => ⟨S6600000, .i1⟩
  | 86 => ⟨S_, .i32⟩
  | 87 => ⟨S6600000, .i32⟩
  | 88 => ⟨S6600000, .i32⟩
  | 89 => ⟨S6600000, .i32⟩
  | 90 => ⟨S6600000x1, .i32⟩
  | 91 => ⟨S6600000x16, .f32⟩
  | 92 => ⟨S6600000x1, .f32⟩
  | 93 => ⟨S6600000x16, .f32⟩
  | 94 => ⟨S6600000x16, .f32⟩
  | 95 => ⟨S_, .f32⟩
  | 96 => ⟨S200000x16, .f32⟩
  | 97 => ⟨S6600000x1, .i32⟩
  | 98 => ⟨S200000x16, .f32⟩
  | 99 => ⟨S1x16, .f32⟩
  | 100 => ⟨S200000x16, .f32⟩
  | 101 => ⟨S200000x16, .f32⟩
  | 102 => ⟨S_, .f32⟩
  | 103 => ⟨S200000x16, .f32⟩
  | 104 => ⟨S200000x16, .f32⟩
  | 105 => ⟨S200000x16, .f32⟩
  | 106 => ⟨S200000x16, .f32⟩
  | 107 => ⟨S200000x16, .i1⟩
  | 108 => ⟨S200000x16, .f32⟩
  | 109 => ⟨S200000x16, .f32⟩
  | 110 => ⟨S200000x16, .f32⟩
  | 111 => ⟨S200000x16, .f32⟩
  | 112 => ⟨S200000x16, .f32⟩
  | 113 => ⟨S200000x16, .f32⟩
  | 114 => ⟨S200000x16, .f32⟩
  | 115 => ⟨S200000x16, .f32⟩
  | 116 => ⟨S200000x16, .f32⟩
  | 117 => ⟨S200000x16, .f32⟩
  | 118 => ⟨S200000x8, .f32⟩
  | 119 => ⟨S_, .i32⟩
  | 120 => ⟨S6600000, .i32⟩
  | 121 => ⟨S6600000, .i1⟩
  | 122 => ⟨S_, .i32⟩
  | 123 => ⟨S6600000, .i32⟩
  | 124 => ⟨S6600000, .i32⟩
  | 125 => ⟨S6600000, .i32⟩
  | 126 => ⟨S6600000x1, .i32⟩
  | 127 => ⟨S6600000x8, .f32⟩
  | _ => ⟨S200000x16, .f32⟩

abbrev hbmTy0_1 (i : Nat) : BufTy := match i % 128 with
  | 0 => ⟨S6600000x1, .f32⟩
  | 1 => ⟨S6600000x8, .f32⟩
  | 2 => ⟨S6600000x8, .f32⟩
  | 3 => ⟨S_, .f32⟩
  | 4 => ⟨S200000x8, .f32⟩
  | 5 => ⟨S6600000x1, .i32⟩
  | 6 => ⟨S200000x8, .f32⟩
  | 7 => ⟨S1x8, .f32⟩
  | 8 => ⟨S200000x8, .f32⟩
  | 9 => ⟨S200000x8, .f32⟩
  | 10 => ⟨S_, .f32⟩
  | 11 => ⟨S200000x8, .f32⟩
  | 12 => ⟨S200000x8, .f32⟩
  | 13 => ⟨S200000x8, .f32⟩
  | 14 => ⟨S200000x8, .f32⟩
  | 15 => ⟨S200000x8, .i1⟩
  | 16 => ⟨S200000x8, .f32⟩
  | 17 => ⟨S200000x8, .f32⟩
  | 18 => ⟨S200000x8, .f32⟩
  | 19 => ⟨S200000x8, .f32⟩
  | 20 => ⟨S200000x8, .f32⟩
  | 21 => ⟨S200000x8, .f32⟩
  | 22 => ⟨S200000x8, .f32⟩
  | 23 => ⟨S200000x8, .f32⟩
  | 24 => ⟨S200000x8, .f32⟩
  | 25 => ⟨S200000x8, .f32⟩
  | 26 => ⟨S200000x2, .f32⟩
  | 27 => ⟨S_, .i32⟩
  | 28 => ⟨S6600000, .i32⟩
  | 29 => ⟨S6600000, .i1⟩
  | 30 => ⟨S_, .i32⟩
  | 31 => ⟨S6600000, .i32⟩
  | 32 => ⟨S6600000, .i32⟩
  | 33 => ⟨S6600000, .i32⟩
  | 34 => ⟨S6600000x1, .i32⟩
  | 35 => ⟨S6600000x2, .f32⟩
  | 36 => ⟨S6600000x1, .f32⟩
  | 37 => ⟨S6600000x2, .f32⟩
  | 38 => ⟨S6600000x2, .f32⟩
  | 39 => ⟨S_, .f32⟩
  | 40 => ⟨S200000x2, .f32⟩
  | 41 => ⟨S6600000x1, .i32⟩
  | 42 => ⟨S200000x2, .f32⟩
  | 43 => ⟨S1x2, .f32⟩
  | 44 => ⟨S200000x2, .f32⟩
  | 45 => ⟨S200000x2, .f32⟩
  | 46 => ⟨S_, .f32⟩
  | 47 => ⟨S200000, .f32⟩
  | 48 => ⟨S_, .f32⟩
  | 49 => ⟨S200000, .f32⟩
  | 50 => ⟨S200000, .f32⟩
  | 51 => ⟨S200000x1, .f32⟩
  | 52 => ⟨S200000x2, .f32⟩
  | 53 => ⟨S200000x2, .f32⟩
  | 54 => ⟨S200000x2, .f32⟩
  | 55 => ⟨S_, .f32⟩
  | 56 => ⟨S200000, .f32⟩
  | 57 => ⟨S200000x1, .f32⟩
  | 58 => ⟨S200000x1, .f32⟩
  | 59 => ⟨S200000x2, .f32⟩
  | 60 => ⟨S200000x2, .f32⟩
  | _ => ⟨S200000x16, .f32⟩

abbrev hbmTy (i : Nat) : BufTy := match i / 128 with
  | 0 => hbmTy0_0 i
  | 1 => hbmTy0_1 i
  | _ => ⟨S200000x16, .f32⟩

abbrev bufTy : (tb : Table) → Fin (tcTables nBuf tb) → BufTy
  | .hbm, ⟨i, _⟩ => hbmTy i
  | _, _ => ⟨S200000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call0_cst : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_v8 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_8 : Ref sig .tc := ⟨.hbm, 83, rfl⟩
abbrev main_v50 : Ref sig .tc := ⟨.hbm, 84, rfl⟩
abbrev main_v51 : Ref sig .tc := ⟨.hbm, 85, rfl⟩
abbrev main_c_9 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_10 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_v7 : Ref sig .tc := ⟨.hbm, 110, rfl⟩
abbrev main_call1_v8 : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_c_11 : Ref sig .tc := ⟨.hbm, 119, rfl⟩
abbrev main_v70 : Ref sig .tc := ⟨.hbm, 120, rfl⟩
abbrev main_v71 : Ref sig .tc := ⟨.hbm, 121, rfl⟩
abbrev main_c_12 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_13 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_call2_cst : Ref sig .tc := ⟨.hbm, 138, rfl⟩
abbrev main_call2_v0 : Ref sig .tc := ⟨.hbm, 139, rfl⟩
abbrev main_call2_v1 : Ref sig .tc := ⟨.hbm, 140, rfl⟩
abbrev main_call2_v2 : Ref sig .tc := ⟨.hbm, 141, rfl⟩
abbrev main_call2_v3 : Ref sig .tc := ⟨.hbm, 142, rfl⟩
abbrev main_call2_v4 : Ref sig .tc := ⟨.hbm, 143, rfl⟩
abbrev main_call2_v5 : Ref sig .tc := ⟨.hbm, 144, rfl⟩
abbrev main_call2_v6 : Ref sig .tc := ⟨.hbm, 145, rfl⟩
abbrev main_call2_v7 : Ref sig .tc := ⟨.hbm, 146, rfl⟩
abbrev main_call2_v8 : Ref sig .tc := ⟨.hbm, 147, rfl⟩
abbrev main_call2_v9 : Ref sig .tc := ⟨.hbm, 148, rfl⟩
abbrev main_call2_v10 : Ref sig .tc := ⟨.hbm, 149, rfl⟩
abbrev main_call2_v11 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_c_14 : Ref sig .tc := ⟨.hbm, 155, rfl⟩
abbrev main_v90 : Ref sig .tc := ⟨.hbm, 156, rfl⟩
abbrev main_v91 : Ref sig .tc := ⟨.hbm, 157, rfl⟩
abbrev main_c_15 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_cst_16 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_call3_cst : Ref sig .tc := ⟨.hbm, 174, rfl⟩
abbrev main_call3_v0 : Ref sig .tc := ⟨.hbm, 175, rfl⟩
abbrev main_call3_cst_0 : Ref sig .tc := ⟨.hbm, 176, rfl⟩
abbrev main_call3_v1 : Ref sig .tc := ⟨.hbm, 177, rfl⟩
abbrev main_call3_v2 : Ref sig .tc := ⟨.hbm, 178, rfl⟩
abbrev main_call3_v3 : Ref sig .tc := ⟨.hbm, 179, rfl⟩
abbrev main_call3_v4 : Ref sig .tc := ⟨.hbm, 180, rfl⟩
abbrev main_call3_v5 : Ref sig .tc := ⟨.hbm, 181, rfl⟩
abbrev main_call3_v6 : Ref sig .tc := ⟨.hbm, 182, rfl⟩
abbrev main_call3_cst_1 : Ref sig .tc := ⟨.hbm, 183, rfl⟩
abbrev main_call3_v7 : Ref sig .tc := ⟨.hbm, 184, rfl⟩
abbrev main_call3_v8 : Ref sig .tc := ⟨.hbm, 185, rfl⟩
abbrev main_call3_v9 : Ref sig .tc := ⟨.hbm, 186, rfl⟩
abbrev main_call3_v10 : Ref sig .tc := ⟨.hbm, 187, rfl⟩
abbrev main_v106 : Ref sig .tc := ⟨.hbm, 188, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x8_0_1 : S6600000x1.BroadcastsInDim S6600000x8 (![0, 1] : Fin 2 → Fin S6600000x8.rank)
  bcast_S_S200000x8 : S_.BroadcastsInDim S200000x8 (![] : Fin 0 → Fin S200000x8.rank)
  bcast_S8_S1x8_1 : S8.BroadcastsInDim S1x8 (![1] : Fin 1 → Fin S1x8.rank)
  bcast_S1x8_S200000x8_0_1 : S1x8.BroadcastsInDim S200000x8 (![0, 1] : Fin 2 → Fin S200000x8.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S6600000x1_S6600000x2_0_1 : S6600000x1.BroadcastsInDim S6600000x2 (![0, 1] : Fin 2 → Fin S6600000x2.rank)
  bcast_S_S200000x2 : S_.BroadcastsInDim S200000x2 (![] : Fin 0 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  reducesTo_S200000x2_S200000_d1 : S200000x2.ReducesTo [1] S200000
  h_S_ : 0 < S_.numel
  bcast_S200000_S200000x1_0 : S200000.BroadcastsInDim S200000x1 (![0] : Fin 1 → Fin S200000x1.rank)
  bcast_S200000x1_S200000x2_0_1 : S200000x1.BroadcastsInDim S200000x2 (![0, 1] : Fin 2 → Fin S200000x2.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S200000x16_S16x8_S200000x8_1_0_0_1_n_n_wf : DotDims.WF S200000x16 S16x8 S200000x8 [1] [0] [0] [1] [] []
  gather_S200000x8_S6600000x1_S6600000x8_1_0_n_n_0_1_18_wf : GatherDims.WF S200000x8 S6600000x1 S6600000x8 [1] [0] [] [0] [] 1 ![1, 8]
  scatter_S200000x8_S6600000x1_S6600000x8_1_0_0_1_wf : ScatterDims.WF S200000x8 S6600000x1 S6600000x8 [1] [0] [0] 1
  dot_S200000x8_S8x16_S200000x16_1_0_0_1_n_n_wf : DotDims.WF S200000x8 S8x16 S200000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x8_S8x2_S200000x2_1_0_0_1_n_n_wf : DotDims.WF S200000x8 S8x2 S200000x2 [1] [0] [0] [1] [] []
  gather_S200000x2_S6600000x1_S6600000x2_1_0_n_n_0_1_12_wf : GatherDims.WF S200000x2 S6600000x1 S6600000x2 [1] [0] [] [0] [] 1 ![1, 2]
  scatter_S200000x2_S6600000x1_S6600000x2_1_0_0_1_wf : ScatterDims.WF S200000x2 S6600000x1 S6600000x2 [1] [0] [0] 1

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S200000x16_S16x8_S200000x8_1_0_0_1_n_n : DotDims S200000x16 S16x8 S200000x8 where
  lhsContracting := [1]
  rhsContracting := [0]
  lhsNonContracting := [0]
  rhsNonContracting := [1]
  lhsBatch := []
  rhsBatch := []
  wf := dot_S200000x16_S16x8_S200000x8_1_0_0_1_n_n_wf
def gather_S200000x8_S6600000x1_S6600000x8_1_0_n_n_0_1_18 : GatherDims S200000x8 S6600000x1 S6600000x8 where
  offsetDims := [1]
  collapsedSliceDims := [0]
  operandBatchingDims := []
  startIndicesBatchingDims := []
  startIndexMap := [0]
  indexVectorDim := 1
  sliceSizes := ![1, 8]
  wf := gather_S200000x8_S6600000x1_S6600000x8_1_0_n_n_0_1_18_wf
def scatter_S200000x8_S6600000x1_S6600000x8_1_0_0_1 : ScatterDims S200000x8 S6600000x1 S6600000x8 where
  updateWindowDims := [1]
  insertedWindowDims := [0]
  scatterDimsToOperandDims := [0]
  indexVectorDim := 1
  wf := scatter_S200000x8_S6600000x1_S6600000x8_1_0_0_1_wf
def dot_S200000x8_S8x16_S200000x16_1_0_0_1_n_n : DotDims S200000x8 S8x16 S200000x16 where
  lhsContracting := [1]
  rhsContracting := [0]
  lhsNonContracting := [0]
  rhsNonContracting := [1]
  lhsBatch := []
  rhsBatch := []
  wf := dot_S200000x8_S8x16_S200000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x8_S8x2_S200000x2_1_0_0_1_n_n : DotDims S200000x8 S8x2 S200000x2 where
  lhsContracting := [1]
  rhsContracting := [0]
  lhsNonContracting := [0]
  rhsNonContracting := [1]
  lhsBatch := []
  rhsBatch := []
  wf := dot_S200000x8_S8x2_S200000x2_1_0_0_1_n_n_wf
def gather_S200000x2_S6600000x1_S6600000x2_1_0_n_n_0_1_12 : GatherDims S200000x2 S6600000x1 S6600000x2 where
  offsetDims := [1]
  collapsedSliceDims := [0]
  operandBatchingDims := []
  startIndicesBatchingDims := []
  startIndexMap := [0]
  indexVectorDim := 1
  sliceSizes := ![1, 2]
  wf := gather_S200000x2_S6600000x1_S6600000x2_1_0_n_n_0_1_12_wf
def scatter_S200000x2_S6600000x1_S6600000x2_1_0_0_1 : ScatterDims S200000x2 S6600000x1 S6600000x2 where
  updateWindowDims := [1]
  insertedWindowDims := [0]
  scatterDimsToOperandDims := [0]
  indexVectorDim := 1
  wf := scatter_S200000x2_S6600000x1_S6600000x2_1_0_0_1_wf

class Facts : Prop extends Facts₀ where

variable [Facts]
-- ==== Proof.KernelRun.lean ====
/-
  The idealized kernel's run with its result named. The program is eight row-tiled regions among stretches of host
  operations; the buffer contents at each boundary between them form a chain from the launch memory (each stretch applies
  its operations, each region leaves its arrays at what its write-backs hold). Every weakly fair execution ends with the
  last region's output array at the last link of that chain, and with the ten argument arrays as launched. What the last
  link holds as a function of the arguments is read elsewhere; here it is only named.
-/
import proofs.«133024_j22557168239484_2_alg».proof.Proof.Gen.KernelIdeal.Frame

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents and
    the arguments unchanged: the launch over the program's thirteen segments, the final state read at the result's
    buffer as it is read at each argument's. -/
theorem run_result : θ_run defs (onTc (τ := τ) (main (F := F))) ⟨m, fun _ => 0, ρ⟩ (fun r => ∀ c : Dev nD,
      r.2.mem ((c.tc : Thread nD τ).loc main_v92) = W13 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v92 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.Chain

end
-- ==== Proof.Kept.lean ====
/-
  Buffers that travel unchanged along the chain of boundary contents. A host stretch rewrites only the buffers its
  operations write, and a region only its own three arrays; every other buffer holds at the next boundary what it held at the
  previous one. So the index lists and the edge normalisation computed before the first region, and each weight and bias
  argument, are found unchanged wherever a later stretch or region reads them.
-/
import proofs.«133024_j22557168239484_2_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- No operation of a literal stretch writes the buffer in question: each operation's result buffer is another one. -/
macro "stretch_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

section Steps
variable (b : Ref sig .tc)

/-- Past region 0. -/
theorem past0 (h0 : ∀ w, Pipeline.arrRef spec0 w ≠ b) :
    W2 m ρ c (Proc.devRef .tc b) = W1 m ρ c (Proc.devRef .tc b) := W2_of_ne m ρ c b h0

/-- Past the second stretch and region 1. -/
theorem past1 (h0 : ∀ w, Pipeline.arrRef spec0 w ≠ b) (h1 : ∀ w, Pipeline.arrRef spec1 w ≠ b)
    (k1 : W3 m ρ c (Proc.devRef .tc b) = W2 m ρ c (Proc.devRef .tc b)) :
    W4 m ρ c (Proc.devRef .tc b) = W1 m ρ c (Proc.devRef .tc b) :=
  (W4_of_ne m ρ c b h1).trans (k1.trans (past0 m ρ c b h0))

/-- Past region 2. -/
theorem past2 (h0 : ∀ w, Pipeline.arrRef spec0 w ≠ b) (h1 : ∀ w, Pipeline.arrRef spec1 w ≠ b)
    (k1 : W3 m ρ c (Proc.devRef .tc b) = W2 m ρ c (Proc.devRef .tc b)) (h2 : ∀ w, Pipeline.arrRef spec2 w ≠ b) :
    W5 m ρ c (Proc.devRef .tc b) = W1 m ρ c (Proc.devRef .tc b) :=
  (W5_of_ne m ρ c b h2).trans (past1 m ρ c b h0 h1 k1)

/-- Past the third stretch and region 3. -/
theorem past3 (h0 : ∀ w, Pipeline.arrRef spec0 w ≠ b) (h1 : ∀ w, Pipeline.arrRef spec1 w ≠ b)
    (k1 : W3 m ρ c (Proc.devRef .tc b) = W2 m ρ c (Proc.devRef .tc b)) (h2 : ∀ w, Pipeline.arrRef spec2 w ≠ b)
    (h3 : ∀ w, Pipeline.arrRef spec3 w ≠ b) (k3 : W6 m ρ c (Proc.devRef .tc b) = W5 m ρ c (Proc.devRef .tc b)) :
    W7 m ρ c (Proc.devRef .tc b) = W1 m ρ c (Proc.devRef .tc b) :=
  (W7_of_ne m ρ c b h3).trans (k3.trans (past2 m ρ c b h0 h1 k1 h2))

/-- Past region 4. -/
theorem past4 (h0 : ∀ w, Pipeline.arrRef spec0 w ≠ b) (h1 : ∀ w, Pipeline.arrRef spec1 w ≠ b)
    (k1 : W3 m ρ c (Proc.devRef .tc b) = W2 m ρ c (Proc.devRef .tc b)) (h2 : ∀ w, Pipeline.arrRef spec2 w ≠ b)
    (h3 : ∀ w, Pipeline.arrRef spec3 w ≠ b) (k3 : W6 m ρ c (Proc.devRef .tc b) = W5 m ρ c (Proc.devRef .tc b))
    (h4 : ∀ w, Pipeline.arrRef spec4 w ≠ b) :
    W8 m ρ c (Proc.devRef .tc b) = W1 m ρ c (Proc.devRef .tc b) :=
  (W8_of_ne m ρ c b h4).trans (past3 m ρ c b h0 h1 k1 h2 h3 k3)

/-- Past the fourth stretch and region 5. -/
theorem past5 (h0 : ∀ w, Pipeline.arrRef spec0 w ≠ b) (h1 : ∀ w, Pipeline.arrRef spec1 w ≠ b)
    (k1 : W3 m ρ c (Proc.devRef .tc b) = W2 m ρ c (Proc.devRef .tc b)) (h2 : ∀ w, Pipeline.arrRef spec2 w ≠ b)
    (h3 : ∀ w, Pipeline.arrRef spec3 w ≠ b) (k3 : W6 m ρ c (Proc.devRef .tc b) = W5 m ρ c (Proc.devRef .tc b))
    (h4 : ∀ w, Pipeline.arrRef spec4 w ≠ b) (h5 : ∀ w, Pipeline.arrRef spec5 w ≠ b)
    (k5 : W9 m ρ c (Proc.devRef .tc b) = W8 m ρ c (Proc.devRef .tc b)) :
    W10 m ρ c (Proc.devRef .tc b) = W1 m ρ c (Proc.devRef .tc b) :=
  (W10_of_ne m ρ c b h5).trans (k5.trans (past4 m ρ c b h0 h1 k1 h2 h3 k3 h4))

/-- Past region 6. -/
theorem past6 (h0 : ∀ w, Pipeline.arrRef spec0 w ≠ b) (h1 : ∀ w, Pipeline.arrRef spec1 w ≠ b)
    (k1 : W3 m ρ c (Proc.devRef .tc b) = W2 m ρ c (Proc.devRef .tc b)) (h2 : ∀ w, Pipeline.arrRef spec2 w ≠ b)
    (h3 : ∀ w, Pipeline.arrRef spec3 w ≠ b) (k3 : W6 m ρ c (Proc.devRef .tc b) = W5 m ρ c (Proc.devRef .tc b))
    (h4 : ∀ w, Pipeline.arrRef spec4 w ≠ b) (h5 : ∀ w, Pipeline.arrRef spec5 w ≠ b)
    (k5 : W9 m ρ c (Proc.devRef .tc b) = W8 m ρ c (Proc.devRef .tc b)) (h6 : ∀ w, Pipeline.arrRef spec6 w ≠ b) :
    W11 m ρ c (Proc.devRef .tc b) = W1 m ρ c (Proc.devRef .tc b) :=
  (W11_of_ne m ρ c b h6).trans (past5 m ρ c b h0 h1 k1 h2 h3 k3 h4 h5 k5)

end Steps

/-! ## The arguments at the first region's entry: the first stretch writes none of them -/

theorem arg0_at1 : W1 m ρ c (Proc.devRef .tc main_arg0) = m ((c : Thread nD τ).loc main_arg0) := by
  show StableHlo.after hostOps0 (W0 m ρ c) (Proc.devRef .tc main_arg0) = W0 m ρ c (Proc.devRef .tc main_arg0)
  stretch_keeps hostOps0

theorem arg1_at1 : W1 m ρ c (Proc.devRef .tc main_arg1) = m ((c : Thread nD τ).loc main_arg1) := by
  show StableHlo.after hostOps0 (W0 m ρ c) (Proc.devRef .tc main_arg1) = W0 m ρ c (Proc.devRef .tc main_arg1)
  stretch_keeps hostOps0

theorem arg2_at1 : W1 m ρ c (Proc.devRef .tc main_arg2) = m ((c : Thread nD τ).loc main_arg2) := by
  show StableHlo.after hostOps0 (W0 m ρ c) (Proc.devRef .tc main_arg2) = W0 m ρ c (Proc.devRef .tc main_arg2)
  stretch_keeps hostOps0

theorem arg3_at1 : W1 m ρ c (Proc.devRef .tc main_arg3) = m ((c : Thread nD τ).loc main_arg3) := by
  show StableHlo.after hostOps0 (W0 m ρ c) (Proc.devRef .tc main_arg3) = W0 m ρ c (Proc.devRef .tc main_arg3)
  stretch_keeps hostOps0

theorem arg4_at1 : W1 m ρ c (Proc.devRef .tc main_arg4) = m ((c : Thread nD τ).loc main_arg4) := by
  show StableHlo.after hostOps0 (W0 m ρ c) (Proc.devRef .tc main_arg4) = W0 m ρ c (Proc.devRef .tc main_arg4)
  stretch_keeps hostOps0

theorem arg5_at1 : W1 m ρ c (Proc.devRef .tc main_arg5) = m ((c : Thread nD τ).loc main_arg5) := by
  show StableHlo.after hostOps0 (W0 m ρ c) (Proc.devRef .tc main_arg5) = W0 m ρ c (Proc.devRef .tc main_arg5)
  stretch_keeps hostOps0

theorem arg6_at1 : W1 m ρ c (Proc.devRef .tc main_arg6) = m ((c : Thread nD τ).loc main_arg6) := by
  show StableHlo.after hostOps0 (W0 m ρ c) (Proc.devRef .tc main_arg6) = W0 m ρ c (Proc.devRef .tc main_arg6)
  stretch_keeps hostOps0

theorem arg7_at1 : W1 m ρ c (Proc.devRef .tc main_arg7) = m ((c : Thread nD τ).loc main_arg7) := by
  show StableHlo.after hostOps0 (W0 m ρ c) (Proc.devRef .tc main_arg7) = W0 m ρ c (Proc.devRef .tc main_arg7)
  stretch_keeps hostOps0

theorem arg8_at1 : W1 m ρ c (Proc.devRef .tc main_arg8) = m ((c : Thread nD τ).loc main_arg8) := by
  show StableHlo.after hostOps0 (W0 m ρ c) (Proc.devRef .tc main_arg8) = W0 m ρ c (Proc.devRef .tc main_arg8)
  stretch_keeps hostOps0

theorem arg9_at1 : W1 m ρ c (Proc.devRef .tc main_arg9) = m ((c : Thread nD τ).loc main_arg9) := by
  show StableHlo.after hostOps0 (W0 m ρ c) (Proc.devRef .tc main_arg9) = W0 m ρ c (Proc.devRef .tc main_arg9)
  stretch_keeps hostOps0

/-! ## The source list, the destination list and the edge normalisation, where the later stretches read them -/

theorem main_v3_at2 : W2 m ρ c (Proc.devRef .tc main_v3) = W1 m ρ c (Proc.devRef .tc main_v3) :=
  past0 m ρ c main_v3 (by decide)
theorem main_v3_at5 : W5 m ρ c (Proc.devRef .tc main_v3) = W1 m ρ c (Proc.devRef .tc main_v3) :=
  past2 m ρ c main_v3 (by decide) (by decide) (by stretch_keeps hostOps1) (by decide)
theorem main_v3_at8 : W8 m ρ c (Proc.devRef .tc main_v3) = W1 m ρ c (Proc.devRef .tc main_v3) :=
  past4 m ρ c main_v3 (by decide) (by decide) (by stretch_keeps hostOps1) (by decide) (by decide) (by stretch_keeps hostOps3) (by decide)
theorem main_v3_at11 : W11 m ρ c (Proc.devRef .tc main_v3) = W1 m ρ c (Proc.devRef .tc main_v3) :=
  past6 m ρ c main_v3 (by decide) (by decide) (by stretch_keeps hostOps1) (by decide) (by decide) (by stretch_keeps hostOps3) (by decide)
    (by decide) (by stretch_keeps hostOps5) (by decide)

theorem main_v6_at2 : W2 m ρ c (Proc.devRef .tc main_v6) = W1 m ρ c (Proc.devRef .tc main_v6) :=
  past0 m ρ c main_v6 (by decide)
theorem main_v6_at5 : W5 m ρ c (Proc.devRef .tc main_v6) = W1 m ρ c (Proc.devRef .tc main_v6) :=
  past2 m ρ c main_v6 (by decide) (by decide) (by stretch_keeps hostOps1) (by decide)
theorem main_v6_at8 : W8 m ρ c (Proc.devRef .tc main_v6) = W1 m ρ c (Proc.devRef .tc main_v6) :=
  past4 m ρ c main_v6 (by decide) (by decide) (by stretch_keeps hostOps1) (by decide) (by decide) (by stretch_keeps hostOps3) (by decide)
theorem main_v6_at11 : W11 m ρ c (Proc.devRef .tc main_v6) = W1 m ρ c (Proc.devRef .tc main_v6) :=
  past6 m ρ c main_v6 (by decide) (by decide) (by stretch_keeps hostOps1) (by decide) (by decide) (by stretch_keeps hostOps3) (by decide)
    (by decide) (by stretch_keeps hostOps5) (by decide)

theorem main_v28_at2 : W2 m ρ c (Proc.devRef .tc main_v28) = W1 m ρ c (Proc.devRef .tc main_v28) :=
  past0 m ρ c main_v28 (by decide)
theorem main_v28_at5 : W5 m ρ c (Proc.devRef .tc main_v28) = W1 m ρ c (Proc.devRef .tc main_v28) :=
  past2 m ρ c main_v28 (by decide) (by decide) (by stretch_keeps hostOps1) (by decide)
theorem main_v28_at8 : W8 m ρ c (Proc.devRef .tc main_v28) = W1 m ρ c (Proc.devRef .tc main_v28) :=
  past4 m ρ c main_v28 (by decide) (by decide) (by stretch_keeps hostOps1) (by decide) (by decide) (by stretch_keeps hostOps3) (by decide)
theorem main_v28_at11 : W11 m ρ c (Proc.devRef .tc main_v28) = W1 m ρ c (Proc.devRef .tc main_v28) :=
  past6 m ρ c main_v28 (by decide) (by decide) (by stretch_keeps hostOps1) (by decide) (by decide) (by stretch_keeps hostOps3) (by decide)
    (by decide) (by stretch_keeps hostOps5) (by decide)

/-! ## Each weight and bias argument where it is read -/

theorem arg3_at2 : W2 m ρ c (Proc.devRef .tc main_arg3) = m ((c : Thread nD τ).loc main_arg3) :=
  (past0 m ρ c main_arg3 (by decide)).trans (arg3_at1 m ρ c)
theorem arg4_at4 : W4 m ρ c (Proc.devRef .tc main_arg4) = m ((c : Thread nD τ).loc main_arg4) :=
  (past1 m ρ c main_arg4 (by decide) (by decide) (by stretch_keeps hostOps1)).trans (arg4_at1 m ρ c)
theorem arg5_at5 : W5 m ρ c (Proc.devRef .tc main_arg5) = m ((c : Thread nD τ).loc main_arg5) :=
  (past2 m ρ c main_arg5 (by decide) (by decide) (by stretch_keeps hostOps1) (by decide)).trans (arg5_at1 m ρ c)
theorem arg6_at7 : W7 m ρ c (Proc.devRef .tc main_arg6) = m ((c : Thread nD τ).loc main_arg6) :=
  (past3 m ρ c main_arg6 (by decide) (by decide) (by stretch_keeps hostOps1) (by decide) (by decide) (by stretch_keeps hostOps3)).trans (arg6_at1 m ρ c)
theorem arg7_at8 : W8 m ρ c (Proc.devRef .tc main_arg7) = m ((c : Thread nD τ).loc main_arg7) :=
  (past4 m ρ c main_arg7 (by decide) (by decide) (by stretch_keeps hostOps1) (by decide) (by decide) (by stretch_keeps hostOps3) (by decide)).trans (arg7_at1 m ρ c)
theorem arg8_at10 : W10 m ρ c (Proc.devRef .tc main_arg8) = m ((c : Thread nD τ).loc main_arg8) :=
  (past5 m ρ c main_arg8 (by decide) (by decide) (by stretch_keeps hostOps1) (by decide) (by decide) (by stretch_keeps hostOps3) (by decide)
    (by decide) (by stretch_keeps hostOps5)).trans (arg8_at1 m ρ c)
theorem arg9_at11 : W11 m ρ c (Proc.devRef .tc main_arg9) = m ((c : Thread nD τ).loc main_arg9) :=
  (past6 m ρ c main_arg9 (by decide) (by decide) (by stretch_keeps hostOps1) (by decide) (by decide) (by stretch_keeps hostOps3) (by decide)
    (by decide) (by stretch_keeps hostOps5) (by decide)).trans (arg9_at1 m ρ c)

end Cert.KernelIdeal.Kept

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.MatTile.lean ====
/-
  The four dense layers' row tiles. Each grid point of a dense layer takes 10000 rows of the node features h and the
  whole weight matrix W, casts both to a narrower float format (the identity on extended reals) and multiplies them into
  a zero accumulator. Read at entry (p, q) of the tile the result is the sum over k of h(p, k) · W(k, q): a plain matrix
  product, whatever order the tile's additions are taken in.
-/
import proofs.«133024_j22557168239484_2_alg».proof.Proof.Gen.KernelIdeal.Skeleton
import proofs.«133024_j22557168239484_2_alg».proof.Proof.LibPlainDot
import Idealize.ShloMosaic.Lib.Pipeline.Value

noncomputable section

namespace Cert.KernelIdeal.MatTile

open Idealize.ShloMosaic Idealize.ShloMosaic.ValueIdx Cert.KernelIdeal Cert.KernelIdeal.Gen

/-- The tile product's dimension numbers are those of a plain product: left axis 1 against right axis 0. -/
theorem plain_16_8 : PlainDot.IsPlain dot_S10000x16_S16x8_S10000x8_1_0_0_1_n_n where
  rank := rfl
  size := rfl
  lhs0 := fun i q => by
    unfold DotDims.lhsIdx
    rw [dif_neg (show ¬(0 : Fin S10000x16.rank) ∈ dot_S10000x16_S16x8_S10000x8_1_0_0_1_n_n.lhsBatch by decide), dif_pos (show (0 : Fin S10000x16.rank) ∈ dot_S10000x16_S16x8_S10000x8_1_0_0_1_n_n.lhsNonContracting by decide)]
    rfl
  lhs1 := fun i q => dot_S10000x16_S16x8_S10000x8_1_0_0_1_n_n.lhsIdx_val_of_single rfl i q
  rhs0 := fun i q => dot_S10000x16_S16x8_S10000x8_1_0_0_1_n_n.rhsIdx_val_of_single rfl i q
  rhs1 := fun i q => by
    unfold DotDims.rhsIdx
    rw [dif_neg (show ¬(1 : Fin S16x8.rank) ∈ dot_S10000x16_S16x8_S10000x8_1_0_0_1_n_n.rhsBatch by decide), dif_pos (show (1 : Fin S16x8.rank) ∈ dot_S10000x16_S16x8_S10000x8_1_0_0_1_n_n.rhsNonContracting by decide)]
    rfl

/-- The tile product's dimension numbers are those of a plain product: left axis 1 against right axis 0. -/
theorem plain_8_16 : PlainDot.IsPlain dot_S10000x8_S8x16_S10000x16_1_0_0_1_n_n where
  rank := rfl
  size := rfl
  lhs0 := fun i q => by
    unfold DotDims.lhsIdx
    rw [dif_neg (show ¬(0 : Fin S10000x8.rank) ∈ dot_S10000x8_S8x16_S10000x16_1_0_0_1_n_n.lhsBatch by decide), dif_pos (show (0 : Fin S10000x8.rank) ∈ dot_S10000x8_S8x16_S10000x16_1_0_0_1_n_n.lhsNonContracting by decide)]
    rfl
  lhs1 := fun i q => dot_S10000x8_S8x16_S10000x16_1_0_0_1_n_n.lhsIdx_val_of_single rfl i q
  rhs0 := fun i q => dot_S10000x8_S8x16_S10000x16_1_0_0_1_n_n.rhsIdx_val_of_single rfl i q
  rhs1 := fun i q => by
    unfold DotDims.rhsIdx
    rw [dif_neg (show ¬(1 : Fin S8x16.rank) ∈ dot_S10000x8_S8x16_S10000x16_1_0_0_1_n_n.rhsBatch by decide), dif_pos (show (1 : Fin S8x16.rank) ∈ dot_S10000x8_S8x16_S10000x16_1_0_0_1_n_n.rhsNonContracting by decide)]
    rfl

/-- The tile product's dimension numbers are those of a plain product: left axis 1 against right axis 0. -/
theorem plain_8_2 : PlainDot.IsPlain dot_S10000x8_S8x2_S10000x2_1_0_0_1_n_n where
  rank := rfl
  size := rfl
  lhs0 := fun i q => by
    unfold DotDims.lhsIdx
    rw [dif_neg (show ¬(0 : Fin S10000x8.rank) ∈ dot_S10000x8_S8x2_S10000x2_1_0_0_1_n_n.lhsBatch by decide), dif_pos (show (0 : Fin S10000x8.rank) ∈ dot_S10000x8_S8x2_S10000x2_1_0_0_1_n_n.lhsNonContracting by decide)]
    rfl
  lhs1 := fun i q => dot_S10000x8_S8x2_S10000x2_1_0_0_1_n_n.lhsIdx_val_of_single rfl i q
  rhs0 := fun i q => dot_S10000x8_S8x2_S10000x2_1_0_0_1_n_n.rhsIdx_val_of_single rfl i q
  rhs1 := fun i q => by
    unfold DotDims.rhsIdx
    rw [dif_neg (show ¬(1 : Fin S8x2.rank) ∈ dot_S10000x8_S8x2_S10000x2_1_0_0_1_n_n.rhsBatch by decide), dif_pos (show (1 : Fin S8x2.rank) ∈ dot_S10000x8_S8x2_S10000x2_1_0_0_1_n_n.rhsNonContracting by decide)]
    rfl

/-- Layer 1's tile: entry (p, q) is the sum over the 16 input features of h(p, k) · W(k, q). -/
theorem tile0_apply (h : Vec Ideal S10000x16 .f32) (w : Vec Ideal S16x8 .f32) (p : Fin 10000) (q : Fin 8) :
    k0_pay1 (F := Ideal) h w (ix2 p q) = ∑ k : Fin 16, h (ix2 p k) * w (ix2 k q) := by
  unfold k0_pay1
  exact PlainDot.matmul_zero_apply dot_S10000x16_S16x8_S10000x8_1_0_0_1_n_n plain_16_8 none
    (truncf (F := Ideal) .bf16 h bitsLt_bf16_f32) (truncf (F := Ideal) .bf16 w bitsLt_bf16_f32) p q

/-- Layer 2's tile: entry (p, q) is the sum over the 8 hidden features of h(p, k) · W(k, q). -/
theorem tile2_apply (h : Vec Ideal S10000x8 .f32) (w : Vec Ideal S8x16 .f32) (p : Fin 10000) (q : Fin 16) :
    k2_pay1 (F := Ideal) h w (ix2 p q) = ∑ k : Fin 8, h (ix2 p k) * w (ix2 k q) := by
  unfold k2_pay1
  rw [shapeCast_self]
  exact PlainDot.matmul_zero_apply dot_S10000x8_S8x16_S10000x16_1_0_0_1_n_n plain_8_16 none
    (truncf (F := Ideal) .bf16 h bitsLt_bf16_f32) (truncf (F := Ideal) .bf16 w bitsLt_bf16_f32) p q

/-- Layer 3's tile: entry (p, q) is the sum over the 16 hidden features of h(p, k) · W(k, q). -/
theorem tile4_apply (h : Vec Ideal S10000x16 .f32) (w : Vec Ideal S16x8 .f32) (p : Fin 10000) (q : Fin 8) :
    k4_pay1 (F := Ideal) h w (ix2 p q) = ∑ k : Fin 16, h (ix2 p k) * w (ix2 k q) := by
  unfold k4_pay1
  rw [shapeCast_self]
  exact PlainDot.matmul_zero_apply dot_S10000x16_S16x8_S10000x8_1_0_0_1_n_n plain_16_8 none
    (truncf (F := Ideal) .bf16 h bitsLt_bf16_f32) (truncf (F := Ideal) .bf16 w bitsLt_bf16_f32) p q

/-- Layer 4's tile: entry (p, q) is the sum over the 8 hidden features of h(p, k) · W(k, q). -/
theorem tile6_apply (h : Vec Ideal S10000x8 .f32) (w : Vec Ideal S8x2 .f32) (p : Fin 10000) (q : Fin 2) :
    k6_pay1 (F := Ideal) h w (ix2 p q) = ∑ k : Fin 8, h (ix2 p k) * w (ix2 k q) := by
  unfold k6_pay1
  rw [shapeCast_self]
  exact PlainDot.matmul_zero_apply dot_S10000x8_S8x2_S10000x2_1_0_0_1_n_n plain_8_2 none
    (truncf (F := Ideal) .bf16 h bitsLt_bf16_f32) (truncf (F := Ideal) .bf16 w bitsLt_bf16_f32) p q

end Cert.KernelIdeal.MatTile

end
-- ==== Proof.Dense0.lean ====
/-
  Dense layer 1, from row tiles to the whole array. The region's grid has 20 points; point t reads rows
  10000·t … 10000·t + 9999 of the feature array h and the whole weight matrix W, and writes back the same rows of the
  product. Every row lies in exactly one point's tile, so after the region the output array holds, at (i, j), the sum over k
  of h(i, k) · W(k, j) — whatever the region found in h and W when it was entered.
-/
import proofs.«133024_j22557168239484_2_alg».proof.Proof.Gen.KernelIdeal.Frame
import proofs.«133024_j22557168239484_2_alg».proof.Proof.MatTile
import Idealize.ShloMosaic.Lib.Pipeline.Value
import Idealize.ShloMosaic.Lib.ValueIdx

set_option maxRecDepth 16384

noncomputable section

namespace Cert.KernelIdeal.Dense0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The whole product: entry (i, j) is the sum over k of h(i, k) · W(k, j). -/
def product (h : S200000x16.Idx → Elt Ideal .f32) (w : S16x8.Idx → Elt Ideal .f32) : S200000x8.Idx → Elt Ideal .f32 :=
  fun i => ∑ k : Fin 16, h (ix2 (i 0) k) * w (ix2 k (i 1))

/-- A tile that holds rows 10000·t … of h, beside the whole of W, multiplies to the same rows of the whole product. -/
theorem tile_rows (X : S200000x16.Idx → Elt Ideal .f32) (W : S16x8.Idx → Elt Ideal .f32)
    (h : Vec Ideal S10000x16 .f32) (w : Vec Ideal S16x8 .f32) (t : ℕ) (ht : t < 20)
    (hh : ∀ (p : Fin 10000) (k : Fin 16), h (ix2 p k) = X (ix2 ⟨t * 10000 + p.val, by have := p.isLt; omega⟩ k))
    (hw : ∀ (k : Fin 16) (q : Fin 8), w (ix2 k q) = W (ix2 k q))
    (p : Fin 10000) (q : Fin 8) :
    k0_pay1 (F := Ideal) h w (ix2 p q) = product X W (ix2 ⟨t * 10000 + p.val, by have := p.isLt; omega⟩ q) := by
  rw [MatTile.tile0_apply]
  unfold product
  refine Finset.sum_congr rfl fun k _ => ?_
  rw [hh, hw]

/-- The printed index maps over the grid: the feature window and the output window sit at block row t, the weight
    window at its one block. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point t is rows 10000·t … of the array the region found. -/
theorem feature_block (c : Dev nD) (t : Fin cfg0.N) (p : Fin 10000) (k : Fin 16) :
    iblk0 V c 0 t (ix2 p k) = V c main_arg0 (ix2 ⟨t.val * 10000 + p.val, by have := p.isLt; have := t.isLt; have : cfg0.N = 20 := N_0; omega⟩ k) := by
  obtain ⟨e0, e1, e2, e3, e4, e5⟩ := index_maps t
  show V c main_arg0 (((cfg0.win 0).blk t).view.emb (ix2 p k)) = V c main_arg0 _
  refine congrArg (V c main_arg0) (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 16 + 1 * k.val = k.val; rw [e1]; omega

/-- The weight window's one block is the whole weight matrix. -/
theorem weight_block (c : Dev nD) (t : Fin cfg0.N) (k : Fin 16) (q : Fin 8) :
    iblk0 V c 1 t (ix2 k q) = V c main_arg2 (ix2 k q) := by
  obtain ⟨e0, e1, e2, e3, e4, e5⟩ := index_maps t
  show V c main_arg2 (((cfg0.win 1).blk t).view.emb (ix2 k q)) = V c main_arg2 _
  refine congrArg (V c main_arg2) (funext fun a => Fin.ext ?_)
  match a with
  | ⟨0, _⟩ => show win0_1.index t (0 : Fin 2) * 16 + 1 * k.val = k.val; rw [e2]; omega
  | ⟨1, _⟩ => show win0_1.index t (1 : Fin 2) * 8 + 1 * q.val = q.val; rw [e3]; omega

/-- What point t writes back is block t of the whole product of the arrays the region found. -/
theorem written_back (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin]
  simp only [View.ld_unit_zero (S := S10000x16) origin, View.ld_unit_zero (S := S16x8) origin]
  obtain ⟨e0, e1, e2, e3, e4, e5⟩ := index_maps t
  have ht : t.val < 20 := by have := t.isLt; have : cfg0.N = 20 := N_0; omega
  funext j
  obtain ⟨p, q, rfl⟩ : ∃ (p : Fin 10000) (q : Fin 8), j = ix2 p q := ⟨j 0, j 1, eq_ix2 j⟩
  show k0_pay1 (F := Ideal) (iblk0 V c 0 t) (iblk0 V c 1 t) (ix2 p q)
    = product (V c main_arg0) (V c main_arg2) (((cfg0.win 2).blk t).view.emb (ix2 p q))
  have hemb : ((cfg0.win 2).blk t).view.emb (ix2 p q)
      = (ix2 ⟨t.val * 10000 + p.val, by have := p.isLt; omega⟩ q : S200000x8.Idx) := by
    funext a; apply Fin.ext
    match a with
    | ⟨0, _⟩ => show win0_2.index t (0 : Fin 2) * 10000 + 1 * p.val = t.val * 10000 + p.val; rw [e4]; omega
    | ⟨1, _⟩ => show win0_2.index t (1 : Fin 2) * 8 + 1 * q.val = q.val; rw [e5]; omega
  rw [hemb]
  exact tile_rows (V c main_arg0) (V c main_arg2) (iblk0 V c 0 t) (iblk0 V c 1 t) t.val ht
    (fun p k => feature_block V c t p k) (fun k q => weight_block V c t k q) p q

/-- An index of the output array is in point t's block iff each coordinate is in the block's range on its axis. -/
theorem in_block (t : Fin cfg0.N) (i : S200000x8.Idx) :
    i ∈ ((cfg0.win 2).blk t).view.set ↔ ∀ a : Fin 2, win0_2.index t a * S10000x8.size a ≤ (i a).val ∧ (i a).val < win0_2.index t a * S10000x8.size a + S10000x8.size a := by
  show i ∈ ((View.whole main_v29).slice (win0_2.rect t)).set ↔ _
  rw [View.set_slice_whole, Rect.mem_set_unit]
  exact Iff.rfl

/-- Every row of the output array is in the tile of the point that owns it: row i belongs to point i / 10000. -/
theorem tiles_cover (i : S200000x8.Idx) : ∃ t : Fin cfg0.N, (cfg0.win 2).flush t = true ∧ i ∈ ((cfg0.win 2).blk t).view.set := by
  have hi0 : (i 0).val < 200000 := (i 0).isLt
  have hi1 : (i 1).val < 8 := (i 1).isLt
  have hN : cfg0.N = 20 := N_0
  refine ⟨⟨(i 0).val / 10000, by omega⟩, flush0_2 _, ?_⟩
  rw [in_block]
  obtain ⟨e0, e1, e2, e3, e4, e5⟩ := index_maps ⟨(i 0).val / 10000, by omega⟩
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 8 ≤ (i 1).val ∧ (i 1).val < win0_2.index _ (1 : Fin 2) * 8 + 8
    rw [e5]; omega

/-- After the region its output array is the whole product of the arrays it found. -/
theorem array_after (c : Dev nD) : (dat0 V c).arrAt 2 cfg0.N = product (V c main_arg0) (V c main_arg2) :=
  (dat0 V c).arrAt_eq_of_cover 2 (product (V c main_arg0) (V c main_arg2)) (fun t _ => written_back V c t) tiles_cover

end Cert.KernelIdeal.Dense0

end
-- ==== Proof.Dense2.lean ====
/-
  Dense layer 2, from row tiles to the whole array. The region's grid has 20 points; point t reads rows
  10000·t … 10000·t + 9999 of the feature array h and the whole weight matrix W, and writes back the same rows of the
  product. Every row lies in exactly one point's tile, so after the region the output array holds, at (i, j), the sum over k
  of h(i, k) · W(k, j) — whatever the region found in h and W when it was entered.
-/
import proofs.«133024_j22557168239484_2_alg».proof.Proof.Gen.KernelIdeal.Frame
import proofs.«133024_j22557168239484_2_alg».proof.Proof.MatTile
import Idealize.ShloMosaic.Lib.Pipeline.Value
import Idealize.ShloMosaic.Lib.ValueIdx

set_option maxRecDepth 16384

noncomputable section

namespace Cert.KernelIdeal.Dense2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The whole product: entry (i, j) is the sum over k of h(i, k) · W(k, j). -/
def product (h : S200000x8.Idx → Elt Ideal .f32) (w : S8x16.Idx → Elt Ideal .f32) : S200000x16.Idx → Elt Ideal .f32 :=
  fun i => ∑ k : Fin 8, h (ix2 (i 0) k) * w (ix2 k (i 1))

/-- A tile that holds rows 10000·t … of h, beside the whole of W, multiplies to the same rows of the whole product. -/
theorem tile_rows (X : S200000x8.Idx → Elt Ideal .f32) (W : S8x16.Idx → Elt Ideal .f32)
    (h : Vec Ideal S10000x8 .f32) (w : Vec Ideal S8x16 .f32) (t : ℕ) (ht : t < 20)
    (hh : ∀ (p : Fin 10000) (k : Fin 8), h (ix2 p k) = X (ix2 ⟨t * 10000 + p.val, by have := p.isLt; omega⟩ k))
    (hw : ∀ (k : Fin 8) (q : Fin 16), w (ix2 k q) = W (ix2 k q))
    (p : Fin 10000) (q : Fin 16) :
    k2_pay1 (F := Ideal) h w (ix2 p q) = product X W (ix2 ⟨t * 10000 + p.val, by have := p.isLt; omega⟩ q) := by
  rw [MatTile.tile2_apply]
  unfold product
  refine Finset.sum_congr rfl fun k _ => ?_
  rw [hh, hw]

/-- The printed index maps over the grid: the feature window and the output window sit at block row t, the weight
    window at its one block. -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature window's block at point t is rows 10000·t … of the array the region found. -/
theorem feature_block (c : Dev nD) (t : Fin cfg2.N) (p : Fin 10000) (k : Fin 8) :
    iblk2 V c 0 t (ix2 p k) = V c main_v44 (ix2 ⟨t.val * 10000 + p.val, by have := p.isLt; have := t.isLt; have : cfg2.N = 20 := N_2; omega⟩ k) := by
  obtain ⟨e0, e1, e2, e3, e4, e5⟩ := index_maps t
  show V c main_v44 (((cfg2.win 0).blk t).view.emb (ix2 p k)) = V c main_v44 _
  refine congrArg (V c main_v44) (funext fun a => Fin.ext ?_)
  match a with
  | ⟨0, _⟩ => show win2_0.index t (0 : Fin 2) * 10000 + 1 * p.val = t.val * 10000 + p.val; rw [e0]; omega
  | ⟨1, _⟩ => show win2_0.index t (1 : Fin 2) * 8 + 1 * k.val = k.val; rw [e1]; omega

/-- The weight window's one block is the whole weight matrix. -/
theorem weight_block (c : Dev nD) (t : Fin cfg2.N) (k : Fin 8) (q : Fin 16) :
    iblk2 V c 1 t (ix2 k q) = V c main_arg4 (ix2 k q) := by
  obtain ⟨e0, e1, e2, e3, e4, e5⟩ := index_maps t
  show V c main_arg4 (((cfg2.win 1).blk t).view.emb (ix2 k q)) = V c main_arg4 _
  refine congrArg (V c main_arg4) (funext fun a => Fin.ext ?_)
  match a with
  | ⟨0, _⟩ => show win2_1.index t (0 : Fin 2) * 8 + 1 * k.val = k.val; rw [e2]; omega
  | ⟨1, _⟩ => show win2_1.index t (1 : Fin 2) * 16 + 1 * q.val = q.val; rw [e3]; omega

/-- What point t writes back is block t of the whole product of the arrays the region found. -/
theorem written_back (c : Dev nD) (t : Fin cfg2.N) :
    (dat2 V c).flushed 2 t = ((cfg2.win 2).blk t).view.read (Elt Ideal) (product (V c main_v44) (V c main_arg4)) := by
  show (cfg2.win 2).cut (grid2.coords t) ((dat2 V c).after 2 t) = _
  rw [after2_2]
  unfold out2_2
  rw [View.canon_unit_zero origin]
  simp only [View.ld_unit_zero (S := S10000x8) origin, View.ld_unit_zero (S := S8x16) origin]
  obtain ⟨e0, e1, e2, e3, e4, e5⟩ := index_maps t
  have ht : t.val < 20 := by have := t.isLt; have : cfg2.N = 20 := N_2; omega
  funext j
  obtain ⟨p, q, rfl⟩ : ∃ (p : Fin 10000) (q : Fin 16), j = ix2 p q := ⟨j 0, j 1, eq_ix2 j⟩
  show k2_pay1 (F := Ideal) (iblk2 V c 0 t) (iblk2 V c 1 t) (ix2 p q)
    = product (V c main_v44) (V c main_arg4) (((cfg2.win 2).blk t).view.emb (ix2 p q))
  have hemb : ((cfg2.win 2).blk t).view.emb (ix2 p q)
      = (ix2 ⟨t.val * 10000 + p.val, by have := p.isLt; omega⟩ q : S200000x16.Idx) := by
    funext a; apply Fin.ext
    match a with
    | ⟨0, _⟩ => show win2_2.index t (0 : Fin 2) * 10000 + 1 * p.val = t.val * 10000 + p.val; rw [e4]; omega
    | ⟨1, _⟩ => show win2_2.index t (1 : Fin 2) * 16 + 1 * q.val = q.val; rw [e5]; omega
  rw [hemb]
  exact tile_rows (V c main_v44) (V c main_arg4) (iblk2 V c 0 t) (iblk2 V c 1 t) t.val ht
    (fun p k => feature_block V c t p k) (fun k q => weight_block V c t k q) p q

/-- An index of the output array is in point t's block iff each coordinate is in the block's range on its axis. -/
theorem in_block (t : Fin cfg2.N) (i : S200000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v45).slice (win2_2.rect t)).set ↔ _
  rw [View.set_slice_whole, Rect.mem_set_unit]
  exact Iff.rfl

/-- Every row of the output array is in the tile of the point that owns it: row i belongs to point i / 10000. -/
theorem tiles_cover (i : S200000x16.Idx) : ∃ t : Fin cfg2.N, (cfg2.win 2).flush t = true ∧ i ∈ ((cfg2.win 2).blk t).view.set := by
  have hi0 : (i 0).val < 200000 := (i 0).isLt
  have hi1 : (i 1).val < 16 := (i 1).isLt
  have hN : cfg2.N = 20 := N_2
  refine ⟨⟨(i 0).val / 10000, by omega⟩, flush2_2 _, ?_⟩
  rw [in_block]
  obtain ⟨e0, e1, e2, e3, e4, e5⟩ := index_maps ⟨(i 0).val / 10000, by omega⟩
  intro a
  match a with
  | ⟨0, _⟩ =>
    show win2_2.index _ (0 : Fin 2) * 10000 ≤ (i 0).val ∧ (i 0).val < win2_2.index _ (0 : Fin 2) * 10000 + 10000
    rw [e4]; show (i 0).val / 10000 * 10000 ≤ (i 0).val ∧ (i 0).val < (i 0).val / 10000 * 10000 + 10000; omega
  | ⟨1, _⟩ =>
    show win2_2.index _ (1 : Fin 2) * 16 ≤ (i 1).val ∧ (i 1).val < win2_2.index _ (1 : Fin 2) * 16 + 16
    rw [e5]; omega

/-- After the region its output array is the whole product of the arrays it found. -/
theorem array_after (c : Dev nD) : (dat2 V c).arrAt 2 cfg2.N = product (V c main_v44) (V c main_arg4) :=
  (dat2 V c).arrAt_eq_of_cover 2 (product (V c main_v44) (V c main_arg4)) (fun t _ => written_back V c t) tiles_cover

end Cert.KernelIdeal.Dense2

end
-- ==== Proof.Dense4.lean ====
/-
  Dense layer 3, from row tiles to the whole array. The region's grid has 20 points; point t reads rows
  10000·t … 10000·t + 9999 of the feature array h and the whole weight matrix W, and writes back the same rows of the
  product. Every row lies in exactly one point's tile, so after the region the output array holds, at (i, j), the sum over k
  of h(i, k) · W(k, j) — whatever the region found in h and W when it was entered.
-/
import proofs.«133024_j22557168239484_2_alg».proof.Proof.Gen.KernelIdeal.Frame
import proofs.«133024_j22557168239484_2_alg».proof.Proof.MatTile
import Idealize.ShloMosaic.Lib.Pipeline.Value
import Idealize.ShloMosaic.Lib.ValueIdx

set_option maxRecDepth 16384

noncomputable section

namespace Cert.KernelIdeal.Dense4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The whole product: entry (i, j) is the sum over k of h(i, k) · W(k, j). -/
def product (h : S200000x16.Idx → Elt Ideal .f32) (w : S16x8.Idx → Elt Ideal .f32) : S200000x8.Idx → Elt Ideal .f32 :=
  fun i => ∑ k : Fin 16, h (ix2 (i 0) k) * w (ix2 k (i 1))

/-- A tile that holds rows 10000·t … of h, beside the whole of W, multiplies to the same rows of the whole product. -/
theorem tile_rows (X : S200000x16.Idx → Elt Ideal .f32) (W : S16x8.Idx → Elt Ideal .f32)
    (h : Vec Ideal S10000x16 .f32) (w : Vec Ideal S16x8 .f32) (t : ℕ) (ht : t < 20)
    (hh : ∀ (p : Fin 10000) (k : Fin 16), h (ix2 p k) = X (ix2 ⟨t * 10000 + p.val, by have := p.isLt; omega⟩ k))
    (hw : ∀ (k : Fin 16) (q : Fin 8), w (ix2 k q) = W (ix2 k q))
    (p : Fin 10000) (q : Fin 8) :
    k4_pay1 (F := Ideal) h w (ix2 p q) = product X W (ix2 ⟨t * 10000 + p.val, by have := p.isLt; omega⟩ q) := by
  rw [MatTile.tile4_apply]
  unfold product
  refine Finset.sum_congr rfl fun k _ => ?_
  rw [hh, hw]

/-- The printed index maps over the grid: the feature window and the output window sit at block row t, the weight
    window at its one block. -/
theorem index_maps : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The feature window's block at point t is rows 10000·t … of the array the region found. -/
theorem feature_block (c : Dev nD) (t : Fin cfg4.N) (p : Fin 10000) (k : Fin 16) :
    iblk4 V c 0 t (ix2 p k) = V c main_v60 (ix2 ⟨t.val * 10000 + p.val, by have := p.isLt; have := t.isLt; have : cfg4.N = 20 := N_4; omega⟩ k) := by
  obtain ⟨e0, e1, e2, e3, e4, e5⟩ := index_maps t
  show V c main_v60 (((cfg4.win 0).blk t).view.emb (ix2 p k)) = V c main_v60 _
  refine congrArg (V c main_v60) (funext fun a => Fin.ext ?_)
  match a with
  | ⟨0, _⟩ => show win4_0.index t (0 : Fin 2) * 10000 + 1 * p.val = t.val * 10000 + p.val; rw [e0]; omega
  | ⟨1, _⟩ => show win4_0.index t (1 : Fin 2) * 16 + 1 * k.val = k.val; rw [e1]; omega

/-- The weight window's one block is the whole weight matrix. -/
theorem weight_block (c : Dev nD) (t : Fin cfg4.N) (k : Fin 16) (q : Fin 8) :
    iblk4 V c 1 t (ix2 k q) = V c main_arg6 (ix2 k q) := by
  obtain ⟨e0, e1, e2, e3, e4, e5⟩ := index_maps t
  show V c main_arg6 (((cfg4.win 1).blk t).view.emb (ix2 k q)) = V c main_arg6 _
  refine congrArg (V c main_arg6) (funext fun a => Fin.ext ?_)
  match a with
  | ⟨0, _⟩ => show win4_1.index t (0 : Fin 2) * 16 + 1 * k.val = k.val; rw [e2]; omega
  | ⟨1, _⟩ => show win4_1.index t (1 : Fin 2) * 8 + 1 * q.val = q.val; rw [e3]; omega

/-- What point t writes back is block t of the whole product of the arrays the region found. -/
theorem written_back (c : Dev nD) (t : Fin cfg4.N) :
    (dat4 V c).flushed 2 t = ((cfg4.win 2).blk t).view.read (Elt Ideal) (product (V c main_v60) (V c main_arg6)) := by
  show (cfg4.win 2).cut (grid4.coords t) ((dat4 V c).after 2 t) = _
  rw [after4_2]
  unfold out4_2
  rw [View.canon_unit_zero origin]
  simp only [View.ld_unit_zero (S := S10000x16) origin, View.ld_unit_zero (S := S16x8) origin]
  obtain ⟨e0, e1, e2, e3, e4, e5⟩ := index_maps t
  have ht : t.val < 20 := by have := t.isLt; have : cfg4.N = 20 := N_4; omega
  funext j
  obtain ⟨p, q, rfl⟩ : ∃ (p : Fin 10000) (q : Fin 8), j = ix2 p q := ⟨j 0, j 1, eq_ix2 j⟩
  show k4_pay1 (F := Ideal) (iblk4 V c 0 t) (iblk4 V c 1 t) (ix2 p q)
    = product (V c main_v60) (V c main_arg6) (((cfg4.win 2).blk t).view.emb (ix2 p q))
  have hemb : ((cfg4.win 2).blk t).view.emb (ix2 p q)
      = (ix2 ⟨t.val * 10000 + p.val, by have := p.isLt; omega⟩ q : S200000x8.Idx) := by
    funext a; apply Fin.ext
    match a with
    | ⟨0, _⟩ => show win4_2.index t (0 : Fin 2) * 10000 + 1 * p.val = t.val * 10000 + p.val; rw [e4]; omega
    | ⟨1, _⟩ => show win4_2.index t (1 : Fin 2) * 8 + 1 * q.val = q.val; rw [e5]; omega
  rw [hemb]
  exact tile_rows (V c main_v60) (V c main_arg6) (iblk4 V c 0 t) (iblk4 V c 1 t) t.val ht
    (fun p k => feature_block V c t p k) (fun k q => weight_block V c t k q) p q

/-- An index of the output array is in point t's block iff each coordinate is in the block's range on its axis. -/
theorem in_block (t : Fin cfg4.N) (i : S200000x8.Idx) :
    i ∈ ((cfg4.win 2).blk t).view.set ↔ ∀ a : Fin 2, win4_2.index t a * S10000x8.size a ≤ (i a).val ∧ (i a).val < win4_2.index t a * S10000x8.size a + S10000x8.size a := by
  show i ∈ ((View.whole main_v61).slice (win4_2.rect t)).set ↔ _
  rw [View.set_slice_whole, Rect.mem_set_unit]
  exact Iff.rfl

/-- Every row of the output array is in the tile of the point that owns it: row i belongs to point i / 10000. -/
theorem tiles_cover (i : S200000x8.Idx) : ∃ t : Fin cfg4.N, (cfg4.win 2).flush t = true ∧ i ∈ ((cfg4.win 2).blk t).view.set := by
  have hi0 : (i 0).val < 200000 := (i 0).isLt
  have hi1 : (i 1).val < 8 := (i 1).isLt
  have hN : cfg4.N = 20 := N_4
  refine ⟨⟨(i 0).val / 10000, by omega⟩, flush4_2 _, ?_⟩
  rw [in_block]
  obtain ⟨e0, e1, e2, e3, e4, e5⟩ := index_maps ⟨(i 0).val / 10000, by omega⟩
  intro a
  match a with
  | ⟨0, _⟩ =>
    show win4_2.index _ (0 : Fin 2) * 10000 ≤ (i 0).val ∧ (i 0).val < win4_2.index _ (0 : Fin 2) * 10000 + 10000
    rw [e4]; show (i 0).val / 10000 * 10000 ≤ (i 0).val ∧ (i 0).val < (i 0).val / 10000 * 10000 + 10000; omega
  | ⟨1, _⟩ =>
    show win4_2.index _ (1 : Fin 2) * 8 ≤ (i 1).val ∧ (i 1).val < win4_2.index _ (1 : Fin 2) * 8 + 8
    rw [e5]; omega

/-- After the region its output array is the whole product of the arrays it found. -/
theorem array_after (c : Dev nD) : (dat4 V c).arrAt 2 cfg4.N = product (V c main_v60) (V c main_arg6) :=
  (dat4 V c).arrAt_eq_of_cover 2 (product (V c main_v60) (V c main_arg6)) (fun t _ => written_back V c t) tiles_cover

end Cert.KernelIdeal.Dense4

end
-- ==== Proof.Dense6.lean ====
/-
  Dense layer 4, from row tiles to the whole array. The region's grid has 20 points; point t reads rows
  10000·t … 10000·t + 9999 of the feature array h and the whole weight matrix W, and writes back the same rows of the
  product. Every row lies in exactly one point's tile, so after the region the output array holds, at (i, j), the sum over k
  of h(i, k) · W(k, j) — whatever the region found in h and W when it was entered.
-/
import proofs.«133024_j22557168239484_2_alg».proof.Proof.Gen.KernelIdeal.Frame
import proofs.«133024_j22557168239484_2_alg».proof.Proof.MatTile
import Idealize.ShloMosaic.Lib.Pipeline.Value
import Idealize.ShloMosaic.Lib.ValueIdx

set_option maxRecDepth 16384

noncomputable section

namespace Cert.KernelIdeal.Dense6

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The whole product: entry (i, j) is the sum over k of h(i, k) · W(k, j). -/
def product (h : S200000x8.Idx → Elt Ideal .f32) (w : S8x2.Idx → Elt Ideal .f32) : S200000x2.Idx → Elt Ideal .f32 :=
  fun i => ∑ k : Fin 8, h (ix2 (i 0) k) * w (ix2 k (i 1))

/-- A tile that holds rows 10000·t … of h, beside the whole of W, multiplies to the same rows of the whole product. -/
theorem tile_rows (X : S200000x8.Idx → Elt Ideal .f32) (W : S8x2.Idx → Elt Ideal .f32)
    (h : Vec Ideal S10000x8 .f32) (w : Vec Ideal S8x2 .f32) (t : ℕ) (ht : t < 20)
    (hh : ∀ (p : Fin 10000) (k : Fin 8), h (ix2 p k) = X (ix2 ⟨t * 10000 + p.val, by have := p.isLt; omega⟩ k))
    (hw : ∀ (k : Fin 8) (q : Fin 2), w (ix2 k q) = W (ix2 k q))
    (p : Fin 10000) (q : Fin 2) :
    k6_pay1 (F := Ideal) h w (ix2 p q) = product X W (ix2 ⟨t * 10000 + p.val, by have := p.isLt; omega⟩ q) := by
  rw [MatTile.tile6_apply]
  unfold product
  refine Finset.sum_congr rfl fun k _ => ?_
  rw [hh, hw]

/-- The printed index maps over the grid: the feature window and the output window sit at block row t, the weight
    window at its one block. -/
theorem index_maps : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The feature window's block at point t is rows 10000·t … of the array the region found. -/
theorem feature_block (c : Dev nD) (t : Fin cfg6.N) (p : Fin 10000) (k : Fin 8) :
    iblk6 V c 0 t (ix2 p k) = V c main_v76 (ix2 ⟨t.val * 10000 + p.val, by have := p.isLt; have := t.isLt; have : cfg6.N = 20 := N_6; omega⟩ k) := by
  obtain ⟨e0, e1, e2, e3, e4, e5⟩ := index_maps t
  show V c main_v76 (((cfg6.win 0).blk t).view.emb (ix2 p k)) = V c main_v76 _
  refine congrArg (V c main_v76) (funext fun a => Fin.ext ?_)
  match a with
  | ⟨0, _⟩ => show win6_0.index t (0 : Fin 2) * 10000 + 1 * p.val = t.val * 10000 + p.val; rw [e0]; omega
  | ⟨1, _⟩ => show win6_0.index t (1 : Fin 2) * 8 + 1 * k.val = k.val; rw [e1]; omega

/-- The weight window's one block is the whole weight matrix. -/
theorem weight_block (c : Dev nD) (t : Fin cfg6.N) (k : Fin 8) (q : Fin 2) :
    iblk6 V c 1 t (ix2 k q) = V c main_arg8 (ix2 k q) := by
  obtain ⟨e0, e1, e2, e3, e4, e5⟩ := index_maps t
  show V c main_arg8 (((cfg6.win 1).blk t).view.emb (ix2 k q)) = V c main_arg8 _
  refine congrArg (V c main_arg8) (funext fun a => Fin.ext ?_)
  match a with
  | ⟨0, _⟩ => show win6_1.index t (0 : Fin 2) * 8 + 1 * k.val = k.val; rw [e2]; omega
  | ⟨1, _⟩ => show win6_1.index t (1 : Fin 2) * 2 + 1 * q.val = q.val; rw [e3]; omega

/-- What point t writes back is block t of the whole product of the arrays the region found. -/
theorem written_back (c : Dev nD) (t : Fin cfg6.N) :
    (dat6 V c).flushed 2 t = ((cfg6.win 2).blk t).view.read (Elt Ideal) (product (V c main_v76) (V c main_arg8)) := by
  show (cfg6.win 2).cut (grid6.coords t) ((dat6 V c).after 2 t) = _
  rw [after6_2]
  unfold out6_2
  rw [View.canon_unit_zero origin]
  simp only [View.ld_unit_zero (S := S10000x8) origin, View.ld_unit_zero (S := S8x2) origin]
  obtain ⟨e0, e1, e2, e3, e4, e5⟩ := index_maps t
  have ht : t.val < 20 := by have := t.isLt; have : cfg6.N = 20 := N_6; omega
  funext j
  obtain ⟨p, q, rfl⟩ : ∃ (p : Fin 10000) (q : Fin 2), j = ix2 p q := ⟨j 0, j 1, eq_ix2 j⟩
  show k6_pay1 (F := Ideal) (iblk6 V c 0 t) (iblk6 V c 1 t) (ix2 p q)
    = product (V c main_v76) (V c main_arg8) (((cfg6.win 2).blk t).view.emb (ix2 p q))
  have hemb : ((cfg6.win 2).blk t).view.emb (ix2 p q)
      = (ix2 ⟨t.val * 10000 + p.val, by have := p.isLt; omega⟩ q : S200000x2.Idx) := by
    funext a; apply Fin.ext
    match a with
    | ⟨0, _⟩ => show win6_2.index t (0 : Fin 2) * 10000 + 1 * p.val = t.val * 10000 + p.val; rw [e4]; omega
    | ⟨1, _⟩ => show win6_2.index t (1 : Fin 2) * 2 + 1 * q.val = q.val; rw [e5]; omega
  rw [hemb]
  exact tile_rows (V c main_v76) (V c main_arg8) (iblk6 V c 0 t) (iblk6 V c 1 t) t.val ht
    (fun p k => feature_block V c t p k) (fun k q => weight_block V c t k q) p q

/-- An index of the output array is in point t's block iff each coordinate is in the block's range on its axis. -/
theorem in_block (t : Fin cfg6.N) (i : S200000x2.Idx) :
    i ∈ ((cfg6.win 2).blk t).view.set ↔ ∀ a : Fin 2, win6_2.index t a * S10000x2.size a ≤ (i a).val ∧ (i a).val < win6_2.index t a * S10000x2.size a + S10000x2.size a := by
  show i ∈ ((View.whole main_v77).slice (win6_2.rect t)).set ↔ _
  rw [View.set_slice_whole, Rect.mem_set_unit]
  exact Iff.rfl

/-- Every row of the output array is in the tile of the point that owns it: row i belongs to point i / 10000. -/
theorem tiles_cover (i : S200000x2.Idx) : ∃ t : Fin cfg6.N, (cfg6.win 2).flush t = true ∧ i ∈ ((cfg6.win 2).blk t).view.set := by
  have hi0 : (i 0).val < 200000 := (i 0).isLt
  have hi1 : (i 1).val < 2 := (i 1).isLt
  have hN : cfg6.N = 20 := N_6
  refine ⟨⟨(i 0).val / 10000, by omega⟩, flush6_2 _, ?_⟩
  rw [in_block]
  obtain ⟨e0, e1, e2, e3, e4, e5⟩ := index_maps ⟨(i 0).val / 10000, by omega⟩
  intro a
  match a with
  | ⟨0, _⟩ =>
    show win6_2.index _ (0 : Fin 2) * 10000 ≤ (i 0).val ∧ (i 0).val < win6_2.index _ (0 : Fin 2) * 10000 + 10000
    rw [e4]; show (i 0).val / 10000 * 10000 ≤ (i 0).val ∧ (i 0).val < (i 0).val / 10000 * 10000 + 10000; omega
  | ⟨1, _⟩ =>
    show win6_2.index _ (1 : Fin 2) * 2 ≤ (i 1).val ∧ (i 1).val < win6_2.index _ (1 : Fin 2) * 2 + 2
    rw [e5]; omega

/-- After the region its output array is the whole product of the arrays it found. -/
theorem array_after (c : Dev nD) : (dat6 V c).arrAt 2 cfg6.N = product (V c main_v76) (V c main_arg8) :=
  (dat6 V c).arrAt_eq_of_cover 2 (product (V c main_v76) (V c main_arg8)) (fun t _ => written_back V c t) tiles_cover

end Cert.KernelIdeal.Dense6

end
-- ==== Proof.BridgeDense.lean ====
/-
  The four dense layers on the two sides. The reference multiplies the whole feature array by the weight matrix in one
  host product; read at entry (i, j) that product is the sum over k of h(i, k) · W(k, j), which is what the row tiles left in
  the kernel's array. The two are one function of h and W.
-/
import proofs.«133024_j22557168239484_2_alg».proof.Proof.RefStages
import proofs.«133024_j22557168239484_2_alg».proof.Proof.Dense0
import proofs.«133024_j22557168239484_2_alg».proof.Proof.Dense2
import proofs.«133024_j22557168239484_2_alg».proof.Proof.Dense4
import proofs.«133024_j22557168239484_2_alg».proof.Proof.Dense6

noncomputable section

namespace Cert.Bridge

open Idealize.ShloMosaic Idealize.ShloMosaic.ValueIdx
open Cert.ReferenceIdeal Cert.ReferenceIdeal.ReadP

/-- Layer 1: the tiles' whole product of x and W1 is the reference's host product. -/
theorem dense1 (x0 : (⟨S200000x16, .f32⟩ : BufTy).Contents (Elt Ideal)) (x1 : (⟨S2x6400000, .i32⟩ : BufTy).Contents (Elt Ideal)) (x2 : (⟨S16x8, .f32⟩ : BufTy).Contents (Elt Ideal)) :
    Cert.KernelIdeal.Dense0.product x0 x2 = val_main_v29 (F := Ideal) x0 x2 := by
  funext i
  rw [val_main_v29_apply]
  exact Finset.sum_congr rfl fun k _ => congrArg₂ (· * ·)
    (congrArg x0 (funext fun a => by match a with | ⟨0, _⟩ => rfl | ⟨1, _⟩ => rfl))
    (congrArg x2 (funext fun a => by match a with | ⟨0, _⟩ => rfl | ⟨1, _⟩ => rfl))

/-- Layer 2: the tiles' whole product of the first hidden features and W2 is the reference's host product. -/
theorem dense2 (x0 : (⟨S200000x16, .f32⟩ : BufTy).Contents (Elt Ideal)) (x1 : (⟨S2x6400000, .i32⟩ : BufTy).Contents (Elt Ideal)) (x2 : (⟨S16x8, .f32⟩ : BufTy).Contents (Elt Ideal)) (x3 : (⟨S8, .f32⟩ : BufTy).Contents (Elt Ideal)) (x4 : (⟨S8x16, .f32⟩ : BufTy).Contents (Elt Ideal)) :
    Cert.KernelIdeal.Dense2.product (val_main_v48 (F := Ideal) x0 x1 x2 x3) x4 = val_main_v49 (F := Ideal) x0 x1 x2 x3 x4 := by
  funext i
  rw [val_main_v49_apply]
  exact Finset.sum_congr rfl fun k _ => congrArg₂ (· * ·)
    (congrArg (val_main_v48 (F := Ideal) x0 x1 x2 x3) (funext fun a => by match a with | ⟨0, _⟩ => rfl | ⟨1, _⟩ => rfl))
    (congrArg x4 (funext fun a => by match a with | ⟨0, _⟩ => rfl | ⟨1, _⟩ => rfl))

/-- Layer 3: the tiles' whole product of the second hidden features and W3 is the reference's host product. -/
theorem dense3 (x0 : (⟨S200000x16, .f32⟩ : BufTy).Contents (Elt Ideal)) (x1 : (⟨S2x6400000, .i32⟩ : BufTy).Contents (Elt Ideal)) (x2 : (⟨S16x8, .f32⟩ : BufTy).Contents (Elt Ideal)) (x3 : (⟨S8, .f32⟩ : BufTy).Contents (Elt Ideal)) (x4 : (⟨S8x16, .f32⟩ : BufTy).Contents (Elt Ideal)) (x5 : (⟨S16, .f32⟩ : BufTy).Contents (Elt Ideal)) (x6 : (⟨S16x8, .f32⟩ : BufTy).Contents (Elt Ideal)) :
    Cert.KernelIdeal.Dense4.product (val_main_v68 (F := Ideal) x0 x1 x2 x3 x4 x5) x6 = val_main_v69 (F := Ideal) x0 x1 x2 x3 x4 x5 x6 := by
  funext i
  rw [val_main_v69_apply]
  exact Finset.sum_congr rfl fun k _ => congrArg₂ (· * ·)
    (congrArg (val_main_v68 (F := Ideal) x0 x1 x2 x3 x4 x5) (funext fun a => by match a with | ⟨0, _⟩ => rfl | ⟨1, _⟩ => rfl))
    (congrArg x6 (funext fun a => by match a with | ⟨0, _⟩ => rfl | ⟨1, _⟩ => rfl))

/-- Layer 4: the tiles' whole product of the third hidden features and W4 is the reference's host product. -/
theorem dense4 (x0 : (⟨S200000x16, .f32⟩ : BufTy).Contents (Elt Ideal)) (x1 : (⟨S2x6400000, .i32⟩ : BufTy).Contents (Elt Ideal)) (x2 : (⟨S16x8, .f32⟩ : BufTy).Contents (Elt Ideal)) (x3 : (⟨S8, .f32⟩ : BufTy).Contents (Elt Ideal)) (x4 : (⟨S8x16, .f32⟩ : BufTy).Contents (Elt Ideal)) (x5 : (⟨S16, .f32⟩ : BufTy).Contents (Elt Ideal)) (x6 : (⟨S16x8, .f32⟩ : BufTy).Contents (Elt Ideal)) (x7 : (⟨S8, .f32⟩ : BufTy).Contents (Elt Ideal)) (x8 : (⟨S8x2, .f32⟩ : BufTy).Contents (Elt Ideal)) :
    Cert.KernelIdeal.Dense6.product (val_main_v88 (F := Ideal) x0 x1 x2 x3 x4 x5 x6 x7) x8 = val_main_v89 (F := Ideal) x0 x1 x2 x3 x4 x5 x6 x7 x8 := by
  funext i
  rw [val_main_v89_apply]
  exact Finset.sum_congr rfl fun k _ => congrArg₂ (· * ·)
    (congrArg (val_main_v88 (F := Ideal) x0 x1 x2 x3 x4 x5 x6 x7) (funext fun a => by match a with | ⟨0, _⟩ => rfl | ⟨1, _⟩ => rfl))
    (congrArg x8 (funext fun a => by match a with | ⟨0, _⟩ => rfl | ⟨1, _⟩ => rfl))

end Cert.Bridge

end
-- ==== Proof.LibMish.lean ====
/-
  Mish on the extended reals: mish x = x · tanh (softplus x), with softplus x = max(x, 0) + log(1 + e^(−|x|)), the
  overflow-free form of log(1 + eˣ). Both programs compute softplus as the two-argument log-add-exp of x and 0, which
  tests its difference x − 0 for "not a number" by comparing it with itself; on the extended reals nothing differs from
  itself, so the test never fires and the guarded branch is the form above. The tile program writes −|d| as 0 − |d|, the
  host program as the negation of |d|: the same extended real.
-/
import Idealize.ShloMosaic.PureOps.Ideal.Laws
import Idealize.ShloMosaic.Lib.ValueIdx

noncomputable section

namespace Mish

open Idealize.ShloMosaic

/-- softplus x = max(x, 0) + log(1 + e^(−|x|)), |x| written max(x, −x). -/
def softplus (x : EReal) : EReal := max x 0 + Ideal.log1p (Ideal.exp (-(max x (-x))))

/-- mish x = x · tanh (softplus x). -/
def mish (x : EReal) : EReal := x * Ideal.tanh (softplus x)

/-- The float zero pattern is the extended real 0. -/
theorem zero_word : FloatOps.ofBits (F := Ideal) .f32 0x00000000#32 = (0 : EReal) := Ideal.ofBits_zero_f32

/-- No extended real differs from itself: the "not a number" test answers no. -/
theorem cmp_ne_self (p : CmpFPredicate) (hp : p = .one ∨ p = .une) (d : EReal) : Ideal.cmp p d d = 0#1 := by
  rcases hp with rfl | rfl <;> simp [Ideal.cmp]

/-- The tile program's spelling of mish: the guard on d = x − 0, and −|d| written 0 − |d|. -/
theorem tile_form (x : EReal) :
    x * Ideal.tanh (Scalar.select (Ideal.cmp .one (x - FloatOps.ofBits (F := Ideal) .f32 0x00000000#32) (x - FloatOps.ofBits (F := Ideal) .f32 0x00000000#32))
        (x + FloatOps.ofBits (F := Ideal) .f32 0x00000000#32)
        (max x (FloatOps.ofBits (F := Ideal) .f32 0x00000000#32) + Ideal.log1p (Ideal.exp (FloatOps.ofBits (F := Ideal) .f32 0x00000000#32
          - max (x - FloatOps.ofBits (F := Ideal) .f32 0x00000000#32) (-(x - FloatOps.ofBits (F := Ideal) .f32 0x00000000#32))))))
      = mish x := by
  rw [zero_word, sub_zero, cmp_ne_self .one (.inl rfl), zero_sub]
  rfl

/-- The host program's spelling of mish: the guard on d = x − 0, and −|d| as a negation. -/
theorem host_form (x : EReal) :
    x * Ideal.tanh (Scalar.select (Ideal.cmp .une (x - FloatOps.ofBits (F := Ideal) .f32 0x00000000#32) (x - FloatOps.ofBits (F := Ideal) .f32 0x00000000#32))
        (x + FloatOps.ofBits (F := Ideal) .f32 0x00000000#32)
        (max x (FloatOps.ofBits (F := Ideal) .f32 0x00000000#32) + Ideal.log1p (Ideal.exp
          (-(max (x - FloatOps.ofBits (F := Ideal) .f32 0x00000000#32) (-(x - FloatOps.ofBits (F := Ideal) .f32 0x00000000#32)))))))
      = mish x := by
  rw [zero_word, sub_zero, cmp_ne_self .une (.inr rfl)]
  rfl

end Mish

end
-- ==== Proof.Act1.lean ====
/-
  Layer 1's bias and activation, from row tiles to the whole array. The region's grid has 20 points; point t reads
  rows 10000·t … 10000·t + 9999 of the aggregated features and the one-row bias, adds the bias to every row and applies
  mish entry by entry, and writes the same rows back. Every row lies in exactly one point's tile, so after the region the
  output array holds mish (a(i, j) + b(0, j)) at (i, j) — whatever arrays the region found.
-/
import proofs.«133024_j22557168239484_2_alg».proof.Proof.Gen.KernelIdeal.Frame
import proofs.«133024_j22557168239484_2_alg».proof.Proof.LibMish
import Idealize.ShloMosaic.Lib.Pipeline.Value
import Idealize.ShloMosaic.Lib.ValueIdx
import Idealize.ShloMosaic.Lib.ValueLayout

set_option maxRecDepth 16384

noncomputable section

namespace Cert.KernelIdeal.Act1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The whole activated array: entry (i, j) is mish of the aggregate at (i, j) plus the bias at j. -/
def activated (a : S200000x8.Idx → Elt Ideal .f32) (b : S1x8.Idx → Elt Ideal .f32) : S200000x8.Idx → Elt Ideal .f32 :=
  fun i => Mish.mish (a i + b (ix2 (0 : Fin 1) (i 1)))

/-- One tile: entry (p, q) is mish of the tile's aggregate at (p, q) plus the bias at q. -/
theorem tile_apply (a : Vec Ideal S10000x8 .f32) (b : Vec Ideal S1x8 .f32) (p : Fin 10000) (q : Fin 8) :
    k1_pay1 (F := Ideal) a b (ix2 p q) = Mish.mish (a (ix2 p q) + b (ix2 (0 : Fin 1) q)) := by
  unfold k1_pay1
  rw [shapeCast_self, shapeCast_self]
  have hb : broadcastTo S10000x8 b broadcasts_S1x8_S10000x8 (ix2 p q) = b (ix2 (0 : Fin 1) q) := broadcastTo_1b_ab_apply b _ p q
  simp only [mulf, tanh, select, addf, maximumf, subf, cmpf, absf, exp, log1p, broadcast, hb,
    Ideal.mulf_def, Ideal.tanh_def, Ideal.addf_def, Ideal.maximumf_def, Ideal.subf_def, Ideal.cmpf_def, Ideal.absf_def,
    Ideal.exp_def, Ideal.log1p_def]
  exact Mish.tile_form _

/-- A tile that holds rows 10000·t … of the aggregate, beside the bias row, activates to the same rows of the whole. -/
theorem tile_rows (X : S200000x8.Idx → Elt Ideal .f32) (B : S1x8.Idx → Elt Ideal .f32)
    (a : Vec Ideal S10000x8 .f32) (b : Vec Ideal S1x8 .f32) (t : ℕ) (ht : t < 20)
    (ha : ∀ (p : Fin 10000) (q : Fin 8), a (ix2 p q) = X (ix2 ⟨t * 10000 + p.val, by have := p.isLt; omega⟩ q))
    (hb : ∀ (q : Fin 8), b (ix2 (0 : Fin 1) q) = B (ix2 (0 : Fin 1) q))
    (p : Fin 10000) (q : Fin 8) :
    k1_pay1 (F := Ideal) a b (ix2 p q) = activated X B (ix2 ⟨t * 10000 + p.val, by have := p.isLt; omega⟩ q) := by
  rw [tile_apply, ha, hb]
  rfl

/-- The printed index maps over the grid: the aggregate's window and the output window sit at block row t, the bias
    window at its one block. -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The aggregate window's block at point t is rows 10000·t … of the array the region found. -/
theorem aggregate_block (c : Dev nD) (t : Fin cfg1.N) (p : Fin 10000) (q : Fin 8) :
    iblk1 V c 0 t (ix2 p q) = V c main_v42 (ix2 ⟨t.val * 10000 + p.val, by have := p.isLt; have := t.isLt; have : cfg1.N = 20 := N_1; omega⟩ q) := by
  obtain ⟨e0, e1, e2, e3, e4, e5⟩ := index_maps t
  show V c main_v42 (((cfg1.win 0).blk t).view.emb (ix2 p q)) = V c main_v42 _
  refine congrArg (V c main_v42) (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 8 + 1 * q.val = q.val; rw [e1]; omega

/-- The bias window's one block is the whole bias row. -/
theorem bias_block (c : Dev nD) (t : Fin cfg1.N) (q : Fin 8) :
    iblk1 V c 1 t (ix2 (0 : Fin 1) q) = V c main_v43 (ix2 (0 : Fin 1) q) := by
  obtain ⟨e0, e1, e2, e3, e4, e5⟩ := index_maps t
  show V c main_v43 (((cfg1.win 1).blk t).view.emb (ix2 (0 : Fin 1) q)) = V c main_v43 _
  refine congrArg (V c main_v43) (funext fun a => Fin.ext ?_)
  match a with
  | ⟨0, _⟩ => show win1_1.index t (0 : Fin 2) * 1 + 1 * 0 = 0; rw [e2]
  | ⟨1, _⟩ => show win1_1.index t (1 : Fin 2) * 8 + 1 * q.val = q.val; rw [e3]; omega

/-- What point t writes back is block t of the whole activated array of the arrays the region found. -/
theorem written_back (c : Dev nD) (t : Fin cfg1.N) :
    (dat1 V c).flushed 2 t = ((cfg1.win 2).blk t).view.read (Elt Ideal) (activated (V c main_v42) (V c main_v43)) := by
  show (cfg1.win 2).cut (grid1.coords t) ((dat1 V c).after 2 t) = _
  rw [after1_2]
  unfold out1_2
  rw [View.canon_unit_zero origin]
  simp only [View.ld_unit_zero (S := S10000x8) origin, View.ld_unit_zero (S := S1x8) origin]
  obtain ⟨e0, e1, e2, e3, e4, e5⟩ := index_maps t
  have ht : t.val < 20 := by have := t.isLt; have : cfg1.N = 20 := N_1; omega
  funext j
  obtain ⟨p, q, rfl⟩ : ∃ (p : Fin 10000) (q : Fin 8), j = ix2 p q := ⟨j 0, j 1, eq_ix2 j⟩
  show k1_pay1 (F := Ideal) (iblk1 V c 0 t) (iblk1 V c 1 t) (ix2 p q)
    = activated (V c main_v42) (V c main_v43) (((cfg1.win 2).blk t).view.emb (ix2 p q))
  have hemb : ((cfg1.win 2).blk t).view.emb (ix2 p q)
      = (ix2 ⟨t.val * 10000 + p.val, by have := p.isLt; omega⟩ q : S200000x8.Idx) := by
    funext a; apply Fin.ext
    match a with
    | ⟨0, _⟩ => show win1_2.index t (0 : Fin 2) * 10000 + 1 * p.val = t.val * 10000 + p.val; rw [e4]; omega
    | ⟨1, _⟩ => show win1_2.index t (1 : Fin 2) * 8 + 1 * q.val = q.val; rw [e5]; omega
  rw [hemb]
  exact tile_rows (V c main_v42) (V c main_v43) (iblk1 V c 0 t) (iblk1 V c 1 t) t.val ht
    (fun p q => aggregate_block V c t p q) (fun q => bias_block V c t q) p q

/-- An index of the output array is in point t's block iff each coordinate is in the block's range on its axis. -/
theorem in_block (t : Fin cfg1.N) (i : S200000x8.Idx) :
    i ∈ ((cfg1.win 2).blk t).view.set ↔ ∀ a : Fin 2, win1_2.index t a * S10000x8.size a ≤ (i a).val ∧ (i a).val < win1_2.index t a * S10000x8.size a + S10000x8.size a := by
  show i ∈ ((View.whole main_v44).slice (win1_2.rect t)).set ↔ _
  rw [View.set_slice_whole, Rect.mem_set_unit]
  exact Iff.rfl

/-- Every row of the output array is in the tile of the point that owns it: row i belongs to point i / 10000. -/
theorem tiles_cover (i : S200000x8.Idx) : ∃ t : Fin cfg1.N, (cfg1.win 2).flush t = true ∧ i ∈ ((cfg1.win 2).blk t).view.set := by
  have hi0 : (i 0).val < 200000 := (i 0).isLt
  have hi1 : (i 1).val < 8 := (i 1).isLt
  have hN : cfg1.N = 20 := N_1
  refine ⟨⟨(i 0).val / 10000, by omega⟩, flush1_2 _, ?_⟩
  rw [in_block]
  obtain ⟨e0, e1, e2, e3, e4, e5⟩ := index_maps ⟨(i 0).val / 10000, by omega⟩
  intro a
  match a with
  | ⟨0, _⟩ =>
    show win1_2.index _ (0 : Fin 2) * 10000 ≤ (i 0).val ∧ (i 0).val < win1_2.index _ (0 : Fin 2) * 10000 + 10000
    rw [e4]; show (i 0).val / 10000 * 10000 ≤ (i 0).val ∧ (i 0).val < (i 0).val / 10000 * 10000 + 10000; omega
  | ⟨1, _⟩ =>
    show win1_2.index _ (1 : Fin 2) * 8 ≤ (i 1).val ∧ (i 1).val < win1_2.index _ (1 : Fin 2) * 8 + 8
    rw [e5]; omega

/-- After the region its output array is the whole activated array of the arrays it found. -/
theorem array_after (c : Dev nD) : (dat1 V c).arrAt 2 cfg1.N = activated (V c main_v42) (V c main_v43) :=
  (dat1 V c).arrAt_eq_of_cover 2 (activated (V c main_v42) (V c main_v43)) (fun t _ => written_back V c t) tiles_cover

end Cert.KernelIdeal.Act1

end
-- ==== Proof.Act3.lean ====
/-
  Layer 2's bias and activation, from row tiles to the whole array. The region's grid has 20 points; point t reads
  rows 10000·t … 10000·t + 9999 of the aggregated features and the one-row bias, adds the bias to every row and applies
  mish entry by entry, and writes the same rows back. Every row lies in exactly one point's tile, so after the region the
  output array holds mish (a(i, j) + b(0, j)) at (i, j) — whatever arrays the region found.
-/
import proofs.«133024_j22557168239484_2_alg».proof.Proof.Gen.KernelIdeal.Frame
import proofs.«133024_j22557168239484_2_alg».proof.Proof.LibMish
import Idealize.ShloMosaic.Lib.Pipeline.Value
import Idealize.ShloMosaic.Lib.ValueIdx
import Idealize.ShloMosaic.Lib.ValueLayout

set_option maxRecDepth 16384

noncomputable section

namespace Cert.KernelIdeal.Act3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The whole activated array: entry (i, j) is mish of the aggregate at (i, j) plus the bias at j. -/
def activated (a : S200000x16.Idx → Elt Ideal .f32) (b : S1x16.Idx → Elt Ideal .f32) : S200000x16.Idx → Elt Ideal .f32 :=
  fun i => Mish.mish (a i + b (ix2 (0 : Fin 1) (i 1)))

/-- One tile: entry (p, q) is mish of the tile's aggregate at (p, q) plus the bias at q. -/
theorem tile_apply (a : Vec Ideal S10000x16 .f32) (b : Vec Ideal S1x16 .f32) (p : Fin 10000) (q : Fin 16) :
    k3_pay1 (F := Ideal) a b (ix2 p q) = Mish.mish (a (ix2 p q) + b (ix2 (0 : Fin 1) q)) := by
  unfold k3_pay1
  rw [shapeCast_self, shapeCast_self]
  have hb : broadcastTo S10000x16 b broadcasts_S1x16_S10000x16 (ix2 p q) = b (ix2 (0 : Fin 1) q) := broadcastTo_1b_ab_apply b _ p q
  simp only [mulf, tanh, select, addf, maximumf, subf, cmpf, absf, exp, log1p, broadcast, hb,
    Ideal.mulf_def, Ideal.tanh_def, Ideal.addf_def, Ideal.maximumf_def, Ideal.subf_def, Ideal.cmpf_def, Ideal.absf_def,
    Ideal.exp_def, Ideal.log1p_def]
  exact Mish.tile_form _

/-- A tile that holds rows 10000·t … of the aggregate, beside the bias row, activates to the same rows of the whole. -/
theorem tile_rows (X : S200000x16.Idx → Elt Ideal .f32) (B : S1x16.Idx → Elt Ideal .f32)
    (a : Vec Ideal S10000x16 .f32) (b : Vec Ideal S1x16 .f32) (t : ℕ) (ht : t < 20)
    (ha : ∀ (p : Fin 10000) (q : Fin 16), a (ix2 p q) = X (ix2 ⟨t * 10000 + p.val, by have := p.isLt; omega⟩ q))
    (hb : ∀ (q : Fin 16), b (ix2 (0 : Fin 1) q) = B (ix2 (0 : Fin 1) q))
    (p : Fin 10000) (q : Fin 16) :
    k3_pay1 (F := Ideal) a b (ix2 p q) = activated X B (ix2 ⟨t * 10000 + p.val, by have := p.isLt; omega⟩ q) := by
  rw [tile_apply, ha, hb]
  rfl

/-- The printed index maps over the grid: the aggregate's window and the output window sit at block row t, the bias
    window at its one block. -/
theorem index_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The aggregate window's block at point t is rows 10000·t … of the array the region found. -/
theorem aggregate_block (c : Dev nD) (t : Fin cfg3.N) (p : Fin 10000) (q : Fin 16) :
    iblk3 V c 0 t (ix2 p q) = V c main_v58 (ix2 ⟨t.val * 10000 + p.val, by have := p.isLt; have := t.isLt; have : cfg3.N = 20 := N_3; omega⟩ q) := by
  obtain ⟨e0, e1, e2, e3, e4, e5⟩ := index_maps t
  show V c main_v58 (((cfg3.win 0).blk t).view.emb (ix2 p q)) = V c main_v58 _
  refine congrArg (V c main_v58) (funext fun a => Fin.ext ?_)
  match a with
  | ⟨0, _⟩ => show win3_0.index t (0 : Fin 2) * 10000 + 1 * p.val = t.val * 10000 + p.val; rw [e0]; omega
  | ⟨1, _⟩ => show win3_0.index t (1 : Fin 2) * 16 + 1 * q.val = q.val; rw [e1]; omega

/-- The bias window's one block is the whole bias row. -/
theorem bias_block (c : Dev nD) (t : Fin cfg3.N) (q : Fin 16) :
    iblk3 V c 1 t (ix2 (0 : Fin 1) q) = V c main_v59 (ix2 (0 : Fin 1) q) := by
  obtain ⟨e0, e1, e2, e3, e4, e5⟩ := index_maps t
  show V c main_v59 (((cfg3.win 1).blk t).view.emb (ix2 (0 : Fin 1) q)) = V c main_v59 _
  refine congrArg (V c main_v59) (funext fun a => Fin.ext ?_)
  match a with
  | ⟨0, _⟩ => show win3_1.index t (0 : Fin 2) * 1 + 1 * 0 = 0; rw [e2]
  | ⟨1, _⟩ => show win3_1.index t (1 : Fin 2) * 16 + 1 * q.val = q.val; rw [e3]; omega

/-- What point t writes back is block t of the whole activated array of the arrays the region found. -/
theorem written_back (c : Dev nD) (t : Fin cfg3.N) :
    (dat3 V c).flushed 2 t = ((cfg3.win 2).blk t).view.read (Elt Ideal) (activated (V c main_v58) (V c main_v59)) := by
  show (cfg3.win 2).cut (grid3.coords t) ((dat3 V c).after 2 t) = _
  rw [after3_2]
  unfold out3_2
  rw [View.canon_unit_zero origin]
  simp only [View.ld_unit_zero (S := S10000x16) origin, View.ld_unit_zero (S := S1x16) origin]
  obtain ⟨e0, e1, e2, e3, e4, e5⟩ := index_maps t
  have ht : t.val < 20 := by have := t.isLt; have : cfg3.N = 20 := N_3; omega
  funext j
  obtain ⟨p, q, rfl⟩ : ∃ (p : Fin 10000) (q : Fin 16), j = ix2 p q := ⟨j 0, j 1, eq_ix2 j⟩
  show k3_pay1 (F := Ideal) (iblk3 V c 0 t) (iblk3 V c 1 t) (ix2 p q)
    = activated (V c main_v58) (V c main_v59) (((cfg3.win 2).blk t).view.emb (ix2 p q))
  have hemb : ((cfg3.win 2).blk t).view.emb (ix2 p q)
      = (ix2 ⟨t.val * 10000 + p.val, by have := p.isLt; omega⟩ q : S200000x16.Idx) := by
    funext a; apply Fin.ext
    match a with
    | ⟨0, _⟩ => show win3_2.index t (0 : Fin 2) * 10000 + 1 * p.val = t.val * 10000 + p.val; rw [e4]; omega
    | ⟨1, _⟩ => show win3_2.index t (1 : Fin 2) * 16 + 1 * q.val = q.val; rw [e5]; omega
  rw [hemb]
  exact tile_rows (V c main_v58) (V c main_v59) (iblk3 V c 0 t) (iblk3 V c 1 t) t.val ht
    (fun p q => aggregate_block V c t p q) (fun q => bias_block V c t q) p q

/-- An index of the output array is in point t's block iff each coordinate is in the block's range on its axis. -/
theorem in_block (t : Fin cfg3.N) (i : S200000x16.Idx) :
    i ∈ ((cfg3.win 2).blk t).view.set ↔ ∀ a : Fin 2, win3_2.index t a * S10000x16.size a ≤ (i a).val ∧ (i a).val < win3_2.index t a * S10000x16.size a + S10000x16.size a := by
  show i ∈ ((View.whole main_v60).slice (win3_2.rect t)).set ↔ _
  rw [View.set_slice_whole, Rect.mem_set_unit]
  exact Iff.rfl

/-- Every row of the output array is in the tile of the point that owns it: row i belongs to point i / 10000. -/
theorem tiles_cover (i : S200000x16.Idx) : ∃ t : Fin cfg3.N, (cfg3.win 2).flush t = true ∧ i ∈ ((cfg3.win 2).blk t).view.set := by
  have hi0 : (i 0).val < 200000 := (i 0).isLt
  have hi1 : (i 1).val < 16 := (i 1).isLt
  have hN : cfg3.N = 20 := N_3
  refine ⟨⟨(i 0).val / 10000, by omega⟩, flush3_2 _, ?_⟩
  rw [in_block]
  obtain ⟨e0, e1, e2, e3, e4, e5⟩ := index_maps ⟨(i 0).val / 10000, by omega⟩
  intro a
  match a with
  | ⟨0, _⟩ =>
    show win3_2.index _ (0 : Fin 2) * 10000 ≤ (i 0).val ∧ (i 0).val < win3_2.index _ (0 : Fin 2) * 10000 + 10000
    rw [e4]; show (i 0).val / 10000 * 10000 ≤ (i 0).val ∧ (i 0).val < (i 0).val / 10000 * 10000 + 10000; omega
  | ⟨1, _⟩ =>
    show win3_2.index _ (1 : Fin 2) * 16 ≤ (i 1).val ∧ (i 1).val < win3_2.index _ (1 : Fin 2) * 16 + 16
    rw [e5]; omega

/-- After the region its output array is the whole activated array of the arrays it found. -/
theorem array_after (c : Dev nD) : (dat3 V c).arrAt 2 cfg3.N = activated (V c main_v58) (V c main_v59) :=
  (dat3 V c).arrAt_eq_of_cover 2 (activated (V c main_v58) (V c main_v59)) (fun t _ => written_back V c t) tiles_cover

end Cert.KernelIdeal.Act3

end
-- ==== Proof.Act5.lean ====
/-
  Layer 3's bias and activation, from row tiles to the whole array. The region's grid has 20 points; point t reads
  rows 10000·t … 10000·t + 9999 of the aggregated features and the one-row bias, adds the bias to every row and applies
  mish entry by entry, and writes the same rows back. Every row lies in exactly one point's tile, so after the region the
  output array holds mish (a(i, j) + b(0, j)) at (i, j) — whatever arrays the region found.
-/
import proofs.«133024_j22557168239484_2_alg».proof.Proof.Gen.KernelIdeal.Frame
import proofs.«133024_j22557168239484_2_alg».proof.Proof.LibMish
import Idealize.ShloMosaic.Lib.Pipeline.Value
import Idealize.ShloMosaic.Lib.ValueIdx
import Idealize.ShloMosaic.Lib.ValueLayout

set_option maxRecDepth 16384

noncomputable section

namespace Cert.KernelIdeal.Act5

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The whole activated array: entry (i, j) is mish of the aggregate at (i, j) plus the bias at j. -/
def activated (a : S200000x8.Idx → Elt Ideal .f32) (b : S1x8.Idx → Elt Ideal .f32) : S200000x8.Idx → Elt Ideal .f32 :=
  fun i => Mish.mish (a i + b (ix2 (0 : Fin 1) (i 1)))

/-- One tile: entry (p, q) is mish of the tile's aggregate at (p, q) plus the bias at q. -/
theorem tile_apply (a : Vec Ideal S10000x8 .f32) (b : Vec Ideal S1x8 .f32) (p : Fin 10000) (q : Fin 8) :
    k5_pay1 (F := Ideal) a b (ix2 p q) = Mish.mish (a (ix2 p q) + b (ix2 (0 : Fin 1) q)) := by
  unfold k5_pay1
  rw [shapeCast_self, shapeCast_self]
  have hb : broadcastTo S10000x8 b broadcasts_S1x8_S10000x8 (ix2 p q) = b (ix2 (0 : Fin 1) q) := broadcastTo_1b_ab_apply b _ p q
  simp only [mulf, tanh, select, addf, maximumf, subf, cmpf, absf, exp, log1p, broadcast, hb,
    Ideal.mulf_def, Ideal.tanh_def, Ideal.addf_def, Ideal.maximumf_def, Ideal.subf_def, Ideal.cmpf_def, Ideal.absf_def,
    Ideal.exp_def, Ideal.log1p_def]
  exact Mish.tile_form _

/-- A tile that holds rows 10000·t … of the aggregate, beside the bias row, activates to the same rows of the whole. -/
theorem tile_rows (X : S200000x8.Idx → Elt Ideal .f32) (B : S1x8.Idx → Elt Ideal .f32)
    (a : Vec Ideal S10000x8 .f32) (b : Vec Ideal S1x8 .f32) (t : ℕ) (ht : t < 20)
    (ha : ∀ (p : Fin 10000) (q : Fin 8), a (ix2 p q) = X (ix2 ⟨t * 10000 + p.val, by have := p.isLt; omega⟩ q))
    (hb : ∀ (q : Fin 8), b (ix2 (0 : Fin 1) q) = B (ix2 (0 : Fin 1) q))
    (p : Fin 10000) (q : Fin 8) :
    k5_pay1 (F := Ideal) a b (ix2 p q) = activated X B (ix2 ⟨t * 10000 + p.val, by have := p.isLt; omega⟩ q) := by
  rw [tile_apply, ha, hb]
  rfl

/-- The printed index maps over the grid: the aggregate's window and the output window sit at block row t, the bias
    window at its one block. -/
theorem index_maps : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The aggregate window's block at point t is rows 10000·t … of the array the region found. -/
theorem aggregate_block (c : Dev nD) (t : Fin cfg5.N) (p : Fin 10000) (q : Fin 8) :
    iblk5 V c 0 t (ix2 p q) = V c main_v74 (ix2 ⟨t.val * 10000 + p.val, by have := p.isLt; have := t.isLt; have : cfg5.N = 20 := N_5; omega⟩ q) := by
  obtain ⟨e0, e1, e2, e3, e4, e5⟩ := index_maps t
  show V c main_v74 (((cfg5.win 0).blk t).view.emb (ix2 p q)) = V c main_v74 _
  refine congrArg (V c main_v74) (funext fun a => Fin.ext ?_)
  match a with
  | ⟨0, _⟩ => show win5_0.index t (0 : Fin 2) * 10000 + 1 * p.val = t.val * 10000 + p.val; rw [e0]; omega
  | ⟨1, _⟩ => show win5_0.index t (1 : Fin 2) * 8 + 1 * q.val = q.val; rw [e1]; omega

/-- The bias window's one block is the whole bias row. -/
theorem bias_block (c : Dev nD) (t : Fin cfg5.N) (q : Fin 8) :
    iblk5 V c 1 t (ix2 (0 : Fin 1) q) = V c main_v75 (ix2 (0 : Fin 1) q) := by
  obtain ⟨e0, e1, e2, e3, e4, e5⟩ := index_maps t
  show V c main_v75 (((cfg5.win 1).blk t).view.emb (ix2 (0 : Fin 1) q)) = V c main_v75 _
  refine congrArg (V c main_v75) (funext fun a => Fin.ext ?_)
  match a with
  | ⟨0, _⟩ => show win5_1.index t (0 : Fin 2) * 1 + 1 * 0 = 0; rw [e2]
  | ⟨1, _⟩ => show win5_1.index t (1 : Fin 2) * 8 + 1 * q.val = q.val; rw [e3]; omega

/-- What point t writes back is block t of the whole activated array of the arrays the region found. -/
theorem written_back (c : Dev nD) (t : Fin cfg5.N) :
    (dat5 V c).flushed 2 t = ((cfg5.win 2).blk t).view.read (Elt Ideal) (activated (V c main_v74) (V c main_v75)) := by
  show (cfg5.win 2).cut (grid5.coords t) ((dat5 V c).after 2 t) = _
  rw [after5_2]
  unfold out5_2
  rw [View.canon_unit_zero origin]
  simp only [View.ld_unit_zero (S := S10000x8) origin, View.ld_unit_zero (S := S1x8) origin]
  obtain ⟨e0, e1, e2, e3, e4, e5⟩ := index_maps t
  have ht : t.val < 20 := by have := t.isLt; have : cfg5.N = 20 := N_5; omega
  funext j
  obtain ⟨p, q, rfl⟩ : ∃ (p : Fin 10000) (q : Fin 8), j = ix2 p q := ⟨j 0, j 1, eq_ix2 j⟩
  show k5_pay1 (F := Ideal) (iblk5 V c 0 t) (iblk5 V c 1 t) (ix2 p q)
    = activated (V c main_v74) (V c main_v75) (((cfg5.win 2).blk t).view.emb (ix2 p q))
  have hemb : ((cfg5.win 2).blk t).view.emb (ix2 p q)
      = (ix2 ⟨t.val * 10000 + p.val, by have := p.isLt; omega⟩ q : S200000x8.Idx) := by
    funext a; apply Fin.ext
    match a with
    | ⟨0, _⟩ => show win5_2.index t (0 : Fin 2) * 10000 + 1 * p.val = t.val * 10000 + p.val; rw [e4]; omega
    | ⟨1, _⟩ => show win5_2.index t (1 : Fin 2) * 8 + 1 * q.val = q.val; rw [e5]; omega
  rw [hemb]
  exact tile_rows (V c main_v74) (V c main_v75) (iblk5 V c 0 t) (iblk5 V c 1 t) t.val ht
    (fun p q => aggregate_block V c t p q) (fun q => bias_block V c t q) p q

/-- An index of the output array is in point t's block iff each coordinate is in the block's range on its axis. -/
theorem in_block (t : Fin cfg5.N) (i : S200000x8.Idx) :
    i ∈ ((cfg5.win 2).blk t).view.set ↔ ∀ a : Fin 2, win5_2.index t a * S10000x8.size a ≤ (i a).val ∧ (i a).val < win5_2.index t a * S10000x8.size a + S10000x8.size a := by
  show i ∈ ((View.whole main_v76).slice (win5_2.rect t)).set ↔ _
  rw [View.set_slice_whole, Rect.mem_set_unit]
  exact Iff.rfl

/-- Every row of the output array is in the tile of the point that owns it: row i belongs to point i / 10000. -/
theorem tiles_cover (i : S200000x8.Idx) : ∃ t : Fin cfg5.N, (cfg5.win 2).flush t = true ∧ i ∈ ((cfg5.win 2).blk t).view.set := by
  have hi0 : (i 0).val < 200000 := (i 0).isLt
  have hi1 : (i 1).val < 8 := (i 1).isLt
  have hN : cfg5.N = 20 := N_5
  refine ⟨⟨(i 0).val / 10000, by omega⟩, flush5_2 _, ?_⟩
  rw [in_block]
  obtain ⟨e0, e1, e2, e3, e4, e5⟩ := index_maps ⟨(i 0).val / 10000, by omega⟩
  intro a
  match a with
  | ⟨0, _⟩ =>
    show win5_2.index _ (0 : Fin 2) * 10000 ≤ (i 0).val ∧ (i 0).val < win5_2.index _ (0 : Fin 2) * 10000 + 10000
    rw [e4]; show (i 0).val / 10000 * 10000 ≤ (i 0).val ∧ (i 0).val < (i 0).val / 10000 * 10000 + 10000; omega
  | ⟨1, _⟩ =>
    show win5_2.index _ (1 : Fin 2) * 8 ≤ (i 1).val ∧ (i 1).val < win5_2.index _ (1 : Fin 2) * 8 + 8
    rw [e5]; omega

/-- After the region its output array is the whole activated array of the arrays it found. -/
theorem array_after (c : Dev nD) : (dat5 V c).arrAt 2 cfg5.N = activated (V c main_v74) (V c main_v75) :=
  (dat5 V c).arrAt_eq_of_cover 2 (activated (V c main_v74) (V c main_v75)) (fun t _ => written_back V c t) tiles_cover

end Cert.KernelIdeal.Act5

end
-- ==== Proof.BridgeAct.lean ====
/-
  The three bias-and-mish steps on the two sides. The kernel adds the bias (handed to it as a one-row array) and applies
  mish in its row tiles; the reference adds the bias spread over the rows and applies softplus, tanh and a product as
  host operations. Entry by entry both are mish of (aggregate + bias): the two spellings of softplus agree on the extended
  reals.
-/
import proofs.«133024_j22557168239484_2_alg».proof.Proof.RefStages
import proofs.«133024_j22557168239484_2_alg».proof.Proof.Act1
import proofs.«133024_j22557168239484_2_alg».proof.Proof.Act3
import proofs.«133024_j22557168239484_2_alg».proof.Proof.Act5
import Idealize.ShloMosaic.Lib.ValueLayout

set_option maxRecDepth 16384

noncomputable section

namespace Cert.Bridge

open Idealize.ShloMosaic Idealize.ShloMosaic.ValueIdx
open Cert.ReferenceIdeal Cert.ReferenceIdeal.ReadP

-- the aggregates are long compositions of host operations on arrays of millions of entries: they are never opened here
attribute [local irreducible] val_main_v42 val_main_v62 val_main_v82

/-- Layer 1, one entry: the reference's chain of host operations (add the bias, softplus by log-add-exp with 0, tanh,
    multiply) at (r, q) is mish of the aggregate at (r, q) plus the bias at q. -/
theorem act1_entry (x0 : (⟨S200000x16, .f32⟩ : BufTy).Contents (Elt Ideal)) (x1 : (⟨S2x6400000, .i32⟩ : BufTy).Contents (Elt Ideal)) (x2 : (⟨S16x8, .f32⟩ : BufTy).Contents (Elt Ideal)) (x3 : (⟨S8, .f32⟩ : BufTy).Contents (Elt Ideal)) (r : Fin 200000) (q : Fin 8) :
    Mish.mish (val_main_v42 (F := Ideal) x0 x1 x2 (ix2 r q) + x3 (ix1 q)) = val_main_v48 (F := Ideal) x0 x1 x2 x3 (ix2 r q) := by
  have hr : val_main_v44 (F := Ideal) x3 (ix2 r q) = x3 (ix1 q) := by
    rw [val_main_v44_apply, val_main_v43_apply]
    exact congrArg x3 (funext fun a => Fin.ext (by match a with | ⟨0, _⟩ => rfl))
  rw [val_main_v48_apply, val_main_v47_apply, val_main_v46_apply, val_main_call0_v11_apply, val_main_call0_v10_apply,
    val_main_call0_v9_apply, val_main_call0_v8_apply, val_main_call0_v7_apply, val_main_call0_v6_apply, val_main_call0_v5_apply,
    val_main_call0_v4_apply, val_main_call0_v3_apply, val_main_call0_v2_apply, val_main_call0_v1_apply, val_main_call0_v0_apply,
    val_main_call0_cst_apply, val_main_v45_apply, hr]
  exact (Mish.host_form (val_main_v42 (F := Ideal) x0 x1 x2 (ix2 r q) + x3 (ix1 q))).symm

/-- Layer 1: mish of (aggregate + bias), as the row tiles left it, is the reference's stage. -/
theorem act1 (x0 : (⟨S200000x16, .f32⟩ : BufTy).Contents (Elt Ideal)) (x1 : (⟨S2x6400000, .i32⟩ : BufTy).Contents (Elt Ideal)) (x2 : (⟨S16x8, .f32⟩ : BufTy).Contents (Elt Ideal)) (x3 : (⟨S8, .f32⟩ : BufTy).Contents (Elt Ideal)) :
    Cert.KernelIdeal.Act1.activated (val_main_v42 (F := Ideal) x0 x1 x2) (shapeCast Cert.KernelIdeal.S1x8 x3 Cert.KernelIdeal.Gen.shapeCasts_S8_S1x8)
      = val_main_v48 (F := Ideal) x0 x1 x2 x3 := by
  funext i
  obtain ⟨r, q, rfl⟩ : ∃ (r : Fin 200000) (q : Fin 8), i = ix2 r q := ⟨i 0, i 1, eq_ix2 i⟩
  exact (congrArg (fun z => Mish.mish (val_main_v42 (F := Ideal) x0 x1 x2 (ix2 r q) + z)) (shapeCast_a_1a_apply x3 Cert.KernelIdeal.Gen.shapeCasts_S8_S1x8 0 q)).trans (act1_entry x0 x1 x2 x3 r q)

/-- Layer 2, one entry: the reference's chain of host operations (add the bias, softplus by log-add-exp with 0, tanh,
    multiply) at (r, q) is mish of the aggregate at (r, q) plus the bias at q. -/
theorem act2_entry (x0 : (⟨S200000x16, .f32⟩ : BufTy).Contents (Elt Ideal)) (x1 : (⟨S2x6400000, .i32⟩ : BufTy).Contents (Elt Ideal)) (x2 : (⟨S16x8, .f32⟩ : BufTy).Contents (Elt Ideal)) (x3 : (⟨S8, .f32⟩ : BufTy).Contents (Elt Ideal)) (x4 : (⟨S8x16, .f32⟩ : BufTy).Contents (Elt Ideal)) (x5 : (⟨S16, .f32⟩ : BufTy).Contents (Elt Ideal)) (r : Fin 200000) (q : Fin 16) :
    Mish.mish (val_main_v62 (F := Ideal) x0 x1 x2 x3 x4 (ix2 r q) + x5 (ix1 q)) = val_main_v68 (F := Ideal) x0 x1 x2 x3 x4 x5 (ix2 r q) := by
  have hr : val_main_v64 (F := Ideal) x5 (ix2 r q) = x5 (ix1 q) := by
    rw [val_main_v64_apply, val_main_v63_apply]
    exact congrArg x5 (funext fun a => Fin.ext (by match a with | ⟨0, _⟩ => rfl))
  rw [val_main_v68_apply, val_main_v67_apply, val_main_v66_apply, val_main_call1_v11_apply, val_main_call1_v10_apply,
    val_main_call1_v9_apply, val_main_call1_v8_apply, val_main_call1_v7_apply, val_main_call1_v6_apply, val_main_call1_v5_apply,
    val_main_call1_v4_apply, val_main_call1_v3_apply, val_main_call1_v2_apply, val_main_call1_v1_apply, val_main_call1_v0_apply,
    val_main_call1_cst_apply, val_main_v65_apply, hr]
  exact (Mish.host_form (val_main_v62 (F := Ideal) x0 x1 x2 x3 x4 (ix2 r q) + x5 (ix1 q))).symm

/-- Layer 2: mish of (aggregate + bias), as the row tiles left it, is the reference's stage. -/
theorem act2 (x0 : (⟨S200000x16, .f32⟩ : BufTy).Contents (Elt Ideal)) (x1 : (⟨S2x6400000, .i32⟩ : BufTy).Contents (Elt Ideal)) (x2 : (⟨S16x8, .f32⟩ : BufTy).Contents (Elt Ideal)) (x3 : (⟨S8, .f32⟩ : BufTy).Contents (Elt Ideal)) (x4 : (⟨S8x16, .f32⟩ : BufTy).Contents (Elt Ideal)) (x5 : (⟨S16, .f32⟩ : BufTy).Contents (Elt Ideal)) :
    Cert.KernelIdeal.Act3.activated (val_main_v62 (F := Ideal) x0 x1 x2 x3 x4) (shapeCast Cert.KernelIdeal.S1x16 x5 Cert.KernelIdeal.Gen.shapeCasts_S16_S1x16)
      = val_main_v68 (F := Ideal) x0 x1 x2 x3 x4 x5 := by
  funext i
  obtain ⟨r, q, rfl⟩ : ∃ (r : Fin 200000) (q : Fin 16), i = ix2 r q := ⟨i 0, i 1, eq_ix2 i⟩
  exact (congrArg (fun z => Mish.mish (val_main_v62 (F := Ideal) x0 x1 x2 x3 x4 (ix2 r q) + z)) (shapeCast_a_1a_apply x5 Cert.KernelIdeal.Gen.shapeCasts_S16_S1x16 0 q)).trans (act2_entry x0 x1 x2 x3 x4 x5 r q)

/-- Layer 3, one entry: the reference's chain of host operations (add the bias, softplus by log-add-exp with 0, tanh,
    multiply) at (r, q) is mish of the aggregate at (r, q) plus the bias at q. -/
theorem act3_entry (x0 : (⟨S200000x16, .f32⟩ : BufTy).Contents (Elt Ideal)) (x1 : (⟨S2x6400000, .i32⟩ : BufTy).Contents (Elt Ideal)) (x2 : (⟨S16x8, .f32⟩ : BufTy).Contents (Elt Ideal)) (x3 : (⟨S8, .f32⟩ : BufTy).Contents (Elt Ideal)) (x4 : (⟨S8x16, .f32⟩ : BufTy).Contents (Elt Ideal)) (x5 : (⟨S16, .f32⟩ : BufTy).Contents (Elt Ideal)) (x6 : (⟨S16x8, .f32⟩ : BufTy).Contents (Elt Ideal)) (x7 : (⟨S8, .f32⟩ : BufTy).Contents (Elt Ideal)) (r : Fin 200000) (q : Fin 8) :
    Mish.mish (val_main_v82 (F := Ideal) x0 x1 x2 x3 x4 x5 x6 (ix2 r q) + x7 (ix1 q)) = val_main_v88 (F := Ideal) x0 x1 x2 x3 x4 x5 x6 x7 (ix2 r q) := by
  have hr : val_main_v84 (F := Ideal) x7 (ix2 r q) = x7 (ix1 q) := by
    rw [val_main_v84_apply, val_main_v83_apply]
    exact congrArg x7 (funext fun a => Fin.ext (by match a with | ⟨0, _⟩ => rfl))
  rw [val_main_v88_apply, val_main_v87_apply, val_main_v86_apply, val_main_call2_v11_apply, val_main_call2_v10_apply,
    val_main_call2_v9_apply, val_main_call2_v8_apply, val_main_call2_v7_apply, val_main_call2_v6_apply, val_main_call2_v5_apply,
    val_main_call2_v4_apply, val_main_call2_v3_apply, val_main_call2_v2_apply, val_main_call2_v1_apply, val_main_call2_v0_apply,
    val_main_call2_cst_apply, val_main_v85_apply, hr]
  exact (Mish.host_form (val_main_v82 (F := Ideal) x0 x1 x2 x3 x4 x5 x6 (ix2 r q) + x7 (ix1 q))).symm

/-- Layer 3: mish of (aggregate + bias), as the row tiles left it, is the reference's stage. -/
theorem act3 (x0 : (⟨S200000x16, .f32⟩ : BufTy).Contents (Elt Ideal)) (x1 : (⟨S2x6400000, .i32⟩ : BufTy).Contents (Elt Ideal)) (x2 : (⟨S16x8, .f32⟩ : BufTy).Contents (Elt Ideal)) (x3 : (⟨S8, .f32⟩ : BufTy).Contents (Elt Ideal)) (x4 : (⟨S8x16, .f32⟩ : BufTy).Contents (Elt Ideal)) (x5 : (⟨S16, .f32⟩ : BufTy).Contents (Elt Ideal)) (x6 : (⟨S16x8, .f32⟩ : BufTy).Contents (Elt Ideal)) (x7 : (⟨S8, .f32⟩ : BufTy).Contents (Elt Ideal)) :
    Cert.KernelIdeal.Act5.activated (val_main_v82 (F := Ideal) x0 x1 x2 x3 x4 x5 x6) (shapeCast Cert.KernelIdeal.S1x8 x7 Cert.KernelIdeal.Gen.shapeCasts_S8_S1x8)
      = val_main_v88 (F := Ideal) x0 x1 x2 x3 x4 x5 x6 x7 := by
  funext i
  obtain ⟨r, q, rfl⟩ : ∃ (r : Fin 200000) (q : Fin 8), i = ix2 r q := ⟨i 0, i 1, eq_ix2 i⟩
  exact (congrArg (fun z => Mish.mish (val_main_v82 (F := Ideal) x0 x1 x2 x3 x4 x5 x6 (ix2 r q) + z)) (shapeCast_a_1a_apply x7 Cert.KernelIdeal.Gen.shapeCasts_S8_S1x8 0 q)).trans (act3_entry x0 x1 x2 x3 x4 x5 x6 x7 r q)

end Cert.Bridge

end
-- ==== Proof.LogSoftmax2.lean ====
/-
  Log-softmax of a row of two extended reals, as both programs compute it: with M the row's maximum (folded from −∞, and
  once more against −∞), the shifted entries s(j) = x(j) − M, and the result s(q) − log (e^s(0) + e^s(1)).
  The float pattern of −∞ denotes the bottom of the extended reals.
-/
import Idealize.ShloMosaic.PureOps.Ideal.Laws
import Idealize.ShloMosaic.Lib.ValueIdx

noncomputable section

namespace LogSoftmax2

open Idealize.ShloMosaic

/-- The float pattern of −∞ is the extended reals' bottom. -/
theorem neg_inf_word : FloatOps.ofBits (F := Ideal) .f32 0xFF800000#32 = (⊥ : EReal) := by
  simp [Ideal.ofBits, Ideal.ieee]

/-- The row's maximum: the fold of max from −∞ over the two entries, taken once more against −∞. -/
def rowMax (x : Fin 2 → EReal) : EReal := max ⊥ ((Finset.univ : Finset (Fin 2)).fold max ⊥ x)

/-- log-softmax at entry q: the shifted entry minus the log of the sum of the shifted entries' exponentials. -/
def logSoftmax (x : Fin 2 → EReal) (q : Fin 2) : EReal :=
  (x q - rowMax x) - Ideal.log (∑ j : Fin 2, Ideal.exp (x j - rowMax x))

end LogSoftmax2

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.Out7.lean ====
/-
  The last layer's bias and log-softmax, from row tiles to the whole array. The region's grid has 20 points; point t
  reads rows 10000·t … 10000·t + 9999 of the aggregated two-class scores and the one-row bias, adds the bias to every row
  and normalises each row by log-softmax: the row's maximum M is taken, the row is shifted by M, and the log of the sum of
  the shifted entries' exponentials is subtracted. A row's result depends on that row only, so the tiles do not
  interact, and after the region row i of the output array is the log-softmax of row i of (scores + bias).
-/
import proofs.«133024_j22557168239484_2_alg».proof.Proof.Gen.KernelIdeal.Frame
import proofs.«133024_j22557168239484_2_alg».proof.Proof.LogSoftmax2
import proofs.«133024_j22557168239484_2_alg».proof.Proof.LibKeepdims
import Idealize.ShloMosaic.Lib.Pipeline.Value
import Idealize.ShloMosaic.Lib.ValueIdx
import Idealize.ShloMosaic.Lib.ValueLayout

set_option maxRecDepth 16384

noncomputable section

namespace Cert.KernelIdeal.Out7

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The whole normalised array: row i is the log-softmax of the scores' row i plus the bias row. -/
def normalised (a : S200000x2.Idx → Elt Ideal .f32) (b : S1x2.Idx → Elt Ideal .f32) : S200000x2.Idx → Elt Ideal .f32 :=
  fun i => LogSoftmax2.logSoftmax (fun j => a (ix2 (i 0) j) + b (ix2 (0 : Fin 1) j)) (i 1)

/-- A tile's lane sum at row p is the sum of the row's two entries. -/
theorem row_sum (src : FVec Ideal S10000x2 .f32) (p : Fin 10000) (hφ : FKind.Formats .f32)
    (hacc : (0x00000000#32 : BitVec 32) = FKind.add.neutral .f32 hφ) :
    multiReduction (F := Ideal) .add [1] S10000 src 0x00000000#32 reduces_S10000x2_S10000 hφ hacc (ix1 p)
      = ∑ k : Fin 2, src (ix2 p k) := by
  refine (Ideal.multiReduction_add_single src 0x00000000#32 reduces_S10000x2_S10000 hφ hacc (ix1 p)).trans ?_
  exact Finset.sum_congr rfl fun k _ => congrArg src (funext fun a => Fin.ext (by
    match a with | ⟨0, _⟩ => rfl | ⟨1, _⟩ => rfl))

/-- A tile's lane maximum at row p is the fold of max from −∞ over the row's two entries. -/
theorem row_max (src : FVec Ideal S10000x2 .f32) (p : Fin 10000) (hφ : FKind.Formats .f32)
    (hacc : (0xFF800000#32 : BitVec 32) = FKind.maximumf.neutral .f32 hφ) :
    multiReduction (F := Ideal) .maximumf [1] S10000 src 0xFF800000#32 reduces_S10000x2_S10000 hφ hacc (ix1 p)
      = (Finset.univ : Finset (Fin 2)).fold max ⊥ (fun k => src (ix2 p k)) := by
  refine (Ideal.multiReduction_maximumf_single src 0xFF800000#32 reduces_S10000x2_S10000 hφ hacc (ix1 p)).trans ?_
  rw [LogSoftmax2.neg_inf_word]
  exact congrArg (fun f => Finset.fold max (⊥ : EReal) f Finset.univ) (funext fun k => congrArg src (funext fun a => Fin.ext (by
    match a with | ⟨0, _⟩ => rfl | ⟨1, _⟩ => rfl)))

/-- A per-row vector recast as a column and spread over the two lanes reads, at (p, j), the vector's entry p. -/
theorem column_spread (v : FVec Ideal S10000 .f32) (p : Fin 10000) (j : Fin 2) :
    broadcastTo S10000x2 (shapeCast S10000x1 v shapeCasts_S10000_S10000x1) broadcasts_S10000x1_S10000x2 (ix2 p j) = v (ix1 p) :=
  (Keepdims.broadcastTo_a1_ab_apply _ broadcasts_S10000x1_S10000x2 p j).trans
    (Keepdims.shapeCast_a_a1_apply v shapeCasts_S10000_S10000x1 p 0)

/-- The tile's normalisation of a block x, at (p, q): the log-softmax of x's row p at q. -/
theorem normalise_apply (x : FVec Ideal S10000x2 .f32) (p : Fin 10000) (q : Fin 2) (hφ : FKind.Formats .f32)
    (h1 : (0xFF800000#32 : BitVec 32) = FKind.maximumf.neutral .f32 hφ) (h2 : (0x00000000#32 : BitVec 32) = FKind.add.neutral .f32 hφ) :
    subf (subf x (broadcastTo S10000x2 (shapeCast S10000x1 (maximumf (broadcast S10000 (FloatOps.ofBits (F := Ideal) .f32 0xFF800000#32)) (multiReduction (F := Ideal) .maximumf [1] S10000 x 0xFF800000#32 reduces_S10000x2_S10000 hφ h1)) shapeCasts_S10000_S10000x1) broadcasts_S10000x1_S10000x2))
      (broadcastTo S10000x2 (log (shapeCast S10000x1 (multiReduction (F := Ideal) .add [1] S10000
        (exp (subf x (broadcastTo S10000x2 (shapeCast S10000x1 (maximumf (broadcast S10000 (FloatOps.ofBits (F := Ideal) .f32 0xFF800000#32)) (multiReduction (F := Ideal) .maximumf [1] S10000 x 0xFF800000#32 reduces_S10000x2_S10000 hφ h1)) shapeCasts_S10000_S10000x1) broadcasts_S10000x1_S10000x2))) 0x00000000#32 reduces_S10000x2_S10000 hφ h2) shapeCasts_S10000_S10000x1)) broadcasts_S10000x1_S10000x2) (ix2 p q)
      = LogSoftmax2.logSoftmax (fun j => x (ix2 p j)) q := by
  -- the row maxima, as a vector, and the shifted block
  generalize hmv : maximumf (broadcast S10000 (FloatOps.ofBits (F := Ideal) .f32 0xFF800000#32)) (multiReduction (F := Ideal) .maximumf [1] S10000 x 0xFF800000#32 reduces_S10000x2_S10000 hφ h1) = mv
  have hM : mv (ix1 p) = LogSoftmax2.rowMax (fun j => x (ix2 p j)) := by
    rw [← hmv]
    show max (FloatOps.ofBits (F := Ideal) .f32 0xFF800000#32) (multiReduction (F := Ideal) .maximumf [1] S10000 x 0xFF800000#32 reduces_S10000x2_S10000 hφ h1 (ix1 p)) = _
    rw [row_max, LogSoftmax2.neg_inf_word]
    rfl
  generalize hs : subf x (broadcastTo S10000x2 (shapeCast S10000x1 mv shapeCasts_S10000_S10000x1) broadcasts_S10000x1_S10000x2) = s
  have hsi : ∀ j : Fin 2, s (ix2 p j) = x (ix2 p j) - LogSoftmax2.rowMax (fun j => x (ix2 p j)) := fun j => by
    rw [← hs]
    show x (ix2 p j) - broadcastTo S10000x2 (shapeCast S10000x1 mv shapeCasts_S10000_S10000x1) broadcasts_S10000x1_S10000x2 (ix2 p j) = _
    rw [column_spread, hM]
  -- the log of the row's sum of exponentials, spread back over the lanes
  have hL : broadcastTo S10000x2 (log (shapeCast S10000x1 (multiReduction (F := Ideal) .add [1] S10000 (exp s) 0x00000000#32 reduces_S10000x2_S10000 hφ h2) shapeCasts_S10000_S10000x1)) broadcasts_S10000x1_S10000x2 (ix2 p q)
      = Ideal.log (∑ k : Fin 2, Ideal.exp (s (ix2 p k))) := by
    refine (Keepdims.broadcastTo_a1_ab_apply _ broadcasts_S10000x1_S10000x2 p q).trans ?_
    show Ideal.log (shapeCast S10000x1 (multiReduction (F := Ideal) .add [1] S10000 (exp s) 0x00000000#32 reduces_S10000x2_S10000 hφ h2) shapeCasts_S10000_S10000x1 (ix2 p (0 : Fin 1))) = _
    rw [Keepdims.shapeCast_a_a1_apply, row_sum]
    rfl
  show s (ix2 p q) - broadcastTo S10000x2 (log (shapeCast S10000x1 (multiReduction (F := Ideal) .add [1] S10000 (exp s) 0x00000000#32 reduces_S10000x2_S10000 hφ h2) shapeCasts_S10000_S10000x1)) broadcasts_S10000x1_S10000x2 (ix2 p q) = _
  rw [hL, hsi]
  unfold LogSoftmax2.logSoftmax
  refine congrArg (fun z => _ - Ideal.log z) (Finset.sum_congr rfl fun k _ => ?_)
  rw [hsi]

/-- One tile: row p of the result is the log-softmax of the tile's row p plus the bias row. -/
theorem tile_apply (a : Vec Ideal S10000x2 .f32) (b : Vec Ideal S1x2 .f32) (p : Fin 10000) (q : Fin 2) :
    k7_pay1 (F := Ideal) a b (ix2 p q) = LogSoftmax2.logSoftmax (fun j => a (ix2 p j) + b (ix2 (0 : Fin 1) j)) q := by
  unfold k7_pay1
  rw [shapeCast_self, shapeCast_self]
  generalize hx : (addf a (broadcastTo S10000x2 b broadcasts_S1x2_S10000x2) : FVec Ideal S10000x2 .f32) = x
  have hxi : (fun j : Fin 2 => a (ix2 p j) + b (ix2 (0 : Fin 1) j)) = fun j => x (ix2 p j) := funext fun j => by
    rw [← hx]
    show _ = a (ix2 p j) + broadcastTo S10000x2 b broadcasts_S1x2_S10000x2 (ix2 p j)
    rw [broadcastTo_1b_ab_apply]
  rw [hxi]
  exact normalise_apply x p q _ _ _

/-- A tile that holds rows 10000·t … of the scores, beside the bias row, normalises to the same rows of the whole. -/
theorem tile_rows (X : S200000x2.Idx → Elt Ideal .f32) (B : S1x2.Idx → Elt Ideal .f32)
    (a : Vec Ideal S10000x2 .f32) (b : Vec Ideal S1x2 .f32) (t : ℕ) (ht : t < 20)
    (ha : ∀ (p : Fin 10000) (q : Fin 2), a (ix2 p q) = X (ix2 ⟨t * 10000 + p.val, by have := p.isLt; omega⟩ q))
    (hb : ∀ (q : Fin 2), b (ix2 (0 : Fin 1) q) = B (ix2 (0 : Fin 1) q))
    (p : Fin 10000) (q : Fin 2) :
    k7_pay1 (F := Ideal) a b (ix2 p q) = normalised X B (ix2 ⟨t * 10000 + p.val, by have := p.isLt; omega⟩ q) := by
  rw [tile_apply]
  unfold normalised
  refine congrArg (fun f => LogSoftmax2.logSoftmax f q) (funext fun j => ?_)
  rw [ha, hb]

/-- The printed index maps over the grid: the scores' window and the output window sit at block row t, the bias
    window at its one block. -/
theorem index_maps : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The scores' window's block at point t is rows 10000·t … of the array the region found. -/
theorem scores_block (c : Dev nD) (t : Fin cfg7.N) (p : Fin 10000) (q : Fin 2) :
    iblk7 V c 0 t (ix2 p q) = V c main_v90 (ix2 ⟨t.val * 10000 + p.val, by have := p.isLt; have := t.isLt; have : cfg7.N = 20 := N_7; omega⟩ q) := by
  obtain ⟨e0, e1, e2, e3, e4, e5⟩ := index_maps t
  show V c main_v90 (((cfg7.win 0).blk t).view.emb (ix2 p q)) = V c main_v90 _
  refine congrArg (V c main_v90) (funext fun a => Fin.ext ?_)
  match a with
  | ⟨0, _⟩ => show win7_0.index t (0 : Fin 2) * 10000 + 1 * p.val = t.val * 10000 + p.val; rw [e0]; omega
  | ⟨1, _⟩ => show win7_0.index t (1 : Fin 2) * 2 + 1 * q.val = q.val; rw [e1]; omega

/-- The bias window's one block is the whole bias row. -/
theorem bias_block (c : Dev nD) (t : Fin cfg7.N) (q : Fin 2) :
    iblk7 V c 1 t (ix2 (0 : Fin 1) q) = V c main_v91 (ix2 (0 : Fin 1) q) := by
  obtain ⟨e0, e1, e2, e3, e4, e5⟩ := index_maps t
  show V c main_v91 (((cfg7.win 1).blk t).view.emb (ix2 (0 : Fin 1) q)) = V c main_v91 _
  refine congrArg (V c main_v91) (funext fun a => Fin.ext ?_)
  match a with
  | ⟨0, _⟩ => show win7_1.index t (0 : Fin 2) * 1 + 1 * 0 = 0; rw [e2]
  | ⟨1, _⟩ => show win7_1.index t (1 : Fin 2) * 2 + 1 * q.val = q.val; rw [e3]; omega

/-- What point t writes back is block t of the whole normalised array of the arrays the region found. -/
theorem written_back (c : Dev nD) (t : Fin cfg7.N) :
    (dat7 V c).flushed 2 t = ((cfg7.win 2).blk t).view.read (Elt Ideal) (normalised (V c main_v90) (V c main_v91)) := by
  show (cfg7.win 2).cut (grid7.coords t) ((dat7 V c).after 2 t) = _
  rw [after7_2]
  unfold out7_2
  rw [View.canon_unit_zero origin]
  simp only [View.ld_unit_zero (S := S10000x2) origin, View.ld_unit_zero (S := S1x2) origin]
  obtain ⟨e0, e1, e2, e3, e4, e5⟩ := index_maps t
  have ht : t.val < 20 := by have := t.isLt; have : cfg7.N = 20 := N_7; omega
  funext j
  obtain ⟨p, q, rfl⟩ : ∃ (p : Fin 10000) (q : Fin 2), j = ix2 p q := ⟨j 0, j 1, eq_ix2 j⟩
  show k7_pay1 (F := Ideal) (iblk7 V c 0 t) (iblk7 V c 1 t) (ix2 p q)
    = normalised (V c main_v90) (V c main_v91) (((cfg7.win 2).blk t).view.emb (ix2 p q))
  have hemb : ((cfg7.win 2).blk t).view.emb (ix2 p q)
      = (ix2 ⟨t.val * 10000 + p.val, by have := p.isLt; omega⟩ q : S200000x2.Idx) := by
    funext a; apply Fin.ext
    match a with
    | ⟨0, _⟩ => show win7_2.index t (0 : Fin 2) * 10000 + 1 * p.val = t.val * 10000 + p.val; rw [e4]; omega
    | ⟨1, _⟩ => show win7_2.index t (1 : Fin 2) * 2 + 1 * q.val = q.val; rw [e5]; omega
  rw [hemb]
  exact tile_rows (V c main_v90) (V c main_v91) (iblk7 V c 0 t) (iblk7 V c 1 t) t.val ht
    (fun p q => scores_block V c t p q) (fun q => bias_block V c t q) p q

/-- An index of the output array is in point t's block iff each coordinate is in the block's range on its axis. -/
theorem in_block (t : Fin cfg7.N) (i : S200000x2.Idx) :
    i ∈ ((cfg7.win 2).blk t).view.set ↔ ∀ a : Fin 2, win7_2.index t a * S10000x2.size a ≤ (i a).val ∧ (i a).val < win7_2.index t a * S10000x2.size a + S10000x2.size a := by
  show i ∈ ((View.whole main_v92).slice (win7_2.rect t)).set ↔ _
  rw [View.set_slice_whole, Rect.mem_set_unit]
  exact Iff.rfl

/-- Every row of the output array is in the tile of the point that owns it: row i belongs to point i / 10000. -/
theorem tiles_cover (i : S200000x2.Idx) : ∃ t : Fin cfg7.N, (cfg7.win 2).flush t = true ∧ i ∈ ((cfg7.win 2).blk t).view.set := by
  have hi0 : (i 0).val < 200000 := (i 0).isLt
  have hi1 : (i 1).val < 2 := (i 1).isLt
  have hN : cfg7.N = 20 := N_7
  refine ⟨⟨(i 0).val / 10000, by omega⟩, flush7_2 _, ?_⟩
  rw [in_block]
  obtain ⟨e0, e1, e2, e3, e4, e5⟩ := index_maps ⟨(i 0).val / 10000, by omega⟩
  intro a
  match a with
  | ⟨0, _⟩ =>
    show win7_2.index _ (0 : Fin 2) * 10000 ≤ (i 0).val ∧ (i 0).val < win7_2.index _ (0 : Fin 2) * 10000 + 10000
    rw [e4]; show (i 0).val / 10000 * 10000 ≤ (i 0).val ∧ (i 0).val < (i 0).val / 10000 * 10000 + 10000; omega
  | ⟨1, _⟩ =>
    show win7_2.index _ (1 : Fin 2) * 2 ≤ (i 1).val ∧ (i 1).val < win7_2.index _ (1 : Fin 2) * 2 + 2
    rw [e5]; omega

/-- After the region its output array is the whole normalised array of the arrays it found. -/
theorem array_after (c : Dev nD) : (dat7 V c).arrAt 2 cfg7.N = normalised (V c main_v90) (V c main_v91) :=
  (dat7 V c).arrAt_eq_of_cover 2 (normalised (V c main_v90) (V c main_v91)) (fun t _ => written_back V c t) tiles_cover

end Cert.KernelIdeal.Out7

end
-- ==== Proof.BridgeOut.lean ====
/-
  The last bias and the log-softmax on the two sides. The kernel adds the bias row and normalises each row in its tiles;
  the reference adds the bias spread over the rows and runs log-softmax as host operations: a maximum over the two classes
  folded from −∞ (and taken once more against −∞), the shift by it, the exponentials' sum from 0, its logarithm, the second
  subtraction. Row by row both are the log-softmax of (scores + bias).
-/
import proofs.«133024_j22557168239484_2_alg».proof.Proof.RefStages
import proofs.«133024_j22557168239484_2_alg».proof.Proof.Out7
import Idealize.ShloMosaic.Lib.ValueLayout

set_option maxRecDepth 16384

noncomputable section

namespace Cert.Bridge

open Idealize.ShloMosaic Idealize.ShloMosaic.ValueIdx
open Cert.ReferenceIdeal Cert.ReferenceIdeal.Gen Cert.ReferenceIdeal.ReadP

-- the aggregate is a long composition of host operations on arrays of millions of entries: it is never opened here
attribute [local irreducible] val_main_v102

/-- Row r of the biased scores: the aggregate's row plus the bias. -/
theorem out_row (x0 : (⟨S200000x16, .f32⟩ : BufTy).Contents (Elt Ideal)) (x1 : (⟨S2x6400000, .i32⟩ : BufTy).Contents (Elt Ideal)) (x2 : (⟨S16x8, .f32⟩ : BufTy).Contents (Elt Ideal)) (x3 : (⟨S8, .f32⟩ : BufTy).Contents (Elt Ideal)) (x4 : (⟨S8x16, .f32⟩ : BufTy).Contents (Elt Ideal)) (x5 : (⟨S16, .f32⟩ : BufTy).Contents (Elt Ideal)) (x6 : (⟨S16x8, .f32⟩ : BufTy).Contents (Elt Ideal)) (x7 : (⟨S8, .f32⟩ : BufTy).Contents (Elt Ideal)) (x8 : (⟨S8x2, .f32⟩ : BufTy).Contents (Elt Ideal)) (x9 : (⟨S2, .f32⟩ : BufTy).Contents (Elt Ideal)) (r : Fin 200000) (j : Fin 2) :
    val_main_v105 (F := Ideal) x0 x1 x2 x3 x4 x5 x6 x7 x8 x9 (ix2 r j) = val_main_v102 (F := Ideal) x0 x1 x2 x3 x4 x5 x6 x7 x8 (ix2 r j) + x9 (ix1 j) := by
  rw [val_main_v105_apply, Ideal.addf_def, val_main_v104_apply, val_main_v103_apply]
  exact congrArg (fun z => val_main_v102 (F := Ideal) x0 x1 x2 x3 x4 x5 x6 x7 x8 (ix2 r j) + x9 z) (funext fun a => Fin.ext (by match a with | ⟨0, _⟩ => rfl))

/-- The host's maximum over the two classes of ANY two-column array, at row r: the fold of max from −∞ over the row. -/
theorem host_row_max (X : (⟨S200000x2, .f32⟩ : BufTy).Contents (Elt Ideal)) (r : Fin 200000) :
    Host.reduce (FloatOps.maximumf (F := Ideal) (φ := .f32)) X (constant (F := Ideal) S_ .f32 0xFF800000#32)
        reducesTo_S200000x2_S200000_d1 h_S_ (ix1 r)
      = Finset.fold max (⊥ : EReal) (fun k : Fin 2 => X (ix2 r k)) Finset.univ := by
  refine (Host.reduce_eq_fold_single (FloatOps.maximumf (F := Ideal) (φ := .f32)) X (constant (F := Ideal) S_ .f32 0xFF800000#32)
    reducesTo_S200000x2_S200000_d1 (by decide) h_S_ (ix1 r)).trans ?_
  show Finset.fold (FloatOps.maximumf (F := Ideal) (φ := .f32)) (FloatOps.ofBits (F := Ideal) .f32 0xFF800000#32) _ _ = _
  rw [LogSoftmax2.neg_inf_word]
  exact congrArg (fun f => Finset.fold max (⊥ : EReal) f Finset.univ) (funext fun k =>
    congrArg X (funext fun a => Fin.ext (by match a with | ⟨0, _⟩ => rfl | ⟨1, _⟩ => rfl)))

/-- The reference's row maximum: that fold over the biased scores' row, taken once more against −∞. -/
theorem out_max (x0 : (⟨S200000x16, .f32⟩ : BufTy).Contents (Elt Ideal)) (x1 : (⟨S2x6400000, .i32⟩ : BufTy).Contents (Elt Ideal)) (x2 : (⟨S16x8, .f32⟩ : BufTy).Contents (Elt Ideal)) (x3 : (⟨S8, .f32⟩ : BufTy).Contents (Elt Ideal)) (x4 : (⟨S8x16, .f32⟩ : BufTy).Contents (Elt Ideal)) (x5 : (⟨S16, .f32⟩ : BufTy).Contents (Elt Ideal)) (x6 : (⟨S16x8, .f32⟩ : BufTy).Contents (Elt Ideal)) (x7 : (⟨S8, .f32⟩ : BufTy).Contents (Elt Ideal)) (x8 : (⟨S8x2, .f32⟩ : BufTy).Contents (Elt Ideal)) (x9 : (⟨S2, .f32⟩ : BufTy).Contents (Elt Ideal)) (r : Fin 200000) :
    val_main_call3_v2 (F := Ideal) x0 x1 x2 x3 x4 x5 x6 x7 x8 x9 (ix1 r) = LogSoftmax2.rowMax (fun j => val_main_v105 (F := Ideal) x0 x1 x2 x3 x4 x5 x6 x7 x8 x9 (ix2 r j)) := by
  rw [val_main_call3_v2_apply, Ideal.maximumf_def, val_main_call3_v1_apply, val_main_call3_cst_0_apply, LogSoftmax2.neg_inf_word]
  unfold val_main_call3_v0 val_main_call3_cst
  rw [host_row_max]
  rfl

/-- The shifted row: each entry minus the row's maximum. -/
theorem out_shift (x0 : (⟨S200000x16, .f32⟩ : BufTy).Contents (Elt Ideal)) (x1 : (⟨S2x6400000, .i32⟩ : BufTy).Contents (Elt Ideal)) (x2 : (⟨S16x8, .f32⟩ : BufTy).Contents (Elt Ideal)) (x3 : (⟨S8, .f32⟩ : BufTy).Contents (Elt Ideal)) (x4 : (⟨S8x16, .f32⟩ : BufTy).Contents (Elt Ideal)) (x5 : (⟨S16, .f32⟩ : BufTy).Contents (Elt Ideal)) (x6 : (⟨S16x8, .f32⟩ : BufTy).Contents (Elt Ideal)) (x7 : (⟨S8, .f32⟩ : BufTy).Contents (Elt Ideal)) (x8 : (⟨S8x2, .f32⟩ : BufTy).Contents (Elt Ideal)) (x9 : (⟨S2, .f32⟩ : BufTy).Contents (Elt Ideal)) (r : Fin 200000) (j : Fin 2) :
    val_main_call3_v5 (F := Ideal) x0 x1 x2 x3 x4 x5 x6 x7 x8 x9 (ix2 r j) = val_main_v105 (F := Ideal) x0 x1 x2 x3 x4 x5 x6 x7 x8 x9 (ix2 r j) - LogSoftmax2.rowMax (fun j => val_main_v105 (F := Ideal) x0 x1 x2 x3 x4 x5 x6 x7 x8 x9 (ix2 r j)) := by
  have e : idx_main_call3_v3 (idx_main_call3_v4 (ix2 r j : S200000x2.Idx)) = (ix1 r : S200000.Idx) :=
    funext fun a => Fin.ext (by match a with | ⟨0, _⟩ => rfl)
  rw [val_main_call3_v5_apply, Ideal.subf_def, val_main_call3_v4_apply, val_main_call3_v3_apply]
  exact congrArg (fun z => val_main_v105 (F := Ideal) x0 x1 x2 x3 x4 x5 x6 x7 x8 x9 (ix2 r j) - z)
    ((congrArg (val_main_call3_v2 (F := Ideal) x0 x1 x2 x3 x4 x5 x6 x7 x8 x9) e).trans (out_max x0 x1 x2 x3 x4 x5 x6 x7 x8 x9 r))

/-- The sum of the shifted row's exponentials (the host sum starts from 0). -/
theorem out_sum (x0 : (⟨S200000x16, .f32⟩ : BufTy).Contents (Elt Ideal)) (x1 : (⟨S2x6400000, .i32⟩ : BufTy).Contents (Elt Ideal)) (x2 : (⟨S16x8, .f32⟩ : BufTy).Contents (Elt Ideal)) (x3 : (⟨S8, .f32⟩ : BufTy).Contents (Elt Ideal)) (x4 : (⟨S8x16, .f32⟩ : BufTy).Contents (Elt Ideal)) (x5 : (⟨S16, .f32⟩ : BufTy).Contents (Elt Ideal)) (x6 : (⟨S16x8, .f32⟩ : BufTy).Contents (Elt Ideal)) (x7 : (⟨S8, .f32⟩ : BufTy).Contents (Elt Ideal)) (x8 : (⟨S8x2, .f32⟩ : BufTy).Contents (Elt Ideal)) (x9 : (⟨S2, .f32⟩ : BufTy).Contents (Elt Ideal)) (r : Fin 200000) :
    val_main_call3_v7 (F := Ideal) x0 x1 x2 x3 x4 x5 x6 x7 x8 x9 (ix1 r) = ∑ k : Fin 2, Ideal.exp (val_main_call3_v5 (F := Ideal) x0 x1 x2 x3 x4 x5 x6 x7 x8 x9 (ix2 r k)) := by
  rw [val_main_call3_v7_apply, val_main_call3_cst_1_apply, Ideal.ofBits_def, Ideal.ofBits_zero_f32, zero_add]
  refine Finset.sum_congr rfl fun k _ => ?_
  have e7 : idx_main_call3_v7 (ix1 r : S200000.Idx) k = (ix2 r k : S200000x2.Idx) :=
    funext fun a => Fin.ext (by match a with | ⟨0, _⟩ => rfl | ⟨1, _⟩ => rfl)
  rw [val_main_call3_v6_apply, Ideal.hostUnary_exp_def]
  exact congrArg (fun z => Ideal.exp (val_main_call3_v5 (F := Ideal) x0 x1 x2 x3 x4 x5 x6 x7 x8 x9 z)) e7

/-- Its logarithm, spread back over the two classes. -/
theorem out_log (x0 : (⟨S200000x16, .f32⟩ : BufTy).Contents (Elt Ideal)) (x1 : (⟨S2x6400000, .i32⟩ : BufTy).Contents (Elt Ideal)) (x2 : (⟨S16x8, .f32⟩ : BufTy).Contents (Elt Ideal)) (x3 : (⟨S8, .f32⟩ : BufTy).Contents (Elt Ideal)) (x4 : (⟨S8x16, .f32⟩ : BufTy).Contents (Elt Ideal)) (x5 : (⟨S16, .f32⟩ : BufTy).Contents (Elt Ideal)) (x6 : (⟨S16x8, .f32⟩ : BufTy).Contents (Elt Ideal)) (x7 : (⟨S8, .f32⟩ : BufTy).Contents (Elt Ideal)) (x8 : (⟨S8x2, .f32⟩ : BufTy).Contents (Elt Ideal)) (x9 : (⟨S2, .f32⟩ : BufTy).Contents (Elt Ideal)) (r : Fin 200000) (q : Fin 2) :
    val_main_call3_v10 (F := Ideal) x0 x1 x2 x3 x4 x5 x6 x7 x8 x9 (ix2 r q) = Ideal.log (∑ k : Fin 2, Ideal.exp (val_main_call3_v5 (F := Ideal) x0 x1 x2 x3 x4 x5 x6 x7 x8 x9 (ix2 r k))) := by
  have e10 : idx_main_call3_v8 (idx_main_call3_v10 (ix2 r q : S200000x2.Idx)) = (ix1 r : S200000.Idx) :=
    funext fun a => Fin.ext (by match a with | ⟨0, _⟩ => rfl)
  rw [val_main_call3_v10_apply, val_main_call3_v9_apply, Ideal.hostUnary_log_def, val_main_call3_v8_apply]
  exact (congrArg (fun z => Ideal.log (val_main_call3_v7 (F := Ideal) x0 x1 x2 x3 x4 x5 x6 x7 x8 x9 z)) e10).trans (congrArg Ideal.log (out_sum x0 x1 x2 x3 x4 x5 x6 x7 x8 x9 r))

/-- One entry of the reference's result: the log-softmax of the biased scores' row. -/
theorem out_entry (x0 : (⟨S200000x16, .f32⟩ : BufTy).Contents (Elt Ideal)) (x1 : (⟨S2x6400000, .i32⟩ : BufTy).Contents (Elt Ideal)) (x2 : (⟨S16x8, .f32⟩ : BufTy).Contents (Elt Ideal)) (x3 : (⟨S8, .f32⟩ : BufTy).Contents (Elt Ideal)) (x4 : (⟨S8x16, .f32⟩ : BufTy).Contents (Elt Ideal)) (x5 : (⟨S16, .f32⟩ : BufTy).Contents (Elt Ideal)) (x6 : (⟨S16x8, .f32⟩ : BufTy).Contents (Elt Ideal)) (x7 : (⟨S8, .f32⟩ : BufTy).Contents (Elt Ideal)) (x8 : (⟨S8x2, .f32⟩ : BufTy).Contents (Elt Ideal)) (x9 : (⟨S2, .f32⟩ : BufTy).Contents (Elt Ideal)) (r : Fin 200000) (q : Fin 2) :
    LogSoftmax2.logSoftmax (fun j => val_main_v105 (F := Ideal) x0 x1 x2 x3 x4 x5 x6 x7 x8 x9 (ix2 r j)) q = val_main_v106 (F := Ideal) x0 x1 x2 x3 x4 x5 x6 x7 x8 x9 (ix2 r q) := by
  have hsum : (∑ k : Fin 2, Ideal.exp (val_main_call3_v5 (F := Ideal) x0 x1 x2 x3 x4 x5 x6 x7 x8 x9 (ix2 r k)))
      = ∑ k : Fin 2, Ideal.exp (val_main_v105 (F := Ideal) x0 x1 x2 x3 x4 x5 x6 x7 x8 x9 (ix2 r k) - LogSoftmax2.rowMax (fun j => val_main_v105 (F := Ideal) x0 x1 x2 x3 x4 x5 x6 x7 x8 x9 (ix2 r j))) :=
    Finset.sum_congr rfl fun k _ => congrArg Ideal.exp (out_shift x0 x1 x2 x3 x4 x5 x6 x7 x8 x9 r k)
  rw [val_main_v106_apply, Ideal.subf_def, out_log x0 x1 x2 x3 x4 x5 x6 x7 x8 x9 r q, out_shift x0 x1 x2 x3 x4 x5 x6 x7 x8 x9 r q, hsum]
  rfl

/-- The output: the log-softmax of (aggregate + bias), as the row tiles left it, is the reference's stage. -/
theorem out (x0 : (⟨S200000x16, .f32⟩ : BufTy).Contents (Elt Ideal)) (x1 : (⟨S2x6400000, .i32⟩ : BufTy).Contents (Elt Ideal)) (x2 : (⟨S16x8, .f32⟩ : BufTy).Contents (Elt Ideal)) (x3 : (⟨S8, .f32⟩ : BufTy).Contents (Elt Ideal)) (x4 : (⟨S8x16, .f32⟩ : BufTy).Contents (Elt Ideal)) (x5 : (⟨S16, .f32⟩ : BufTy).Contents (Elt Ideal)) (x6 : (⟨S16x8, .f32⟩ : BufTy).Contents (Elt Ideal)) (x7 : (⟨S8, .f32⟩ : BufTy).Contents (Elt Ideal)) (x8 : (⟨S8x2, .f32⟩ : BufTy).Contents (Elt Ideal)) (x9 : (⟨S2, .f32⟩ : BufTy).Contents (Elt Ideal)) :
    Cert.KernelIdeal.Out7.normalised (val_main_v102 (F := Ideal) x0 x1 x2 x3 x4 x5 x6 x7 x8) (shapeCast Cert.KernelIdeal.S1x2 x9 Cert.KernelIdeal.Gen.shapeCasts_S2_S1x2)
      = val_main_v106 (F := Ideal) x0 x1 x2 x3 x4 x5 x6 x7 x8 x9 := by
  funext i
  obtain ⟨r, q, rfl⟩ : ∃ (r : Fin 200000) (q : Fin 2), i = ix2 r q := ⟨i 0, i 1, eq_ix2 i⟩
  have hrowK : (fun j : Fin 2 => val_main_v102 (F := Ideal) x0 x1 x2 x3 x4 x5 x6 x7 x8 (ix2 r j)
      + shapeCast Cert.KernelIdeal.S1x2 x9 Cert.KernelIdeal.Gen.shapeCasts_S2_S1x2 (ix2 (0 : Fin 1) j))
      = fun j => val_main_v105 (F := Ideal) x0 x1 x2 x3 x4 x5 x6 x7 x8 x9 (ix2 r j) := funext fun j =>
    (congrArg (fun z => val_main_v102 (F := Ideal) x0 x1 x2 x3 x4 x5 x6 x7 x8 (ix2 r j) + z) (shapeCast_a_1a_apply x9 Cert.KernelIdeal.Gen.shapeCasts_S2_S1x2 0 j)).trans (out_row x0 x1 x2 x3 x4 x5 x6 x7 x8 x9 r j).symm
  exact (congrArg (fun f => LogSoftmax2.logSoftmax f q) hrowK).trans (out_entry x0 x1 x2 x3 x4 x5 x6 x7 x8 x9 r q)

end Cert.Bridge

end
-- ==== Proof.Through.lean ====
/-
  What the idealized kernel's chain of boundary contents holds, link by link, as functions of the ten argument arrays. The
  first stretch computes the source list, the destination list and the edge normalisation from the edge index; each later
  stretch gathers the dense layer's rows by source, scales them, and sums them by destination; each region leaves its array at
  the whole-array function read off its tiles. At every link the kernel's array is the same function of the arguments as the
  reference's stage of the same name in the mathematics: the product h·W, the aggregate, mish of (aggregate + bias), and at
  the end the log-softmax of (aggregate + bias). The host operations between regions are the same operations on both sides,
  applied to values already known equal, so those links close by unfolding the stages' definitions.
-/
import proofs.«133024_j22557168239484_2_alg».proof.Proof.RefStages
import proofs.«133024_j22557168239484_2_alg».proof.Proof.Kept
import proofs.«133024_j22557168239484_2_alg».proof.Proof.BridgeDense
import proofs.«133024_j22557168239484_2_alg».proof.Proof.BridgeAct
import proofs.«133024_j22557168239484_2_alg».proof.Proof.BridgeOut
import Idealize.ShloMosaic.Lib.StableHlo.Run

set_option maxRecDepth 16384

noncomputable section

namespace Cert.KernelIdeal.Through

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

-- short names for the ten argument arrays
set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)

/-! ## The first stretch: the index lists and the edge normalisation -/

/-- The source list: the edge index's first row, then every node once (the self loops). -/
theorem src_at1 : W1 m ρ c (Proc.devRef .tc main_v3) = Cert.ReferenceIdeal.ReadP.val_main_v3 (F := Ideal) a1 := by
  show StableHlo.after hostOps0 (W0 m ρ c) (Proc.devRef .tc main_v3) = _
  after_results_simp
  rfl

/-- The destination list: the edge index's second row, then every node once. -/
theorem dst_at1 : W1 m ρ c (Proc.devRef .tc main_v6) = Cert.ReferenceIdeal.ReadP.val_main_v6 (F := Ideal) a1 := by
  show StableHlo.after hostOps0 (W0 m ρ c) (Proc.devRef .tc main_v6) = _
  after_results_simp
  rfl

/-- The edge normalisation: the inverse square roots of the two endpoints' degrees, multiplied. -/
theorem norm_at1 : W1 m ρ c (Proc.devRef .tc main_v28) = Cert.ReferenceIdeal.ReadP.val_main_v28 (F := Ideal) a1 := by
  show StableHlo.after hostOps0 (W0 m ρ c) (Proc.devRef .tc main_v28) = _
  after_results_simp
  rfl

/-! ## Layer 1 -/

theorem dense1 : W2 m ρ c (Proc.devRef .tc main_v29) = Cert.ReferenceIdeal.ReadP.val_main_v29 (F := Ideal) a0 a2 :=
  ((W2_arr m ρ c 2).trans (Dense0.array_after (V1 m ρ) c)).trans
    ((congrArg₂ Dense0.product (Kept.arg0_at1 m ρ c) (Kept.arg2_at1 m ρ c)).trans (Cert.Bridge.dense1 a0 a1 a2))

theorem aggregate1 : W3 m ρ c (Proc.devRef .tc main_v42) = Cert.ReferenceIdeal.ReadP.val_main_v42 (F := Ideal) a0 a1 a2 := by
  show StableHlo.after hostOps1 (W2 m ρ c) (Proc.devRef .tc main_v42) = _
  after_results_simp
  rw [dense1 m ρ c, Kept.main_v3_at2 m ρ c, Kept.main_v6_at2 m ρ c, Kept.main_v28_at2 m ρ c, src_at1 m ρ c, dst_at1 m ρ c, norm_at1 m ρ c]
  rfl

theorem bias1 : W3 m ρ c (Proc.devRef .tc main_v43) = shapeCast S1x8 a3 shapeCasts_S8_S1x8 := by
  show StableHlo.after hostOps1 (W2 m ρ c) (Proc.devRef .tc main_v43) = _
  after_results_simp
  rw [Kept.arg3_at2 m ρ c]
  rfl

theorem hidden1 : W4 m ρ c (Proc.devRef .tc main_v44) = Cert.ReferenceIdeal.ReadP.val_main_v48 (F := Ideal) a0 a1 a2 a3 :=
  ((W4_arr m ρ c 2).trans (Act1.array_after (V3 m ρ) c)).trans
    ((congrArg₂ Act1.activated (aggregate1 m ρ c) (bias1 m ρ c)).trans (Cert.Bridge.act1 a0 a1 a2 a3))

/-! ## Layer 2 -/

theorem dense2 : W5 m ρ c (Proc.devRef .tc main_v45) = Cert.ReferenceIdeal.ReadP.val_main_v49 (F := Ideal) a0 a1 a2 a3 a4 :=
  ((W5_arr m ρ c 2).trans (Dense2.array_after (V4 m ρ) c)).trans
    ((congrArg₂ Dense2.product (hidden1 m ρ c) (Kept.arg4_at4 m ρ c)).trans (Cert.Bridge.dense2 a0 a1 a2 a3 a4))

theorem aggregate2 : W6 m ρ c (Proc.devRef .tc main_v58) = Cert.ReferenceIdeal.ReadP.val_main_v62 (F := Ideal) a0 a1 a2 a3 a4 := by
  show StableHlo.after hostOps3 (W5 m ρ c) (Proc.devRef .tc main_v58) = _
  after_results_simp
  rw [dense2 m ρ c, Kept.main_v3_at5 m ρ c, Kept.main_v6_at5 m ρ c, Kept.main_v28_at5 m ρ c, src_at1 m ρ c, dst_at1 m ρ c, norm_at1 m ρ c]
  rfl

theorem bias2 : W6 m ρ c (Proc.devRef .tc main_v59) = shapeCast S1x16 a5 shapeCasts_S16_S1x16 := by
  show StableHlo.after hostOps3 (W5 m ρ c) (Proc.devRef .tc main_v59) = _
  after_results_simp
  rw [Kept.arg5_at5 m ρ c]
  rfl

theorem hidden2 : W7 m ρ c (Proc.devRef .tc main_v60) = Cert.ReferenceIdeal.ReadP.val_main_v68 (F := Ideal) a0 a1 a2 a3 a4 a5 :=
  ((W7_arr m ρ c 2).trans (Act3.array_after (V6 m ρ) c)).trans
    ((congrArg₂ Act3.activated (aggregate2 m ρ c) (bias2 m ρ c)).trans (Cert.Bridge.act2 a0 a1 a2 a3 a4 a5))

/-! ## Layer 3 -/

theorem dense3 : W8 m ρ c (Proc.devRef .tc main_v61) = Cert.ReferenceIdeal.ReadP.val_main_v69 (F := Ideal) a0 a1 a2 a3 a4 a5 a6 :=
  ((W8_arr m ρ c 2).trans (Dense4.array_after (V7 m ρ) c)).trans
    ((congrArg₂ Dense4.product (hidden2 m ρ c) (Kept.arg6_at7 m ρ c)).trans (Cert.Bridge.dense3 a0 a1 a2 a3 a4 a5 a6))

theorem aggregate3 : W9 m ρ c (Proc.devRef .tc main_v74) = Cert.ReferenceIdeal.ReadP.val_main_v82 (F := Ideal) a0 a1 a2 a3 a4 a5 a6 := by
  show StableHlo.after hostOps5 (W8 m ρ c) (Proc.devRef .tc main_v74) = _
  after_results_simp
  rw [dense3 m ρ c, Kept.main_v3_at8 m ρ c, Kept.main_v6_at8 m ρ c, Kept.main_v28_at8 m ρ c, src_at1 m ρ c, dst_at1 m ρ c, norm_at1 m ρ c]
  rfl

theorem bias3 : W9 m ρ c (Proc.devRef .tc main_v75) = shapeCast S1x8 a7 shapeCasts_S8_S1x8 := by
  show StableHlo.after hostOps5 (W8 m ρ c) (Proc.devRef .tc main_v75) = _
  after_results_simp
  rw [Kept.arg7_at8 m ρ c]
  rfl

theorem hidden3 : W10 m ρ c (Proc.devRef .tc main_v76) = Cert.ReferenceIdeal.ReadP.val_main_v88 (F := Ideal) a0 a1 a2 a3 a4 a5 a6 a7 :=
  ((W10_arr m ρ c 2).trans (Act5.array_after (V9 m ρ) c)).trans
    ((congrArg₂ Act5.activated (aggregate3 m ρ c) (bias3 m ρ c)).trans (Cert.Bridge.act3 a0 a1 a2 a3 a4 a5 a6 a7))

/-! ## Layer 4 and the output -/

theorem dense4 : W11 m ρ c (Proc.devRef .tc main_v77) = Cert.ReferenceIdeal.ReadP.val_main_v89 (F := Ideal) a0 a1 a2 a3 a4 a5 a6 a7 a8 :=
  ((W11_arr m ρ c 2).trans (Dense6.array_after (V10 m ρ) c)).trans
    ((congrArg₂ Dense6.product (hidden3 m ρ c) (Kept.arg8_at10 m ρ c)).trans (Cert.Bridge.dense4 a0 a1 a2 a3 a4 a5 a6 a7 a8))

theorem aggregate4 : W12 m ρ c (Proc.devRef .tc main_v90) = Cert.ReferenceIdeal.ReadP.val_main_v102 (F := Ideal) a0 a1 a2 a3 a4 a5 a6 a7 a8 := by
  show StableHlo.after hostOps7 (W11 m ρ c) (Proc.devRef .tc main_v90) = _
  after_results_simp
  rw [dense4 m ρ c, Kept.main_v3_at11 m ρ c, Kept.main_v6_at11 m ρ c, Kept.main_v28_at11 m ρ c, src_at1 m ρ c, dst_at1 m ρ c, norm_at1 m ρ c]
  rfl

theorem bias4 : W12 m ρ c (Proc.devRef .tc main_v91) = shapeCast S1x2 a9 shapeCasts_S2_S1x2 := by
  show StableHlo.after hostOps7 (W11 m ρ c) (Proc.devRef .tc main_v91) = _
  after_results_simp
  rw [Kept.arg9_at11 m ρ c]
  rfl

/-- The result array after the last region: the reference's result stage of the same ten arguments. -/
theorem result : W13 m ρ c (Proc.devRef .tc main_v92) = Cert.ReferenceIdeal.ReadP.val_main_v106 (F := Ideal) a0 a1 a2 a3 a4 a5 a6 a7 a8 a9 :=
  ((W13_arr m ρ c 2).trans (Out7.array_after (V12 m ρ) c)).trans
    ((congrArg₂ Out7.normalised (aggregate4 m ρ c) (bias4 m ρ c)).trans (Cert.Bridge.out a0 a1 a2 a3 a4 a5 a6 a7 a8 a9))

end Cert.KernelIdeal.Through

end
-- ==== Proof.RefRun.lean ====
/-
  The reference program's run, read segment by segment. Its @main is 179 host operations in a line. Read as one composed
  term the result repeats every shared value at each use — the source and destination lists and the edge normalisation
  enter every layer, and mish reads its input seven times — so the run is cut at the layer boundaries into six segments,
  and only the few values a later segment reads are carried across a cut: the index lists, the edge normalisation, the
  previous layer's output and the arguments not yet used. Within a segment each buffer is the stage of the same name in
  the copy of the stage definitions beside this file, by unfolding; across the cuts the segments compose (the contents
  after a concatenation of lines are the contents after the second line from the contents after the first).
-/
import proofs.«133024_j22557168239484_2_alg».proof.Proof.RefOps
import proofs.«133024_j22557168239484_2_alg».proof.Proof.RefStages

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other are the contents after the second from those after the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 1 … 36: the self loops, the source and destination lists, the degrees and the edge normalisation. -/
abbrev seg0 : List (HloOp τ sig (Elt F)) :=
  [ nullary main_v0 (iotaInDim S200000 32 0),
    unary main_arg1 main_v1 ((extractStridedSlice S1x6400000 ![0, 0] · slices_S2x6400000_S1x6400000_0_0) : (⟨S2x6400000, .i32⟩ : BufTy).Contents (Elt F) → (⟨S1x6400000, .i32⟩ : BufTy).Contents (Elt F)),
    reshape main_v1 main_v2 rfl shapeCasts_S1x6400000_S6400000,
    binary main_v2 main_v0 main_v3 ((fun a b => concatenate S6600000 0 [⟨S6400000, a⟩, ⟨S200000, b⟩] concatenates_S6400000_S200000_S6600000_d0) : (⟨S6400000, .i32⟩ : BufTy).Contents (Elt F) → (⟨S200000, .i32⟩ : BufTy).Contents (Elt F) → (⟨S6600000, .i32⟩ : BufTy).Contents (Elt F)),
    unary main_arg1 main_v4 ((extractStridedSlice S1x6400000 ![1, 0] · slices_S2x6400000_S1x6400000_1_0) : (⟨S2x6400000, .i32⟩ : BufTy).Contents (Elt F) → (⟨S1x6400000, .i32⟩ : BufTy).Contents (Elt F)),
    reshape main_v4 main_v5 rfl shapeCasts_S1x6400000_S6400000,
    binary main_v5 main_v0 main_v6 ((fun a b => concatenate S6600000 0 [⟨S6400000, a⟩, ⟨S200000, b⟩] concatenates_S6400000_S200000_S6600000_d0) : (⟨S6400000, .i32⟩ : BufTy).Contents (Elt F) → (⟨S200000, .i32⟩ : BufTy).Contents (Elt F) → (⟨S6600000, .i32⟩ : BufTy).Contents (Elt F)),
    nullary main_cst (constant S_ .f32 0x3F800000#32),
    unary main_cst main_v7 (broadcastInDim S6600000 ![] bcast_S_S6600000 : (⟨S_, .f32⟩ : BufTy).Contents (Elt F) → (⟨S6600000, .f32⟩ : BufTy).Contents (Elt F)),
    nullary main_cst_0 (constant S_ .f32 0x00000000#32),
    unary main_cst_0 main_v8 (broadcastInDim S200000 ![] bcast_S_S200000 : (⟨S_, .f32⟩ : BufTy).Contents (Elt F) → (⟨S200000, .f32⟩ : BufTy).Contents (Elt F)),
    unary main_v6 main_v9 (broadcastInDim S6600000x1 ![0] bcast_S6600000_S6600000x1_0 : (⟨S6600000, .i32⟩ : BufTy).Contents (Elt F) → (⟨S6600000x1, .i32⟩ : BufTy).Contents (Elt F)),
    ternary main_v8 main_v9 main_v7 main_v10 ((fun x i u => Host.scatterAdd scatter_S200000_S6600000x1_S6600000_n_0_0_1 x i u) : (⟨S200000, .f32⟩ : BufTy).Contents (Elt F) → (⟨S6600000x1, .i32⟩ : BufTy).Contents (Elt F) → (⟨S6600000, .f32⟩ : BufTy).Contents (Elt F) → (⟨S200000, .f32⟩ : BufTy).Contents (Elt F)),
    nullary main_cst_1 (constant S_ .f32 0x3F800000#32),
    unary main_cst_1 main_v11 (broadcastInDim S200000 ![] bcast_S_S200000 : (⟨S_, .f32⟩ : BufTy).Contents (Elt F) → (⟨S200000, .f32⟩ : BufTy).Contents (Elt F)),
    binary main_v10 main_v11 main_v12 (maximumf : (⟨S200000, .f32⟩ : BufTy).Contents (Elt F) → (⟨S200000, .f32⟩ : BufTy).Contents (Elt F) → (⟨S200000, .f32⟩ : BufTy).Contents (Elt F)),
    unary main_v12 main_v13 (Host.rsqrt : (⟨S200000, .f32⟩ : BufTy).Contents (Elt F) → (⟨S200000, .f32⟩ : BufTy).Contents (Elt F)),
    nullary main_c (constantI S_ 32 0#32),
    unary main_c main_v14 (broadcastInDim S6600000 ![] bcast_S_S6600000 : (⟨S_, .i32⟩ : BufTy).Contents (Elt F) → (⟨S6600000, .i32⟩ : BufTy).Contents (Elt F)),
    binary main_v3 main_v14 main_v15 (cmpi .slt : (⟨S6600000, .i32⟩ : BufTy).Contents (Elt F) → (⟨S6600000, .i32⟩ : BufTy).Contents (Elt F) → (⟨S6600000, .i1⟩ : BufTy).Contents (Elt F)),
    nullary main_c_2 (constantI S_ 32 200000#32),
    unary main_c_2 main_v16 (broadcastInDim S6600000 ![] bcast_S_S6600000 : (⟨S_, .i32⟩ : BufTy).Contents (Elt F) → (⟨S6600000, .i32⟩ : BufTy).Contents (Elt F)),
    binary main_v3 main_v16 main_v17 (addi : (⟨S6600000, .i32⟩ : BufTy).Contents (Elt F) → (⟨S6600000, .i32⟩ : BufTy).Contents (Elt F) → (⟨S6600000, .i32⟩ : BufTy).Contents (Elt F)),
    ternary main_v15 main_v17 main_v3 main_v18 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v18 main_v19 (broadcastInDim S6600000x1 ![0] bcast_S6600000_S6600000x1_0 : (⟨S6600000, .i32⟩ : BufTy).Contents (Elt F) → (⟨S6600000x1, .i32⟩ : BufTy).Contents (Elt F)),
    binary main_v13 main_v19 main_v20 ((fun x i => Host.gather gather_S200000_S6600000x1_S6600000_n_0_n_n_0_1_1 x i) : (⟨S200000, .f32⟩ : BufTy).Contents (Elt F) → (⟨S6600000x1, .i32⟩ : BufTy).Contents (Elt F) → (⟨S6600000, .f32⟩ : BufTy).Contents (Elt F)),
    nullary main_c_3 (constantI S_ 32 0#32),
    unary main_c_3 main_v21 (broadcastInDim S6600000 ![] bcast_S_S6600000 : (⟨S_, .i32⟩ : BufTy).Contents (Elt F) → (⟨S6600000, .i32⟩ : BufTy).Contents (Elt F)),
    binary main_v6 main_v21 main_v22 (cmpi .slt : (⟨S6600000, .i32⟩ : BufTy).Contents (Elt F) → (⟨S6600000, .i32⟩ : BufTy).Contents (Elt F) → (⟨S6600000, .i1⟩ : BufTy).Contents (Elt F)),
    nullary main_c_4 (constantI S_ 32 200000#32),
    unary main_c_4 main_v23 (broadcastInDim S6600000 ![] bcast_S_S6600000 : (⟨S_, .i32⟩ : BufTy).Contents (Elt F) → (⟨S6600000, .i32⟩ : BufTy).Contents (Elt F)),
    binary main_v6 main_v23 main_v24 (addi : (⟨S6600000, .i32⟩ : BufTy).Contents (Elt F) → (⟨S6600000, .i32⟩ : BufTy).Contents (Elt F) → (⟨S6600000, .i32⟩ : BufTy).Contents (Elt F)),
    ternary main_v22 main_v24 main_v6 main_v25 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v25 main_v26 (broadcastInDim S6600000x1 ![0] bcast_S6600000_S6600000x1_0 : (⟨S6600000, .i32⟩ : BufTy).Contents (Elt F) → (⟨S6600000x1, .i32⟩ : BufTy).Contents (Elt F)),
    binary main_v13 main_v26 main_v27 ((fun x i => Host.gather gather_S200000_S6600000x1_S6600000_n_0_n_n_0_1_1 x i) : (⟨S200000, .f32⟩ : BufTy).Contents (Elt F) → (⟨S6600000x1, .i32⟩ : BufTy).Contents (Elt F) → (⟨S6600000, .f32⟩ : BufTy).Contents (Elt F)),
    binary main_v20 main_v27 main_v28 (mulf : (⟨S6600000, .f32⟩ : BufTy).Contents (Elt F) → (⟨S6600000, .f32⟩ : BufTy).Contents (Elt F) → (⟨S6600000, .f32⟩ : BufTy).Contents (Elt F)) ]

/-- Operations 37 … 72: layer 1 — product, gather, scale, scatter-add, bias, mish. -/
abbrev seg1 : List (HloOp τ sig (Elt F)) :=
  [ binary main_arg0 main_arg2 main_v29 ((fun l r => Host.dotGeneral dot_S200000x16_S16x8_S200000x8_1_0_0_1_n_n none l r) : (⟨S200000x16, .f32⟩ : BufTy).Contents (Elt F) → (⟨S16x8, .f32⟩ : BufTy).Contents (Elt F) → (⟨S200000x8, .f32⟩ : BufTy).Contents (Elt F)),
    nullary main_c_5 (constantI S_ 32 0#32),
    unary main_c_5 main_v30 (broadcastInDim S6600000 ![] bcast_S_S6600000 : (⟨S_, .i32⟩ : BufTy).Contents (Elt F) → (⟨S6600000, .i32⟩ : BufTy).Contents (Elt F)),
    binary main_v3 main_v30 main_v31 (cmpi .slt : (⟨S6600000, .i32⟩ : BufTy).Contents (Elt F) → (⟨S6600000, .i32⟩ : BufTy).Contents (Elt F) → (⟨S6600000, .i1⟩ : BufTy).Contents (Elt F)),
    nullary main_c_6 (constantI S_ 32 200000#32),
    unary main_c_6 main_v32 (broadcastInDim S6600000 ![] bcast_S_S6600000 : (⟨S_, .i32⟩ : BufTy).Contents (Elt F) → (⟨S6600000, .i32⟩ : BufTy).Contents (Elt F)),
    binary main_v3 main_v32 main_v33 (addi : (⟨S6600000, .i32⟩ : BufTy).Contents (Elt F) → (⟨S6600000, .i32⟩ : BufTy).Contents (Elt F) → (⟨S6600000, .i32⟩ : BufTy).Contents (Elt F)),
    ternary main_v31 main_v33 main_v3 main_v34 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v34 main_v35 (broadcastInDim S6600000x1 ![0] bcast_S6600000_S6600000x1_0 : (⟨S6600000, .i32⟩ : BufTy).Contents (Elt F) → (⟨S6600000x1, .i32⟩ : BufTy).Contents (Elt F)),
    binary main_v29 main_v35 main_v36 ((fun x i => Host.gather gather_S200000x8_S6600000x1_S6600000x8_1_0_n_n_0_1_18 x i) : (⟨S200000x8, .f32⟩ : BufTy).Contents (Elt F) → (⟨S6600000x1, .i32⟩ : BufTy).Contents (Elt F) → (⟨S6600000x8, .f32⟩ : BufTy).Contents (Elt F)),
    unary main_v28 main_v37 (broadcastInDim S6600000x1 ![0] bcast_S6600000_S6600000x1_0 : (⟨S6600000, .f32⟩ : BufTy).Contents (Elt F) → (⟨S6600000x1, .f32⟩ : BufTy).Contents (Elt F)),
    unary main_v37 main_v38 (broadcastInDim S6600000x8 ![0, 1] bcast_S6600000x1_S6600000x8_0_1 : (⟨S6600000x1, .f32⟩ : BufTy).Contents (Elt F) → (⟨S6600000x8, .f32⟩ : BufTy).Contents (Elt F)),
    binary main_v36 main_v38 main_v39 (mulf : (⟨S6600000x8, .f32⟩ : BufTy).Contents (Elt F) → (⟨S6600000x8, .f32⟩ : BufTy).Contents (Elt F) → (⟨S6600000x8, .f32⟩ : BufTy).Contents (Elt F)),
    nullary main_cst_7 (constant S_ .f32 0x00000000#32),
    unary main_cst_7 main_v40 (broadcastInDim S200000x8 ![] bcast_S_S200000x8 : (⟨S_, .f32⟩ : BufTy).Contents (Elt F) → (⟨S200000x8, .f32⟩ : BufTy).Contents (Elt F)),
    unary main_v6 main_v41 (broadcastInDim S6600000x1 ![0] bcast_S6600000_S6600000x1_0 : (⟨S6600000, .i32⟩ : BufTy).Contents (Elt F) → (⟨S6600000x1, .i32⟩ : BufTy).Contents (Elt F)),
    ternary main_v40 main_v41 main_v39 main_v42 ((fun x i u => Host.scatterAdd scatter_S200000x8_S6600000x1_S6600000x8_1_0_0_1 x i u) : (⟨S200000x8, .f32⟩ : BufTy).Contents (Elt F) → (⟨S6600000x1, .i32⟩ : BufTy).Contents (Elt F) → (⟨S6600000x8, .f32⟩ : BufTy).Contents (Elt F) → (⟨S200000x8, .f32⟩ : BufTy).Contents (Elt F)),
    unary main_arg3 main_v43 (broadcastInDim S1x8 ![1] bcast_S8_S1x8_1 : (⟨S8, .f32⟩ : BufTy).Contents (Elt F) → (⟨S1x8, .f32⟩ : BufTy).Contents (Elt F)),
    unary main_v43 main_v44 (broadcastInDim S200000x8 ![0, 1] bcast_S1x8_S200000x8_0_1 : (⟨S1x8, .f32⟩ : BufTy).Contents (Elt F) → (⟨S200000x8, .f32⟩ : BufTy).Contents (Elt F)),
    binary main_v42 main_v44 main_v45 (addf : (⟨S200000x8, .f32⟩ : BufTy).Contents (Elt F) → (⟨S200000x8, .f32⟩ : BufTy).Contents (Elt F) → (⟨S200000x8, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S200000x8, .f32⟩) main_call0_v0) (broadcastInDim S200000x8 ![] bcast_S_S200000x8),
    TRef.binary (TRef.of (T := ⟨S200000x8, .f32⟩) main_v45) (TRef.of (T := ⟨S200000x8, .f32⟩) main_call0_v0) (TRef.of (T := ⟨S200000x8, .f32⟩) main_call0_v1) maximumf,
    TRef.unary (TRef.of (T := ⟨S_, .f32⟩) main_call0_cst) (TRef.of (T := ⟨S200000x8, .f32⟩) main_call0_v2) (broadcastInDim S200000x8 ![] bcast_S_S200000x8),
    TRef.binary (TRef.of (T := ⟨S200000x8, .f32⟩) main_v45) (TRef.of (T := ⟨S200000x8, .f32⟩) main_call0_v2) (TRef.of (T := ⟨S200000x8, .f32⟩) main_call0_v3) subf,
    TRef.binary (TRef.of (T := ⟨S200000x8, .f32⟩) main_call0_v3) (TRef.of (T := ⟨S200000x8, .f32⟩) main_call0_v3) (TRef.of (T := ⟨S200000x8, .i1⟩) main_call0_v4) (cmpf .une),
    TRef.unary (TRef.of (T := ⟨S_, .f32⟩) main_call0_cst) (TRef.of (T := ⟨S200000x8, .f32⟩) main_call0_v5) (broadcastInDim S200000x8 ![] bcast_S_S200000x8),
    TRef.binary (TRef.of (T := ⟨S200000x8, .f32⟩) main_v45) (TRef.of (T := ⟨S200000x8, .f32⟩) main_call0_v5) (TRef.of (T := ⟨S200000x8, .f32⟩) main_call0_v6) addf,
    TRef.unary (TRef.of (T := ⟨S200000x8, .f32⟩) main_call0_v3) (TRef.of (T := ⟨S200000x8, .f32⟩) main_call0_v7) Host.absf,
    TRef.unary (TRef.of (T := ⟨S200000x8, .f32⟩) main_call0_v7) (TRef.of (T := ⟨S200000x8, .f32⟩) main_call0_v8) Host.negf,
    TRef.unary (TRef.of (T := ⟨S200000x8, .f32⟩) main_call0_v8) (TRef.of (T := ⟨S200000x8, .f32⟩) main_call0_v9) Host.exp,
    TRef.unary (TRef.of (T := ⟨S200000x8, .f32⟩) main_call0_v9) (TRef.of (T := ⟨S200000x8, .f32⟩) main_call0_v10) Host.log1p,
    TRef.binary (TRef.of (T := ⟨S200000x8, .f32⟩) main_call0_v1) (TRef.of (T := ⟨S200000x8, .f32⟩) main_call0_v10) (TRef.of (T := ⟨S200000x8, .f32⟩) main_call0_v11) addf,
    TRef.ternary (TRef.of (T := ⟨S200000x8, .i1⟩) main_call0_v4) (TRef.of (T := ⟨S200000x8, .f32⟩) main_call0_v6) (TRef.of (T := ⟨S200000x8, .f32⟩) main_call0_v11) (TRef.of (T := ⟨S200000x8, .f32⟩) main_v46) select,
    unary main_v46 main_v47 (Host.tanh : (⟨S200000x8, .f32⟩ : BufTy).Contents (Elt F) → (⟨S200000x8, .f32⟩ : BufTy).Contents (Elt F)),
    binary main_v45 main_v47 main_v48 (mulf : (⟨S200000x8, .f32⟩ : BufTy).Contents (Elt F) → (⟨S200000x8, .f32⟩ : BufTy).Contents (Elt F) → (⟨S200000x8, .f32⟩ : BufTy).Contents (Elt F)) ]

/-- Operations 73 … 108: layer 2. -/
abbrev seg2 : List (HloOp τ sig (Elt F)) :=
  [ binary main_v48 main_arg4 main_v49 ((fun l r => Host.dotGeneral dot_S200000x8_S8x16_S200000x16_1_0_0_1_n_n none l r) : (⟨S200000x8, .f32⟩ : BufTy).Contents (Elt F) → (⟨S8x16, .f32⟩ : BufTy).Contents (Elt F) → (⟨S200000x16, .f32⟩ : BufTy).Contents (Elt F)),
    nullary main_c_8 (constantI S_ 32 0#32),
    unary main_c_8 main_v50 (broadcastInDim S6600000 ![] bcast_S_S6600000 : (⟨S_, .i32⟩ : BufTy).Contents (Elt F) → (⟨S6600000, .i32⟩ : BufTy).Contents (Elt F)),
    binary main_v3 main_v50 main_v51 (cmpi .slt : (⟨S6600000, .i32⟩ : BufTy).Contents (Elt F) → (⟨S6600000, .i32⟩ : BufTy).Contents (Elt F) → (⟨S6600000, .i1⟩ : BufTy).Contents (Elt F)),
    nullary main_c_9 (constantI S_ 32 200000#32),
    unary main_c_9 main_v52 (broadcastInDim S6600000 ![] bcast_S_S6600000 : (⟨S_, .i32⟩ : BufTy).Contents (Elt F) → (⟨S6600000, .i32⟩ : BufTy).Contents (Elt F)),
    binary main_v3 main_v52 main_v53 (addi : (⟨S6600000, .i32⟩ : BufTy).Contents (Elt F) → (⟨S6600000, .i32⟩ : BufTy).Contents (Elt F) → (⟨S6600000, .i32⟩ : BufTy).Contents (Elt F)),
    ternary main_v51 main_v53 main_v3 main_v54 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v54 main_v55 (broadcastInDim S6600000x1 ![0] bcast_S6600000_S6600000x1_0 : (⟨S6600000, .i32⟩ : BufTy).Contents (Elt F) → (⟨S6600000x1, .i32⟩ : BufTy).Contents (Elt F)),
    binary main_v49 main_v55 main_v56 ((fun x i => Host.gather gather_S200000x16_S6600000x1_S6600000x16_1_0_n_n_0_1_116 x i) : (⟨S200000x16, .f32⟩ : BufTy).Contents (Elt F) → (⟨S6600000x1, .i32⟩ : BufTy).Contents (Elt F) → (⟨S6600000x16, .f32⟩ : BufTy).Contents (Elt F)),
    unary main_v28 main_v57 (broadcastInDim S6600000x1 ![0] bcast_S6600000_S6600000x1_0 : (⟨S6600000, .f32⟩ : BufTy).Contents (Elt F) → (⟨S6600000x1, .f32⟩ : BufTy).Contents (Elt F)),
    unary main_v57 main_v58 (broadcastInDim S6600000x16 ![0, 1] bcast_S6600000x1_S6600000x16_0_1 : (⟨S6600000x1, .f32⟩ : BufTy).Contents (Elt F) → (⟨S6600000x16, .f32⟩ : BufTy).Contents (Elt F)),
    binary main_v56 main_v58 main_v59 (mulf : (⟨S6600000x16, .f32⟩ : BufTy).Contents (Elt F) → (⟨S6600000x16, .f32⟩ : BufTy).Contents (Elt F) → (⟨S6600000x16, .f32⟩ : BufTy).Contents (Elt F)),
    nullary main_cst_10 (constant S_ .f32 0x00000000#32),
    unary main_cst_10 main_v60 (broadcastInDim S200000x16 ![] bcast_S_S200000x16 : (⟨S_, .f32⟩ : BufTy).Contents (Elt F) → (⟨S200000x16, .f32⟩ : BufTy).Contents (Elt F)),
    unary main_v6 main_v61 (broadcastInDim S6600000x1 ![0] bcast_S6600000_S6600000x1_0 : (⟨S6600000, .i32⟩ : BufTy).Contents (Elt F) → (⟨S6600000x1, .i32⟩ : BufTy).Contents (Elt F)),
    ternary main_v60 main_v61 main_v59 main_v62 ((fun x i u => Host.scatterAdd scatter_S200000x16_S6600000x1_S6600000x16_1_0_0_1 x i u) : (⟨S200000x16, .f32⟩ : BufTy).Contents (Elt F) → (⟨S6600000x1, .i32⟩ : BufTy).Contents (Elt F) → (⟨S6600000x16, .f32⟩ : BufTy).Contents (Elt F) → (⟨S200000x16, .f32⟩ : BufTy).Contents (Elt F)),
    unary main_arg5 main_v63 (broadcastInDim S1x16 ![1] bcast_S16_S1x16_1 : (⟨S16, .f32⟩ : BufTy).Contents (Elt F) → (⟨S1x16, .f32⟩ : BufTy).Contents (Elt F)),
    unary main_v63 main_v64 (broadcastInDim S200000x16 ![0, 1] bcast_S1x16_S200000x16_0_1 : (⟨S1x16, .f32⟩ : BufTy).Contents (Elt F) → (⟨S200000x16, .f32⟩ : BufTy).Contents (Elt F)),
    binary main_v62 main_v64 main_v65 (addf : (⟨S200000x16, .f32⟩ : BufTy).Contents (Elt F) → (⟨S200000x16, .f32⟩ : BufTy).Contents (Elt F) → (⟨S200000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S200000x16, .f32⟩) main_call1_v0) (broadcastInDim S200000x16 ![] bcast_S_S200000x16),
    TRef.binary (TRef.of (T := ⟨S200000x16, .f32⟩) main_v65) (TRef.of (T := ⟨S200000x16, .f32⟩) main_call1_v0) (TRef.of (T := ⟨S200000x16, .f32⟩) main_call1_v1) maximumf,
    TRef.unary (TRef.of (T := ⟨S_, .f32⟩) main_call1_cst) (TRef.of (T := ⟨S200000x16, .f32⟩) main_call1_v2) (broadcastInDim S200000x16 ![] bcast_S_S200000x16),
    TRef.binary (TRef.of (T := ⟨S200000x16, .f32⟩) main_v65) (TRef.of (T := ⟨S200000x16, .f32⟩) main_call1_v2) (TRef.of (T := ⟨S200000x16, .f32⟩) main_call1_v3) subf,
    TRef.binary (TRef.of (T := ⟨S200000x16, .f32⟩) main_call1_v3) (TRef.of (T := ⟨S200000x16, .f32⟩) main_call1_v3) (TRef.of (T := ⟨S200000x16, .i1⟩) main_call1_v4) (cmpf .une),
    TRef.unary (TRef.of (T := ⟨S_, .f32⟩) main_call1_cst) (TRef.of (T := ⟨S200000x16, .f32⟩) main_call1_v5) (broadcastInDim S200000x16 ![] bcast_S_S200000x16),
    TRef.binary (TRef.of (T := ⟨S200000x16, .f32⟩) main_v65) (TRef.of (T := ⟨S200000x16, .f32⟩) main_call1_v5) (TRef.of (T := ⟨S200000x16, .f32⟩) main_call1_v6) addf,
    TRef.unary (TRef.of (T := ⟨S200000x16, .f32⟩) main_call1_v3) (TRef.of (T := ⟨S200000x16, .f32⟩) main_call1_v7) Host.absf,
    TRef.unary (TRef.of (T := ⟨S200000x16, .f32⟩) main_call1_v7) (TRef.of (T := ⟨S200000x16, .f32⟩) main_call1_v8) Host.negf,
    TRef.unary (TRef.of (T := ⟨S200000x16, .f32⟩) main_call1_v8) (TRef.of (T := ⟨S200000x16, .f32⟩) main_call1_v9) Host.exp,
    TRef.unary (TRef.of (T := ⟨S200000x16, .f32⟩) main_call1_v9) (TRef.of (T := ⟨S200000x16, .f32⟩) main_call1_v10) Host.log1p,
    TRef.binary (TRef.of (T := ⟨S200000x16, .f32⟩) main_call1_v1) (TRef.of (T := ⟨S200000x16, .f32⟩) main_call1_v10) (TRef.of (T := ⟨S200000x16, .f32⟩) main_call1_v11) addf,
    TRef.ternary (TRef.of (T := ⟨S200000x16, .i1⟩) main_call1_v4) (TRef.of (T := ⟨S200000x16, .f32⟩) main_call1_v6) (TRef.of (T := ⟨S200000x16, .f32⟩) main_call1_v11) (TRef.of (T := ⟨S200000x16, .f32⟩) main_v66) select,
    unary main_v66 main_v67 (Host.tanh : (⟨S200000x16, .f32⟩ : BufTy).Contents (Elt F) → (⟨S200000x16, .f32⟩ : BufTy).Contents (Elt F)),
    binary main_v65 main_v67 main_v68 (mulf : (⟨S200000x16, .f32⟩ : BufTy).Contents (Elt F) → (⟨S200000x16, .f32⟩ : BufTy).Contents (Elt F) → (⟨S200000x16, .f32⟩ : BufTy).Contents (Elt F)) ]

/-- Operations 109 … 144: layer 3. -/
abbrev seg3 : List (HloOp τ sig (Elt F)) :=
  [ binary main_v68 main_arg6 main_v69 ((fun l r => Host.dotGeneral dot_S200000x16_S16x8_S200000x8_1_0_0_1_n_n none l r) : (⟨S200000x16, .f32⟩ : BufTy).Contents (Elt F) → (⟨S16x8, .f32⟩ : BufTy).Contents (Elt F) → (⟨S200000x8, .f32⟩ : BufTy).Contents (Elt F)),
    nullary main_c_11 (constantI S_ 32 0#32),
    unary main_c_11 main_v70 (broadcastInDim S6600000 ![] bcast_S_S6600000 : (⟨S_, .i32⟩ : BufTy).Contents (Elt F) → (⟨S6600000, .i32⟩ : BufTy).Contents (Elt F)),
    binary main_v3 main_v70 main_v71 (cmpi .slt : (⟨S6600000, .i32⟩ : BufTy).Contents (Elt F) → (⟨S6600000, .i32⟩ : BufTy).Contents (Elt F) → (⟨S6600000, .i1⟩ : BufTy).Contents (Elt F)),
    nullary main_c_12 (constantI S_ 32 200000#32),
    unary main_c_12 main_v72 (broadcastInDim S6600000 ![] bcast_S_S6600000 : (⟨S_, .i32⟩ : BufTy).Contents (Elt F) → (⟨S6600000, .i32⟩ : BufTy).Contents (Elt F)),
    binary main_v3 main_v72 main_v73 (addi : (⟨S6600000, .i32⟩ : BufTy).Contents (Elt F) → (⟨S6600000, .i32⟩ : BufTy).Contents (Elt F) → (⟨S6600000, .i32⟩ : BufTy).Contents (Elt F)),
    ternary main_v71 main_v73 main_v3 main_v74 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v74 main_v75 (broadcastInDim S6600000x1 ![0] bcast_S6600000_S6600000x1_0 : (⟨S6600000, .i32⟩ : BufTy).Contents (Elt F) → (⟨S6600000x1, .i32⟩ : BufTy).Contents (Elt F)),
    binary main_v69 main_v75 main_v76 ((fun x i => Host.gather gather_S200000x8_S6600000x1_S6600000x8_1_0_n_n_0_1_18 x i) : (⟨S200000x8, .f32⟩ : BufTy).Contents (Elt F) → (⟨S6600000x1, .i32⟩ : BufTy).Contents (Elt F) → (⟨S6600000x8, .f32⟩ : BufTy).Contents (Elt F)),
    unary main_v28 main_v77 (broadcastInDim S6600000x1 ![0] bcast_S6600000_S6600000x1_0 : (⟨S6600000, .f32⟩ : BufTy).Contents (Elt F) → (⟨S6600000x1, .f32⟩ : BufTy).Contents (Elt F)),
    unary main_v77 main_v78 (broadcastInDim S6600000x8 ![0, 1] bcast_S6600000x1_S6600000x8_0_1 : (⟨S6600000x1, .f32⟩ : BufTy).Contents (Elt F) → (⟨S6600000x8, .f32⟩ : BufTy).Contents (Elt F)),
    binary main_v76 main_v78 main_v79 (mulf : (⟨S6600000x8, .f32⟩ : BufTy).Contents (Elt F) → (⟨S6600000x8, .f32⟩ : BufTy).Contents (Elt F) → (⟨S6600000x8, .f32⟩ : BufTy).Contents (Elt F)),
    nullary main_cst_13 (constant S_ .f32 0x00000000#32),
    unary main_cst_13 main_v80 (broadcastInDim S200000x8 ![] bcast_S_S200000x8 : (⟨S_, .f32⟩ : BufTy).Contents (Elt F) → (⟨S200000x8, .f32⟩ : BufTy).Contents (Elt F)),
    unary main_v6 main_v81 (broadcastInDim S6600000x1 ![0] bcast_S6600000_S6600000x1_0 : (⟨S6600000, .i32⟩ : BufTy).Contents (Elt F) → (⟨S6600000x1, .i32⟩ : BufTy).Contents (Elt F)),
    ternary main_v80 main_v81 main_v79 main_v82 ((fun x i u => Host.scatterAdd scatter_S200000x8_S6600000x1_S6600000x8_1_0_0_1 x i u) : (⟨S200000x8, .f32⟩ : BufTy).Contents (Elt F) → (⟨S6600000x1, .i32⟩ : BufTy).Contents (Elt F) → (⟨S6600000x8, .f32⟩ : BufTy).Contents (Elt F) → (⟨S200000x8, .f32⟩ : BufTy).Contents (Elt F)),
    unary main_arg7 main_v83 (broadcastInDim S1x8 ![1] bcast_S8_S1x8_1 : (⟨S8, .f32⟩ : BufTy).Contents (Elt F) → (⟨S1x8, .f32⟩ : BufTy).Contents (Elt F)),
    unary main_v83 main_v84 (broadcastInDim S200000x8 ![0, 1] bcast_S1x8_S200000x8_0_1 : (⟨S1x8, .f32⟩ : BufTy).Contents (Elt F) → (⟨S200000x8, .f32⟩ : BufTy).Contents (Elt F)),
    binary main_v82 main_v84 main_v85 (addf : (⟨S200000x8, .f32⟩ : BufTy).Contents (Elt F) → (⟨S200000x8, .f32⟩ : BufTy).Contents (Elt F) → (⟨S200000x8, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S200000x8, .f32⟩) main_call2_v0) (broadcastInDim S200000x8 ![] bcast_S_S200000x8),
    TRef.binary (TRef.of (T := ⟨S200000x8, .f32⟩) main_v85) (TRef.of (T := ⟨S200000x8, .f32⟩) main_call2_v0) (TRef.of (T := ⟨S200000x8, .f32⟩) main_call2_v1) maximumf,
    TRef.unary (TRef.of (T := ⟨S_, .f32⟩) main_call2_cst) (TRef.of (T := ⟨S200000x8, .f32⟩) main_call2_v2) (broadcastInDim S200000x8 ![] bcast_S_S200000x8),
    TRef.binary (TRef.of (T := ⟨S200000x8, .f32⟩) main_v85) (TRef.of (T := ⟨S200000x8, .f32⟩) main_call2_v2) (TRef.of (T := ⟨S200000x8, .f32⟩) main_call2_v3) subf,
    TRef.binary (TRef.of (T := ⟨S200000x8, .f32⟩) main_call2_v3) (TRef.of (T := ⟨S200000x8, .f32⟩) main_call2_v3) (TRef.of (T := ⟨S200000x8, .i1⟩) main_call2_v4) (cmpf .une),
    TRef.unary (TRef.of (T := ⟨S_, .f32⟩) main_call2_cst) (TRef.of (T := ⟨S200000x8, .f32⟩) main_call2_v5) (broadcastInDim S200000x8 ![] bcast_S_S200000x8),
    TRef.binary (TRef.of (T := ⟨S200000x8, .f32⟩) main_v85) (TRef.of (T := ⟨S200000x8, .f32⟩) main_call2_v5) (TRef.of (T := ⟨S200000x8, .f32⟩) main_call2_v6) addf,
    TRef.unary (TRef.of (T := ⟨S200000x8, .f32⟩) main_call2_v3) (TRef.of (T := ⟨S200000x8, .f32⟩) main_call2_v7) Host.absf,
    TRef.unary (TRef.of (T := ⟨S200000x8, .f32⟩) main_call2_v7) (TRef.of (T := ⟨S200000x8, .f32⟩) main_call2_v8) Host.negf,
    TRef.unary (TRef.of (T := ⟨S200000x8, .f32⟩) main_call2_v8) (TRef.of (T := ⟨S200000x8, .f32⟩) main_call2_v9) Host.exp,
    TRef.unary (TRef.of (T := ⟨S200000x8, .f32⟩) main_call2_v9) (TRef.of (T := ⟨S200000x8, .f32⟩) main_call2_v10) Host.log1p,
    TRef.binary (TRef.of (T := ⟨S200000x8, .f32⟩) main_call2_v1) (TRef.of (T := ⟨S200000x8, .f32⟩) main_call2_v10) (TRef.of (T := ⟨S200000x8, .f32⟩) main_call2_v11) addf,
    TRef.ternary (TRef.of (T := ⟨S200000x8, .i1⟩) main_call2_v4) (TRef.of (T := ⟨S200000x8, .f32⟩) main_call2_v6) (TRef.of (T := ⟨S200000x8, .f32⟩) main_call2_v11) (TRef.of (T := ⟨S200000x8, .f32⟩) main_v86) select,
    unary main_v86 main_v87 (Host.tanh : (⟨S200000x8, .f32⟩ : BufTy).Contents (Elt F) → (⟨S200000x8, .f32⟩ : BufTy).Contents (Elt F)),
    binary main_v85 main_v87 main_v88 (mulf : (⟨S200000x8, .f32⟩ : BufTy).Contents (Elt F) → (⟨S200000x8, .f32⟩ : BufTy).Contents (Elt F) → (⟨S200000x8, .f32⟩ : BufTy).Contents (Elt F)) ]

/-- Operations 145 … 164: layer 4 and its bias. -/
abbrev seg4 : List (HloOp τ sig (Elt F)) :=
  [ binary main_v88 main_arg8 main_v89 ((fun l r => Host.dotGeneral dot_S200000x8_S8x2_S200000x2_1_0_0_1_n_n none l r) : (⟨S200000x8, .f32⟩ : BufTy).Contents (Elt F) → (⟨S8x2, .f32⟩ : BufTy).Contents (Elt F) → (⟨S200000x2, .f32⟩ : BufTy).Contents (Elt F)),
    nullary main_c_14 (constantI S_ 32 0#32),
    unary main_c_14 main_v90 (broadcastInDim S6600000 ![] bcast_S_S6600000 : (⟨S_, .i32⟩ : BufTy).Contents (Elt F) → (⟨S6600000, .i32⟩ : BufTy).Contents (Elt F)),
    binary main_v3 main_v90 main_v91 (cmpi .slt : (⟨S6600000, .i32⟩ : BufTy).Contents (Elt F) → (⟨S6600000, .i32⟩ : BufTy).Contents (Elt F) → (⟨S6600000, .i1⟩ : BufTy).Contents (Elt F)),
    nullary main_c_15 (constantI S_ 32 200000#32),
    unary main_c_15 main_v92 (broadcastInDim S6600000 ![] bcast_S_S6600000 : (⟨S_, .i32⟩ : BufTy).Contents (Elt F) → (⟨S6600000, .i32⟩ : BufTy).Contents (Elt F)),
    binary main_v3 main_v92 main_v93 (addi : (⟨S6600000, .i32⟩ : BufTy).Contents (Elt F) → (⟨S6600000, .i32⟩ : BufTy).Contents (Elt F) → (⟨S6600000, .i32⟩ : BufTy).Contents (Elt F)),
    ternary main_v91 main_v93 main_v3 main_v94 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v94 main_v95 (broadcastInDim S6600000x1 ![0] bcast_S6600000_S6600000x1_0 : (⟨S6600000, .i32⟩ : BufTy).Contents (Elt F) → (⟨S6600000x1, .i32⟩ : BufTy).Contents (Elt F)),
    binary main_v89 main_v95 main_v96 ((fun x i => Host.gather gather_S200000x2_S6600000x1_S6600000x2_1_0_n_n_0_1_12 x i) : (⟨S200000x2, .f32⟩ : BufTy).Contents (Elt F) → (⟨S6600000x1, .i32⟩ : BufTy).Contents (Elt F) → (⟨S6600000x2, .f32⟩ : BufTy).Contents (Elt F)),
    unary main_v28 main_v97 (broadcastInDim S6600000x1 ![0] bcast_S6600000_S6600000x1_0 : (⟨S6600000, .f32⟩ : BufTy).Contents (Elt F) → (⟨S6600000x1, .f32⟩ : BufTy).Contents (Elt F)),
    unary main_v97 main_v98 (broadcastInDim S6600000x2 ![0, 1] bcast_S6600000x1_S6600000x2_0_1 : (⟨S6600000x1, .f32⟩ : BufTy).Contents (Elt F) → (⟨S6600000x2, .f32⟩ : BufTy).Contents (Elt F)),
    binary main_v96 main_v98 main_v99 (mulf : (⟨S6600000x2, .f32⟩ : BufTy).Contents (Elt F) → (⟨S6600000x2, .f32⟩ : BufTy).Contents (Elt F) → (⟨S6600000x2, .f32⟩ : BufTy).Contents (Elt F)),
    nullary main_cst_16 (constant S_ .f32 0x00000000#32),
    unary main_cst_16 main_v100 (broadcastInDim S200000x2 ![] bcast_S_S200000x2 : (⟨S_, .f32⟩ : BufTy).Contents (Elt F) → (⟨S200000x2, .f32⟩ : BufTy).Contents (Elt F)),
    unary main_v6 main_v101 (broadcastInDim S6600000x1 ![0] bcast_S6600000_S6600000x1_0 : (⟨S6600000, .i32⟩ : BufTy).Contents (Elt F) → (⟨S6600000x1, .i32⟩ : BufTy).Contents (Elt F)),
    ternary main_v100 main_v101 main_v99 main_v102 ((fun x i u => Host.scatterAdd scatter_S200000x2_S6600000x1_S6600000x2_1_0_0_1 x i u) : (⟨S200000x2, .f32⟩ : BufTy).Contents (Elt F) → (⟨S6600000x1, .i32⟩ : BufTy).Contents (Elt F) → (⟨S6600000x2, .f32⟩ : BufTy).Contents (Elt F) → (⟨S200000x2, .f32⟩ : BufTy).Contents (Elt F)),
    unary main_arg9 main_v103 (broadcastInDim S1x2 ![1] bcast_S2_S1x2_1 : (⟨S2, .f32⟩ : BufTy).Contents (Elt F) → (⟨S1x2, .f32⟩ : BufTy).Contents (Elt F)),
    unary main_v103 main_v104 (broadcastInDim S200000x2 ![0, 1] bcast_S1x2_S200000x2_0_1 : (⟨S1x2, .f32⟩ : BufTy).Contents (Elt F) → (⟨S200000x2, .f32⟩ : BufTy).Contents (Elt F)),
    binary main_v102 main_v104 main_v105 (addf : (⟨S200000x2, .f32⟩ : BufTy).Contents (Elt F) → (⟨S200000x2, .f32⟩ : BufTy).Contents (Elt F) → (⟨S200000x2, .f32⟩ : BufTy).Contents (Elt F)) ]

/-- Operations 165 … 179: the log-softmax of the biased scores. -/
abbrev seg5 : List (HloOp τ sig (Elt F)) :=
  [ TRef.nullary (TRef.of (T := ⟨S_, .f32⟩) main_call3_cst) (constant S_ .f32 0xFF800000#32),
    TRef.binary (TRef.of (T := ⟨S200000x2, .f32⟩) main_v105) (TRef.of (T := ⟨S_, .f32⟩) main_call3_cst) (TRef.of (T := ⟨S200000, .f32⟩) main_call3_v0) (fun x v => Host.reduce FloatOps.maximumf x v reducesTo_S200000x2_S200000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S200000, .f32⟩) main_call3_v1) (broadcastInDim S200000 ![] bcast_S_S200000),
    TRef.binary (TRef.of (T := ⟨S200000, .f32⟩) main_call3_v1) (TRef.of (T := ⟨S200000, .f32⟩) main_call3_v0) (TRef.of (T := ⟨S200000, .f32⟩) main_call3_v2) maximumf,
    TRef.unary (TRef.of (T := ⟨S200000, .f32⟩) main_call3_v2) (TRef.of (T := ⟨S200000x1, .f32⟩) main_call3_v3) (broadcastInDim S200000x1 ![0] bcast_S200000_S200000x1_0),
    TRef.unary (TRef.of (T := ⟨S200000x1, .f32⟩) main_call3_v3) (TRef.of (T := ⟨S200000x2, .f32⟩) main_call3_v4) (broadcastInDim S200000x2 ![0, 1] bcast_S200000x1_S200000x2_0_1),
    TRef.binary (TRef.of (T := ⟨S200000x2, .f32⟩) main_v105) (TRef.of (T := ⟨S200000x2, .f32⟩) main_call3_v4) (TRef.of (T := ⟨S200000x2, .f32⟩) main_call3_v5) subf,
    TRef.unary (TRef.of (T := ⟨S200000x2, .f32⟩) main_call3_v5) (TRef.of (T := ⟨S200000x2, .f32⟩) main_call3_v6) Host.exp,
    TRef.nullary (TRef.of (T := ⟨S_, .f32⟩) main_call3_cst_1) (constant S_ .f32 0x00000000#32),
    TRef.binary (TRef.of (T := ⟨S200000x2, .f32⟩) main_call3_v6) (TRef.of (T := ⟨S_, .f32⟩) main_call3_cst_1) (TRef.of (T := ⟨S200000, .f32⟩) main_call3_v7) (fun x v => Host.reduceAdd x v reducesTo_S200000x2_S200000_d1 h_S_),
    TRef.unary (TRef.of (T := ⟨S200000, .f32⟩) main_call3_v7) (TRef.of (T := ⟨S200000x1, .f32⟩) main_call3_v8) (broadcastInDim S200000x1 ![0] bcast_S200000_S200000x1_0),
    TRef.unary (TRef.of (T := ⟨S200000x1, .f32⟩) main_call3_v8) (TRef.of (T := ⟨S200000x1, .f32⟩) main_call3_v9) Host.log,
    TRef.unary (TRef.of (T := ⟨S200000x1, .f32⟩) main_call3_v9) (TRef.of (T := ⟨S200000x2, .f32⟩) main_call3_v10) (broadcastInDim S200000x2 ![0, 1] bcast_S200000x1_S200000x2_0_1),
    TRef.binary (TRef.of (T := ⟨S200000x2, .f32⟩) main_call3_v5) (TRef.of (T := ⟨S200000x2, .f32⟩) main_call3_v10) (TRef.of (T := ⟨S200000x2, .f32⟩) main_v106) subf ]

set_option maxRecDepth 65536 in
/-- @main's operations are the five segments in order. -/
theorem ops_split : (Cert.ReferenceIdeal.ValueP.ops : List (HloOp τ sig (Elt F))) = seg0 ++ (seg1 ++ (seg2 ++ (seg3 ++ (seg4 ++ seg5)))) := rfl

variable (m : (ℓ : Loc nD τ sig) → Buf (Elt F) ℓ) (c : Dev nD)

-- short names for the ten argument arrays
set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)

/-- The contents at the cuts. -/
def U0 : Valuation τ sig (Elt F) := launchContents m c
def U1 : Valuation τ sig (Elt F) := after seg0 (U0 m c)
def U2 : Valuation τ sig (Elt F) := after seg1 (U1 m c)
def U3 : Valuation τ sig (Elt F) := after seg2 (U2 m c)
def U4 : Valuation τ sig (Elt F) := after seg3 (U3 m c)
def U5 : Valuation τ sig (Elt F) := after seg4 (U4 m c)
def U6 : Valuation τ sig (Elt F) := after seg5 (U5 m c)

/-- The contents after the whole line are those after the last segment. -/
theorem after_ops : after (Cert.ReferenceIdeal.ValueP.ops : List (HloOp τ sig (Elt F))) (launchContents m c) = U6 m c := by
  rw [ops_split, after_append, after_append, after_append, after_append, after_append]
  rfl

/-! ## The first segment: the index lists and the edge normalisation -/
theorem s0_v3 : U1 m c (Proc.devRef .tc main_v3) = Cert.ReferenceIdeal.ReadP.val_main_v3 (F := F) a1 := by
  show after seg0 (U0 m c) (Proc.devRef .tc main_v3) = _
  after_results_simp
  rfl
theorem s0_v6 : U1 m c (Proc.devRef .tc main_v6) = Cert.ReferenceIdeal.ReadP.val_main_v6 (F := F) a1 := by
  show after seg0 (U0 m c) (Proc.devRef .tc main_v6) = _
  after_results_simp
  rfl
theorem s0_v28 : U1 m c (Proc.devRef .tc main_v28) = Cert.ReferenceIdeal.ReadP.val_main_v28 (F := F) a1 := by
  show after seg0 (U0 m c) (Proc.devRef .tc main_v28) = _
  after_results_simp
  rfl

theorem s0_arg0 : U1 m c (Proc.devRef .tc main_arg0) = a0 := by
  show after seg0 (U0 m c) (Proc.devRef .tc main_arg0) = _
  after_results_simp
  rfl
theorem s0_arg2 : U1 m c (Proc.devRef .tc main_arg2) = a2 := by
  show after seg0 (U0 m c) (Proc.devRef .tc main_arg2) = _
  after_results_simp
  rfl
theorem s0_arg3 : U1 m c (Proc.devRef .tc main_arg3) = a3 := by
  show after seg0 (U0 m c) (Proc.devRef .tc main_arg3) = _
  after_results_simp
  rfl
theorem s0_arg4 : U1 m c (Proc.devRef .tc main_arg4) = a4 := by
  show after seg0 (U0 m c) (Proc.devRef .tc main_arg4) = _
  after_results_simp
  rfl
theorem s0_arg5 : U1 m c (Proc.devRef .tc main_arg5) = a5 := by
  show after seg0 (U0 m c) (Proc.devRef .tc main_arg5) = _
  after_results_simp
  rfl
theorem s0_arg6 : U1 m c (Proc.devRef .tc main_arg6) = a6 := by
  show after seg0 (U0 m c) (Proc.devRef .tc main_arg6) = _
  after_results_simp
  rfl
theorem s0_arg7 : U1 m c (Proc.devRef .tc main_arg7) = a7 := by
  show after seg0 (U0 m c) (Proc.devRef .tc main_arg7) = _
  after_results_simp
  rfl
theorem s0_arg8 : U1 m c (Proc.devRef .tc main_arg8) = a8 := by
  show after seg0 (U0 m c) (Proc.devRef .tc main_arg8) = _
  after_results_simp
  rfl
theorem s0_arg9 : U1 m c (Proc.devRef .tc main_arg9) = a9 := by
  show after seg0 (U0 m c) (Proc.devRef .tc main_arg9) = _
  after_results_simp
  rfl

/-! ## Layer 1 -/
theorem s1_v48 : U2 m c (Proc.devRef .tc main_v48) = Cert.ReferenceIdeal.ReadP.val_main_v48 (F := F) a0 a1 a2 a3 := by
  show after seg1 (U1 m c) (Proc.devRef .tc main_v48) = _
  after_results_simp
  rw [s0_arg0 m c, s0_arg2 m c, s0_arg3 m c, s0_v3 m c, s0_v6 m c, s0_v28 m c]
  rfl
theorem s1_v3 : U2 m c (Proc.devRef .tc main_v3) = Cert.ReferenceIdeal.ReadP.val_main_v3 (F := F) a1 := by
  show after seg1 (U1 m c) (Proc.devRef .tc main_v3) = _
  after_results_simp
  exact s0_v3 m c
theorem s1_v6 : U2 m c (Proc.devRef .tc main_v6) = Cert.ReferenceIdeal.ReadP.val_main_v6 (F := F) a1 := by
  show after seg1 (U1 m c) (Proc.devRef .tc main_v6) = _
  after_results_simp
  exact s0_v6 m c
theorem s1_v28 : U2 m c (Proc.devRef .tc main_v28) = Cert.ReferenceIdeal.ReadP.val_main_v28 (F := F) a1 := by
  show after seg1 (U1 m c) (Proc.devRef .tc main_v28) = _
  after_results_simp
  exact s0_v28 m c
theorem s1_arg4 : U2 m c (Proc.devRef .tc main_arg4) = a4 := by
  show after seg1 (U1 m c) (Proc.devRef .tc main_arg4) = _
  after_results_simp
  exact s0_arg4 m c
theorem s1_arg5 : U2 m c (Proc.devRef .tc main_arg5) = a5 := by
  show after seg1 (U1 m c) (Proc.devRef .tc main_arg5) = _
  after_results_simp
  exact s0_arg5 m c
theorem s1_arg6 : U2 m c (Proc.devRef .tc main_arg6) = a6 := by
  show after seg1 (U1 m c) (Proc.devRef .tc main_arg6) = _
  after_results_simp
  exact s0_arg6 m c
theorem s1_arg7 : U2 m c (Proc.devRef .tc main_arg7) = a7 := by
  show after seg1 (U1 m c) (Proc.devRef .tc main_arg7) = _
  after_results_simp
  exact s0_arg7 m c
theorem s1_arg8 : U2 m c (Proc.devRef .tc main_arg8) = a8 := by
  show after seg1 (U1 m c) (Proc.devRef .tc main_arg8) = _
  after_results_simp
  exact s0_arg8 m c
theorem s1_arg9 : U2 m c (Proc.devRef .tc main_arg9) = a9 := by
  show after seg1 (U1 m c) (Proc.devRef .tc main_arg9) = _
  after_results_simp
  exact s0_arg9 m c

/-! ## Layer 2 -/
theorem s2_v68 : U3 m c (Proc.devRef .tc main_v68) = Cert.ReferenceIdeal.ReadP.val_main_v68 (F := F) a0 a1 a2 a3 a4 a5 := by
  show after seg2 (U2 m c) (Proc.devRef .tc main_v68) = _
  after_results_simp
  rw [s1_v48 m c, s1_arg4 m c, s1_arg5 m c, s1_v3 m c, s1_v6 m c, s1_v28 m c]
  rfl
theorem s2_v3 : U3 m c (Proc.devRef .tc main_v3) = Cert.ReferenceIdeal.ReadP.val_main_v3 (F := F) a1 := by
  show after seg2 (U2 m c) (Proc.devRef .tc main_v3) = _
  after_results_simp
  exact s1_v3 m c
theorem s2_v6 : U3 m c (Proc.devRef .tc main_v6) = Cert.ReferenceIdeal.ReadP.val_main_v6 (F := F) a1 := by
  show after seg2 (U2 m c) (Proc.devRef .tc main_v6) = _
  after_results_simp
  exact s1_v6 m c
theorem s2_v28 : U3 m c (Proc.devRef .tc main_v28) = Cert.ReferenceIdeal.ReadP.val_main_v28 (F := F) a1 := by
  show after seg2 (U2 m c) (Proc.devRef .tc main_v28) = _
  after_results_simp
  exact s1_v28 m c
theorem s2_arg6 : U3 m c (Proc.devRef .tc main_arg6) = a6 := by
  show after seg2 (U2 m c) (Proc.devRef .tc main_arg6) = _
  after_results_simp
  exact s1_arg6 m c
theorem s2_arg7 : U3 m c (Proc.devRef .tc main_arg7) = a7 := by
  show after seg2 (U2 m c) (Proc.devRef .tc main_arg7) = _
  after_results_simp
  exact s1_arg7 m c
theorem s2_arg8 : U3 m c (Proc.devRef .tc main_arg8) = a8 := by
  show after seg2 (U2 m c) (Proc.devRef .tc main_arg8) = _
  after_results_simp
  exact s1_arg8 m c
theorem s2_arg9 : U3 m c (Proc.devRef .tc main_arg9) = a9 := by
  show after seg2 (U2 m c) (Proc.devRef .tc main_arg9) = _
  after_results_simp
  exact s1_arg9 m c

/-! ## Layer 3 -/
theorem s3_v88 : U4 m c (Proc.devRef .tc main_v88) = Cert.ReferenceIdeal.ReadP.val_main_v88 (F := F) a0 a1 a2 a3 a4 a5 a6 a7 := by
  show after seg3 (U3 m c) (Proc.devRef .tc main_v88) = _
  after_results_simp
  rw [s2_v68 m c, s2_arg6 m c, s2_arg7 m c, s2_v3 m c, s2_v6 m c, s2_v28 m c]
  rfl
theorem s3_v3 : U4 m c (Proc.devRef .tc main_v3) = Cert.ReferenceIdeal.ReadP.val_main_v3 (F := F) a1 := by
  show after seg3 (U3 m c) (Proc.devRef .tc main_v3) = _
  after_results_simp
  exact s2_v3 m c
theorem s3_v6 : U4 m c (Proc.devRef .tc main_v6) = Cert.ReferenceIdeal.ReadP.val_main_v6 (F := F) a1 := by
  show after seg3 (U3 m c) (Proc.devRef .tc main_v6) = _
  after_results_simp
  exact s2_v6 m c
theorem s3_v28 : U4 m c (Proc.devRef .tc main_v28) = Cert.ReferenceIdeal.ReadP.val_main_v28 (F := F) a1 := by
  show after seg3 (U3 m c) (Proc.devRef .tc main_v28) = _
  after_results_simp
  exact s2_v28 m c
theorem s3_arg8 : U4 m c (Proc.devRef .tc main_arg8) = a8 := by
  show after seg3 (U3 m c) (Proc.devRef .tc main_arg8) = _
  after_results_simp
  exact s2_arg8 m c
theorem s3_arg9 : U4 m c (Proc.devRef .tc main_arg9) = a9 := by
  show after seg3 (U3 m c) (Proc.devRef .tc main_arg9) = _
  after_results_simp
  exact s2_arg9 m c

/-! ## Layer 4, and the log-softmax -/
theorem s4_v105 : U5 m c (Proc.devRef .tc main_v105) = Cert.ReferenceIdeal.ReadP.val_main_v105 (F := F) a0 a1 a2 a3 a4 a5 a6 a7 a8 a9 := by
  show after seg4 (U4 m c) (Proc.devRef .tc main_v105) = _
  after_results_simp
  rw [s3_v88 m c, s3_arg8 m c, s3_arg9 m c, s3_v3 m c, s3_v6 m c, s3_v28 m c]
  rfl

/-- A typed reference to the biased scores' buffer reads and writes it as it is: the buffer's type is the value's. -/
theorem scores_toBuf (v : (⟨S200000x2, .f32⟩ : BufTy).Contents (Elt F)) :
    (TRef.of (T := ⟨S200000x2, .f32⟩) main_v105 : TRef sig ⟨S200000x2, .f32⟩).toBuf v = v := rfl

/-- Likewise for the result's buffer. -/
theorem result_toBuf (v : (⟨S200000x2, .f32⟩ : BufTy).Contents (Elt F)) :
    (TRef.of (T := ⟨S200000x2, .f32⟩) main_v106 : TRef sig ⟨S200000x2, .f32⟩).toBuf v = v := rfl

/-- The log-softmax segment. Its operations belong to a called function and pass every value through a typed reference,
    a transport along "the buffer's type is the value's"; a write followed by a read is the identity transport, so the
    transports are removed first and the remaining host expression is the stage by unfolding. (Removing them first
    matters: two maxima and sums over a 200000 × 2 array are never to be compared by evaluating them at an index.) -/
theorem s5_v106 : U6 m c (Proc.devRef .tc main_v106) = Cert.ReferenceIdeal.ReadP.val_main_v106 (F := F) a0 a1 a2 a3 a4 a5 a6 a7 a8 a9 := by
  show after seg5 (U5 m c) (Proc.devRef .tc main_v106) = _
  after_results_simp
  rw [show U5 m c (Proc.devRef .tc main_v105) = (TRef.of (T := ⟨S200000x2, .f32⟩) main_v105 : TRef sig ⟨S200000x2, .f32⟩).toBuf (Cert.ReferenceIdeal.ReadP.val_main_v105 (F := F) a0 a1 a2 a3 a4 a5 a6 a7 a8 a9)
    from (s4_v105 m c).trans (scores_toBuf _).symm]
  rw [result_toBuf]
  simp only [TRef.ofBuf, TRef.toBuf, cast_cast, cast_eq]
  rfl

/-! ## The run -/

set_option maxRecDepth 8192 in
set_option maxHeartbeats 71600000 in
/-- On every device, from any memory with zero counters: every weakly fair execution of @main terminates with the result
    at the last stage of the ten arguments and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v106) = Cert.ReferenceIdeal.ReadP.val_main_v106 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v106).trans ((congrFun (after_ops m c) _).trans (s5_v106 m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq Cert.ReferenceIdeal.ValueP.scopedRefs_eq Cert.ReferenceIdeal.ValueP.scopedSems_eq defs main (fun _ => Cert.ReferenceIdeal.ValueP.ops)
      Cert.ReferenceIdeal.ValueP.main_eq (fun _ => Cert.ReferenceIdeal.ValueP.ops_sub) m ρ)

end Cert.ReferenceIdeal.Staged

end
-- ==== Proof.lean ====
/-
  The five claims for a four-layer graph convolutional network over 200000 nodes and 6400000 edges (with one self loop per
  node): each layer multiplies the node features by a weight matrix, gathers the products' rows by edge source, scales them
  by the symmetric degree normalisation, sums them by edge destination and adds a bias; the first three layers end in
  mish, the last in a log-softmax over the two classes. The kernel runs the dense products and the bias-and-activation
  steps as row-tiled regions (eight of them) and leaves the gather, scale and scatter-add to host operations; the reference
  is host operations throughout.

  Frames: the two kernel programs' frames are the generated ones; the reference has no region, and its frame is its run
  with the result dropped. The idealization changed nothing that needs a witness (the ledger is empty).

  Equal results at the extended reals: the kernel's result array is read off its run link by link — every region's array
  as one whole-array function of the arrays the region found (a tile of the product is the same rows of the whole product;
  mish and log-softmax act row by row), every host stretch as the same operations the reference applies — and at each
  link it is the reference's stage of the same arguments. No law used needs finiteness: within a dot product the terms are
  only re-indexed (addition of extended reals is commutative and associative), and mish and log-softmax are the same
  expressions on both sides up to the spelling of a negation; so the precondition is never opened.
-/
import proofs.«133024_j22557168239484_2_alg».proof.Defs
import proofs.«133024_j22557168239484_2_alg».proof.Proof.Gen.Kernel
import proofs.«133024_j22557168239484_2_alg».proof.Proof.Gen.Kernel.Skeleton
import proofs.«133024_j22557168239484_2_alg».proof.Proof.Gen.Kernel.Launch
import proofs.«133024_j22557168239484_2_alg».proof.Proof.Gen.Kernel.Points
import proofs.«133024_j22557168239484_2_alg».proof.Proof.Gen.Kernel.Frame
import proofs.«133024_j22557168239484_2_alg».proof.Proof.Gen.KernelIdeal
import proofs.«133024_j22557168239484_2_alg».proof.Proof.Gen.KernelIdeal.Skeleton
import proofs.«133024_j22557168239484_2_alg».proof.Proof.Gen.KernelIdeal.Launch
import proofs.«133024_j22557168239484_2_alg».proof.Proof.Gen.KernelIdeal.Points
import proofs.«133024_j22557168239484_2_alg».proof.Proof.Gen.KernelIdeal.Frame
import proofs.«133024_j22557168239484_2_alg».proof.Proof.Gen.ReferenceIdeal
import proofs.«133024_j22557168239484_2_alg».proof.Proof.Gen.Pre_finite_inputs
import proofs.«133024_j22557168239484_2_alg».proof.Proof.KernelRun
import proofs.«133024_j22557168239484_2_alg».proof.Proof.Through
import proofs.«133024_j22557168239484_2_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, with the result's value dropped. -/
theorem frame_reference_ideal : Cert.frame_ReferenceIdeal := fun m ρ _ =>
  (θ_run Cert.ReferenceIdeal.defs _ _).mono (fun _ h c => (h c).2) (Cert.ReferenceIdeal.Staged.run (F := Ideal) m ρ)

/-- The ledger of the idealization is empty. -/
theorem preserves : Cert.preserves_Kernel_KernelIdeal := trivial

/-- Both idealized programs, from memories that agree on the ten arguments, end with the result array at the same
    function of those arguments: the reference's result stage. -/
theorem algebraic : Cert.algebraic_KernelIdeal_ReferenceIdeal := by
  intro m ρ m' ρ' _ hagree
  refine ⟨fun c => Cert.ReferenceIdeal.ReadP.val_main_v106 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Through.result m ρ c), (h c).2⟩)
      (Cert.KernelIdeal.Chain.run_result (F := Ideal) m ρ)
  · refine (θ_run Cert.ReferenceIdeal.defs _ _).mono (fun _ h c => ⟨(h c).1.trans ?_, (h c).2⟩)
      (Cert.ReferenceIdeal.Staged.run (F := Ideal) m' ρ')
    obtain ⟨e0, e1, e2, e3, e4, e5, e6, e7, e8, e9⟩ := hagree c
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
